-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S_ : Shape := ⟨0, ![]⟩
abbrev S8192 : Shape := ⟨1, ![8192]⟩
abbrev S1024x256 : Shape := ⟨2, ![1024, 256]⟩
abbrev S512x256 : Shape := ⟨2, ![512, 256]⟩
abbrev S1024 : Shape := ⟨1, ![1024]⟩
abbrev S1024x1 : Shape := ⟨2, ![1024, 1]⟩
abbrev S256x512 : Shape := ⟨2, ![256, 512]⟩
abbrev S1024x512 : Shape := ⟨2, ![1024, 512]⟩
abbrev S512 : Shape := ⟨1, ![512]⟩
abbrev S512x1 : Shape := ⟨2, ![512, 1]⟩
abbrev S1x512 : Shape := ⟨2, ![1, 512]⟩

abbrev nBuf : Space → Nat
  | .hbm => 11
  | .vmem => 13
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192x256, .f32⟩
  | .hbm, ⟨5, _⟩ => ⟨S8192x256, .f32⟩
  | .hbm, ⟨6, _⟩ => ⟨S8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S1024, .f32⟩
  | .local _ .vmem, ⟨9, _⟩ => ⟨S1024, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v107 : BitVec 1 := Scalar.cmpi .eq arg1 c15_i32
  let v108 : BitVec 32 := Scalar.extui v107
  let c0_i32_46 : BitVec 32 := 0#32
  let v109 : BitVec 1 := Scalar.cmpi .ne v108 c0_i32_46
  v109

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S8192x256 : S_.BroadcastsInDim S8192x256 (![] : Fin 0 → Fin S8192x256.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  bitsLt_bf16_f32 : FTy.bits .bf16 < FTy.bits .f32
  transposes_S512x256_p1_0_S256x512 : S512x256.Transposes [1, 0] S256x512
  reduces_S1024x256_S1024 : S1024x256.Reduces [1] S1024
  shapeCasts_S1024_S1024x1 : S1024.ShapeCasts S1024x1
  reduces_S512x256_S512 : S512x256.Reduces [1] S512
  shapeCasts_S512_S512x1 : S512.ShapeCasts S512x1
  transposes_S512x1_p1_0_S1x512 : S512x1.Transposes [1, 0] S1x512
  broadcasts_S1024x1_S1024x512 : S1024x1.Broadcasts S1024x512
  broadcasts_S1x512_S1024x512 : S1x512.Broadcasts S1024x512
  reduces_S1024x512_S1024 : S1024x512.Reduces [1] S1024
  shapeCasts_S1024x1_S1024 : S1024x1.ShapeCasts S1024
  inb_S1024_S1024_0 : ∀ a, (![0] : Fin 1 → Nat) a + S1024.size a ≤ S1024.size a
  h_S1024 : 0 < S1024.numel
  reducesTo_S8192_S_d0 : S8192.ReducesTo [0] S_
  h_S_ : 0 < S_.numel
  dot_S1024x256_S256x512_S1024x512_1_0_0_1_n_n_wf : DotDims.WF S1024x256 S256x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S8192x256.size a
  hwx0_2 : ∀ i : grid0.Coords, EltTy.bits .f32 = 32 ∨ (Rect.block (s := S8192x256) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S8192x256.size a
  hwx0_3 : ∀ i : grid0.Coords, EltTy.bits .f32 = 32 ∨ (Rect.block (s := S8192x256) S512x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S8192.size a
  hwx0_4 : ∀ i : grid0.Coords, EltTy.bits .f32 = 32 ∨ (Rect.block (s := S8192) S1024.size (cc0_transform_4 i) (hinb0_4 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S_ : Shape := ⟨0, ![]⟩
abbrev S256x8192 : Shape := ⟨2, ![256, 8192]⟩
abbrev S8192x8192 : Shape := ⟨2, ![8192, 8192]⟩
abbrev S8192 : Shape := ⟨1, ![8192]⟩
abbrev S8192x1 : Shape := ⟨2, ![8192, 1]⟩
abbrev S1x8192 : Shape := ⟨2, ![1, 8192]⟩

abbrev nBuf : Space → Nat
  | .hbm => 114
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192x256, .f32⟩
  | .hbm, ⟨5, _⟩ => ⟨S8192x256, .f32⟩
  | .hbm, ⟨6, _⟩ => ⟨S256x8192, .f32⟩
  | .hbm, ⟨7, _⟩ => ⟨S8192x8192, .f32⟩
  | .hbm, ⟨8, _⟩ => ⟨S8192x256, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S8192x256, .f32⟩
  | .hbm, ⟨13, _⟩ => ⟨S_, .f32⟩
  | .hbm, ⟨14, _⟩ => ⟨S8192, .f32⟩
  | .hbm, ⟨15, _⟩ => ⟨S1x8192, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .i1⟩
  | .hbm, ⟨26, _⟩ => ⟨S_, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S256x8192, .f32⟩
  | .hbm, ⟨40, _⟩ => ⟨S8192x8192, .f32⟩
  | .hbm, ⟨41, _⟩ => ⟨S8192x256, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x256, .f32⟩
  | .hbm, ⟨46, _⟩ => ⟨S_, .f32⟩
  | .hbm, ⟨47, _⟩ => ⟨S8192, .f32⟩
  | .hbm, ⟨48, _⟩ => ⟨S1x8192, .f32⟩
  | .hbm, ⟨49, _⟩ => ⟨S8192x8192, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192x8192, .f32⟩
  | .hbm, ⟨54, _⟩ => ⟨S8192x8192, .f32⟩
  | .hbm, ⟨55, _⟩ => ⟨S8192x8192, .f32⟩
  | .hbm, ⟨56, _⟩ => ⟨S_, .f32⟩
  | .hbm, ⟨57, _⟩ => ⟨S8192x8192, .f32⟩
  | .hbm, ⟨58, _⟩ => ⟨S8192x8192, .i1⟩
  | .hbm, ⟨59, _⟩ => ⟨S_, .f32⟩
  | .hbm, ⟨60, _⟩ => ⟨S_, .f32⟩
  | .hbm, ⟨61, _⟩ => ⟨S8192x8192, .f32⟩
  | .hbm, ⟨62, _⟩ => ⟨S8192x8192, .f32⟩
  | .hbm, ⟨63, _⟩ => ⟨S_, .f32⟩
  | .hbm, ⟨64, _⟩ => ⟨S8192x8192, .f32⟩
  | .hbm, ⟨65, _⟩ => ⟨S8192x8192, .f32⟩
  | .hbm, ⟨66, _⟩ => ⟨S8192x8192, .f32⟩
  | .hbm, ⟨67, _⟩ => ⟨S_, .f32⟩
  | .hbm, ⟨68, _⟩ => ⟨S8192x8192, .f32⟩
  | .hbm, ⟨69, _⟩ => ⟨S8192x8192, .f32⟩
  | .hbm, ⟨70, _⟩ => ⟨S_, .f32⟩
  | .hbm, ⟨71, _⟩ => ⟨S8192, .f32⟩
  | .hbm, ⟨72, _⟩ => ⟨S8192, .f32⟩
  | .hbm, ⟨73, _⟩ => ⟨S256x8192, .f32⟩
  | .hbm, ⟨74, _⟩ => ⟨S8192x8192, .f32⟩
  | .hbm, ⟨75, _⟩ => ⟨S8192x256, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x256, .f32⟩
  | .hbm, ⟨80, _⟩ => ⟨S_, .f32⟩
  | .hbm, ⟨81, _⟩ => ⟨S8192, .f32⟩
  | .hbm, ⟨82, _⟩ => ⟨S1x8192, .f32⟩
  | .hbm, ⟨83, _⟩ => ⟨S8192x8192, .f32⟩
  | .hbm, ⟨84, _⟩ => ⟨S8192x8192, .f32⟩
  | .hbm, ⟨85, _⟩ => ⟨S8192x8192, .f32⟩
  | .hbm, ⟨86, _⟩ => ⟨S_, .f32⟩
  | .hbm, ⟨87, _⟩ => ⟨S8192x8192, .f32⟩
  | .hbm, ⟨88, _⟩ => ⟨S8192x8192, .f32⟩
  | .hbm, ⟨89, _⟩ => ⟨S8192x8192, .f32⟩
  | .hbm, ⟨90, _⟩ => ⟨S_, .f32⟩
  | .hbm, ⟨91, _⟩ => ⟨S8192x8192, .f32⟩
  | .hbm, ⟨92, _⟩ => ⟨S8192x8192, .i1⟩
  | .hbm, ⟨93, _⟩ => ⟨S_, .f32⟩
  | .hbm, ⟨94, _⟩ => ⟨S_, .f32⟩
  | .hbm, ⟨95, _⟩ => ⟨S8192x8192, .f32⟩
  | .hbm, ⟨96, _⟩ => ⟨S8192x8192, .f32⟩
  | .hbm, ⟨97, _⟩ => ⟨S_, .f32⟩
  | .hbm, ⟨98, _⟩ => ⟨S8192x8192, .f32⟩
  | .hbm, ⟨99, _⟩ => ⟨S8192x8192, .f32⟩
  | .hbm, ⟨100, _⟩ => ⟨S8192x8192, .f32⟩
  | .hbm, ⟨101, _⟩ => ⟨S_, .f32⟩
  | .hbm, ⟨102, _⟩ => ⟨S8192x8192, .f32⟩
  | .hbm, ⟨103, _⟩ => ⟨S8192x8192, .f32⟩
  | .hbm, ⟨104, _⟩ => ⟨S_, .f32⟩
  | .hbm, ⟨105, _⟩ => ⟨S8192, .f32⟩
  | .hbm, ⟨106, _⟩ => ⟨S_, .f32⟩
  | .hbm, ⟨107, _⟩ => ⟨S8192, .f32⟩
  | .hbm, ⟨108, _⟩ => ⟨S8192, .f32⟩
  | .hbm, ⟨109, _⟩ => ⟨S8192, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_10 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_11 : Ref sig .tc := ⟨.hbm, 56, rfl⟩
abbrev main_v40 : Ref sig .tc := ⟨.hbm, 57, rfl⟩
abbrev main_v41 : Ref sig .tc := ⟨.hbm, 58, rfl⟩
abbrev main_cst_12 : Ref sig .tc := ⟨.hbm, 59, rfl⟩
abbrev main_call1_v0 : Ref sig .tc := ⟨.hbm, 60, rfl⟩
abbrev main_call1_v1 : Ref sig .tc := ⟨.hbm, 61, rfl⟩
abbrev main_v42 : Ref sig .tc := ⟨.hbm, 62, rfl⟩
abbrev main_cst_13 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_14 : Ref sig .tc := ⟨.hbm, 67, rfl⟩
abbrev main_v46 : Ref sig .tc := ⟨.hbm, 68, rfl⟩
abbrev main_v47 : Ref sig .tc := ⟨.hbm, 69, rfl⟩
abbrev main_cst_15 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_16 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_17 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_18 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_19 : Ref sig .tc := ⟨.hbm, 90, rfl⟩
abbrev main_v64 : Ref sig .tc := ⟨.hbm, 91, rfl⟩
abbrev main_v65 : Ref sig .tc := ⟨.hbm, 92, rfl⟩
abbrev main_cst_20 : Ref sig .tc := ⟨.hbm, 93, rfl⟩
abbrev main_call2_v0 : Ref sig .tc := ⟨.hbm, 94, rfl⟩
abbrev main_call2_v1 : Ref sig .tc := ⟨.hbm, 95, rfl⟩
abbrev main_v66 : Ref sig .tc := ⟨.hbm, 96, rfl⟩
abbrev main_cst_21 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_22 : Ref sig .tc := ⟨.hbm, 101, rfl⟩
abbrev main_v70 : Ref sig .tc := ⟨.hbm, 102, rfl⟩
abbrev main_v71 : Ref sig .tc := ⟨.hbm, 103, rfl⟩
abbrev main_cst_23 : Ref sig .tc := ⟨.hbm, 104, rfl⟩
abbrev main_v72 : Ref sig .tc := ⟨.hbm, 105, rfl⟩
abbrev main_cst_24 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_25 : Ref sig .tc := ⟨.hbm, 110, rfl⟩
abbrev main_v76 : Ref sig .tc := ⟨.hbm, 111, rfl⟩
abbrev main_cst_26 : Ref sig .tc := ⟨.hbm, 112, rfl⟩
abbrev main_v77 : Ref sig .tc := ⟨.hbm, 113, rfl⟩

abbrev nD : Nat := 1
abbrev τ : Topo := Topo.v7x

variable {F : FTy → Type} [FloatOps F]

class Facts₀ : Prop where
  bcast_S_S8192x256 : S_.BroadcastsInDim S8192x256 (![] : Fin 0 → Fin S8192x256.rank)
  transposes_S8192x256_S256x8192_1_0 : S8192x256.Transposes [1, 0] S256x8192
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KBBase.lean ====
/-
  The program around its one kernel region, and what the region's runs are stated over.

  @main is four host operations (x + y, the constant 2, its broadcast, the quotient: the midpoint matrix), the region,
  and four more (the sum of the 8192 row losses from 0, and its quotient by 8192). The region's grid has 8 × 16 = 128
  points, point t = 16·i + j: row block i of 1024 rows against column block j of 512 rows. Windows 0 and 1 hold row
  block i of x and of y (fetched when j = 0), windows 2 and 3 column block j of x and of the midpoint matrix (fetched
  at every point), window 4 the 1024 row losses of row block i, stored and written back only when j = 15. The three
  accumulators are zeroed when j = 0 and carried from point to point. Windows 0 and 2 are blocks of ONE array, x.
-/
import proofs.«100745_j80685255622904_1_alg».proof.Proof.Gen.Kernel.Launch
import proofs.«100745_j80685255622904_1_alg».proof.Proof.Gen.Kernel.Skeleton
import proofs.«100745_j80685255622904_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffer contents when the region is entered: after the four host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the four later operations, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later operations touch only unscoped buffers: the windows' arrays and the buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 winFacts₀0.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And they write no array of a window: each writes its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, Finset.mem_singleton] <;> exact StableHlo.devRef_ne_of_ne (by decide)

/-- No operation before the region writes an argument: the region finds x and y as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, decided over the grid -/

/-- "This is the first column block" (the accumulators are zeroed): the body's first condition from the coordinates. -/
abbrev cond0_0 (i : grid0.Coords) : Prop := (Scalar.cmpi .ne (Scalar.extui (Scalar.cmpi .eq (BitVec.ofNat 32 (i 1).val) 0#32)) 0#32) = 1#1
/-- It holds at the points 16·i. -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last column block" (the row losses are stored): the body's second condition. -/
abbrev cond0_1 (i : grid0.Coords) : Prop := k0_cond2 i = 1#1
/-- It holds at the points 16·i + 15. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last column block nothing is stored into the output window and it is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last column block the output window is stored into. -/
theorem liveAt0_4 : ∀ t : Fin cfg0.N, cond0_1 (grid0.coords t) → cfg0.idle 4 (grid0.coords t) = false := by decide +kernel

/-! ## The memrefs the body is called with -/

/-- One staging buffer of the output window, through which its contents are stated. -/
abbrev VO0_4 : View sig .tc .vmem S1024 .f32 := (Memref.whole cc0_stg4_0 : Memref sig .tc .vmem S1024 .f32).view
abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024 .f32 := win0_4.stage (cfg0.slots t 4)
abbrev hs0_4 (t : Fin cfg0.N) : (ms0_4 t).IsWhole := hstage0_4 ((cfg0.slots t 4).cast nbuf0_4)
/-- The three accumulators: whole scoped buffers of the kernel's own. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2
abbrev VS0_0 : View sig .tc .vmem S1024x1 .f32 := scM0_0.view
abbrev VS0_1 : View sig .tc .vmem S1024x1 .f32 := scM0_1.view
abbrev VS0_2 : View sig .tc .vmem S1024x1 .f32 := scM0_2.view

/-- What the launch hands the region besides the windows: the three accumulators at some contents, and the generator
    register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.KBRunB.lean ====
/-
  The body at a middle column block (neither the first nor the last): it loads the four input blocks, adds each of the
  three block sums to its accumulator, and stores nothing into the output window.
-/
import proofs.«100745_j80685255622904_1_alg».proof.Proof.KBBase

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the middle-block body leaves in each accumulator, with the body's triple: from the inputs' buffers at their
    blocks, the output's buffer at anything it was handed (given back untouched) and the accumulators at what the point
    before left, the body runs and hands back the inputs and the output as they were and each accumulator with its
    pieces written. -/
noncomputable def kernelRun0_B (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x256 .f32) (x1 : Vec F S1024x256 .f32) (x2 : Vec F S512x256 .f32) (x3 : Vec F S512x256 .f32) (xs0 xs1 xs2 : Vec F S1024x1 .f32) :
    Σ' (LS0 : List (View.Piece (Elt F) S1024x1 .f32)) (LS1 : List (View.Piece (Elt F) S1024x1 .f32)), { LS2 : List (View.Piece (Elt F) S1024x1 .f32) //
      ∀ (xi4 : Vec F S1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__mqjs_row_kernel i arg2 harg2 arg3 harg3 arg4 harg4 arg5 harg5 arg6 harg6 arg7 harg7 arg8 harg8 arg9 harg9) K } := by
  refine ⟨?_, ?_, ?_, fun xi4 E K => ?run⟩
  case run =>
    simp only [cc0__mqjs_row_kernel_eq_skeleton]; unfold cc0__mqjs_row_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Gen

end
-- ==== Proof.KBRunA.lean ====
/-
  The body at the first column block: it zeroes the three accumulators, loads the four input blocks, adds each block sum
  to its (zeroed) accumulator, and stores nothing into the output window.
-/
import proofs.«100745_j80685255622904_1_alg».proof.Proof.KBRunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the first-block body leaves in each accumulator, with the body's triple: the accumulators may hold
    anything when the body starts (it overwrites them before it uses them). -/
noncomputable def kernelRun0_A (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x256 .f32) (x1 : Vec F S1024x256 .f32) (x2 : Vec F S512x256 .f32) (x3 : Vec F S512x256 .f32) :
    Σ' (LS0 : List (View.Piece (Elt F) S1024x1 .f32)) (LS1 : List (View.Piece (Elt F) S1024x1 .f32)), { LS2 : List (View.Piece (Elt F) S1024x1 .f32) //
      ∀ (xi4 : Vec F S1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__mqjs_row_kernel i arg2 harg2 arg3 harg3 arg4 harg4 arg5 harg5 arg6 harg6 arg7 harg7 arg8 harg8 arg9 harg9) K } := by
  refine ⟨?_, ?_, ?_, fun xi4 E K => ?run⟩
  case run =>
    simp only [cc0__mqjs_row_kernel_eq_skeleton]; unfold cc0__mqjs_row_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.Kernel.Gen

end
-- ==== Proof.KBRunC.lean ====
/-
  The body at the last column block: it loads the four input blocks, adds each block sum to its accumulator, and stores
  the 1024 row losses (first accumulator + second − third · scale) into the output window.
-/
import proofs.«100745_j80685255622904_1_alg».proof.Proof.KBRunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the last-block body leaves in the output window's buffer and in each accumulator, with the body's
    triple: the output's buffer may hold anything when the body starts. -/
noncomputable def kernelRun0_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x256 .f32) (x1 : Vec F S1024x256 .f32) (x2 : Vec F S512x256 .f32) (x3 : Vec F S512x256 .f32) (xs0 xs1 xs2 : Vec F S1024x1 .f32) :
    Σ' (L4 : List (View.Piece (Elt F) S1024 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__mqjs_row_kernel i arg2 harg2 arg3 harg3 arg4 harg4 arg5 harg5 arg6 harg6 arg7 harg7 arg8 harg8 arg9 harg9) K } := by
  refine ⟨?_, ?_, ?_, ?_, fun E K => ?run⟩
  case run =>
    simp only [cc0__mqjs_row_kernel_eq_skeleton]; unfold cc0__mqjs_row_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.Kernel.Gen

end
-- ==== Proof.KBFrame.lean ====
/-
  What the three accumulators and the output window hold after each grid point, the proof data of the region, and the
  body's obligation at every point.

  Point t = 16·i + j. After the body at t each accumulator holds what the case of t leaves: at j = 0 the zeroed
  accumulator plus the block sum, afterwards the previous point's contents plus the block sum; the output window's
  buffer holds the row losses only after a point with j = 15, which is also the only point that writes it back.
-/
import proofs.«100745_j80685255622904_1_alg».proof.Proof.KBRunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window's buffer at a point that stores nothing into it: a placeholder nothing consults (the window is
    neither written back there nor read at the next point). -/
def outIdle0_4 : Vec F S1024 .f32 := VO0_4.read (Elt F) (VO0_4.writes (Elt F) VO0_4.junk [])

/-- The pieces of accumulator 0 in this case tile it, so they cover it. -/
theorem scover0_A_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x256 .f32) (x1 : Vec F S1024x256 .f32) (x2 : Vec F S512x256 .f32) (x3 : Vec F S512x256 .f32) (y : S1024x1.Idx) :
    ∃ pc ∈ (kernelRun0_A c i arg2 harg2 arg3 harg3 arg4 harg4 arg5 harg5 arg6 harg6 arg7 harg7 arg8 harg8 arg9 harg9 hc0 hc1 x0 x1 x2 x3).1, y ∈ pc.1.set :=
  View.cover_of_tiledL (kernelRun0_A c i arg2 harg2 arg3 harg3 arg4 harg4 arg5 harg5 arg6 harg6 arg7 harg7 arg8 harg8 arg9 harg9 hc0 hc1 x0 x1 x2 x3).1 S1024x1.size (by sl_kernel_rfl) y

/-- What this case leaves in accumulator 0: its pieces read back. -/
def sout0_A_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x256 .f32) (x1 : Vec F S1024x256 .f32) (x2 : Vec F S512x256 .f32) (x3 : Vec F S512x256 .f32) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3).1)

/-- The pieces of accumulator 1 in this case tile it, so they cover it. -/
theorem scover0_A_1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x256 .f32) (x1 : Vec F S1024x256 .f32) (x2 : Vec F S512x256 .f32) (x3 : Vec F S512x256 .f32) (y : S1024x1.Idx) :
    ∃ pc ∈ (kernelRun0_A c i arg2 harg2 arg3 harg3 arg4 harg4 arg5 harg5 arg6 harg6 arg7 harg7 arg8 harg8 arg9 harg9 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.1 S1024x1.size (by sl_kernel_rfl) y

/-- What this case leaves in accumulator 1: its pieces read back. -/
def sout0_A_1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x256 .f32) (x1 : Vec F S1024x256 .f32) (x2 : Vec F S512x256 .f32) (x3 : Vec F S512x256 .f32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2 x3).2.1)

/-- The pieces of accumulator 2 in this case tile it, so they cover it. -/
theorem scover0_A_2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x256 .f32) (x1 : Vec F S1024x256 .f32) (x2 : Vec F S512x256 .f32) (x3 : Vec F S512x256 .f32) (y : S1024x1.Idx) :
    ∃ pc ∈ (kernelRun0_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.2.1 S1024x1.size (by sl_kernel_rfl) y

/-- What this case leaves in accumulator 2: its pieces read back. -/
def sout0_A_2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x256 .f32) (x1 : Vec F S1024x256 .f32) (x2 : Vec F S512x256 .f32) (x3 : Vec F S512x256 .f32) : Vec F S1024x1 .f32 :=
  VS0_2.read (Elt F) (VS0_2.writes (Elt F) VS0_2.junk (kernelRun0_A c i arg2 harg2 arg3 harg3 arg4 harg4 arg5 harg5 arg6 harg6 arg7 harg7 arg8 harg8 arg9 harg9 hc0 hc1 x0 x1 x2 x3).2.2.1)

/-- The pieces of accumulator 0 in this case tile it, so they cover it. -/
theorem scover0_B_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x256 .f32) (x1 : Vec F S1024x256 .f32) (x2 : Vec F S512x256 .f32) (x3 : Vec F S512x256 .f32) (xs0 xs1 xs2 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1 xs2).1 S1024x1.size (by sl_kernel_rfl) y

/-- What this case leaves in accumulator 0: its pieces read back. -/
def sout0_B_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x256 .f32) (x1 : Vec F S1024x256 .f32) (x2 : Vec F S512x256 .f32) (x3 : Vec F S512x256 .f32) (xs0 xs1 xs2 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 xs0 xs1 xs2).1)

/-- The pieces of accumulator 1 in this case tile it, so they cover it. -/
theorem scover0_B_1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x256 .f32) (x1 : Vec F S1024x256 .f32) (x2 : Vec F S512x256 .f32) (x3 : Vec F S512x256 .f32) (xs0 xs1 xs2 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What this case leaves in accumulator 1: its pieces read back. -/
def sout0_B_1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x256 .f32) (x1 : Vec F S1024x256 .f32) (x2 : Vec F S512x256 .f32) (x3 : Vec F S512x256 .f32) (xs0 xs1 xs2 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 x3 xs0 xs1 xs2).2.1)

/-- The pieces of accumulator 2 in this case tile it, so they cover it. -/
theorem scover0_B_2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x256 .f32) (x1 : Vec F S1024x256 .f32) (x2 : Vec F S512x256 .f32) (x3 : Vec F S512x256 .f32) (xs0 xs1 xs2 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What this case leaves in accumulator 2: its pieces read back. -/
def sout0_B_2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x256 .f32) (x1 : Vec F S1024x256 .f32) (x2 : Vec F S512x256 .f32) (x3 : Vec F S512x256 .f32) (xs0 xs1 xs2 : Vec F S1024x1 .f32) : Vec F S1024x1 .f32 :=
  VS0_2.read (Elt F) (VS0_2.writes (Elt F) VS0_2.junk (kernelRun0_B c i arg2 harg2 arg3 harg3 arg4 harg4 arg5 harg5 arg6 harg6 arg7 harg7 arg8 harg8 arg9 harg9 hc0 hc1 x0 x1 x2 x3 xs0 xs1 xs2).2.2.1)

/-- The pieces of accumulator 0 in this case tile it, so they cover it. -/
theorem scover0_C_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x256 .f32) (x1 : Vec F S1024x256 .f32) (x2 : Vec F S512x256 .f32) (x3 : Vec F S512x256 .f32) (xs0 xs1 xs2 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What this case leaves in accumulator 0: its pieces read back. -/
def sout0_C_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x256 .f32) (x1 : Vec F S1024x256 .f32) (x2 : Vec F S512x256 .f32) (x3 : Vec F S512x256 .f32) (xs0 xs1 xs2 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 xs0 xs1 xs2).2.1)

/-- The pieces of accumulator 1 in this case tile it, so they cover it. -/
theorem scover0_C_1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x256 .f32) (x1 : Vec F S1024x256 .f32) (x2 : Vec F S512x256 .f32) (x3 : Vec F S512x256 .f32) (xs0 xs1 xs2 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What this case leaves in accumulator 1: its pieces read back. -/
def sout0_C_1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x256 .f32) (x1 : Vec F S1024x256 .f32) (x2 : Vec F S512x256 .f32) (x3 : Vec F S512x256 .f32) (xs0 xs1 xs2 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 x3 xs0 xs1 xs2).2.2.1)

/-- The pieces of accumulator 2 in this case tile it, so they cover it. -/
theorem scover0_C_2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x256 .f32) (x1 : Vec F S1024x256 .f32) (x2 : Vec F S512x256 .f32) (x3 : Vec F S512x256 .f32) (xs0 xs1 xs2 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1 xs2).2.2.2.1 S1024x1.size (by sl_kernel_rfl) y

/-- What this case leaves in accumulator 2: its pieces read back. -/
def sout0_C_2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x256 .f32) (x1 : Vec F S1024x256 .f32) (x2 : Vec F S512x256 .f32) (x3 : Vec F S512x256 .f32) (xs0 xs1 xs2 : Vec F S1024x1 .f32) : Vec F S1024x1 .f32 :=
  VS0_2.read (Elt F) (VS0_2.writes (Elt F) VS0_2.junk (kernelRun0_C c i arg2 harg2 arg3 harg3 arg4 harg4 arg5 harg5 arg6 harg6 arg7 harg7 arg8 harg8 arg9 harg9 hc0 hc1 x0 x1 x2 x3 xs0 xs1 xs2).2.2.2.1)

/-- The last-block body's one store into the output window tiles its block, so it covers it. -/
theorem cover0_C_4 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x256 .f32) (x1 : Vec F S1024x256 .f32) (x2 : Vec F S512x256 .f32) (x3 : Vec F S512x256 .f32) (xs0 xs1 xs2 : Vec F S1024x1 .f32) (y : S1024.Idx) :
    ∃ pc ∈ (kernelRun0_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1 xs2).1 S1024.size (by sl_kernel_rfl) y

/-- What the last-block body leaves in the output window's buffer: its pieces read back. -/
def out0_C_4 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x256 .f32) (x1 : Vec F S1024x256 .f32) (x2 : Vec F S512x256 .f32) (x3 : Vec F S512x256 .f32) (xs0 xs1 xs2 : Vec F S1024x1 .f32) : Vec F S1024 .f32 :=
  VO0_4.read (Elt F) (VO0_4.writes (Elt F) VO0_4.junk (kernelRun0_C c i arg2 harg2 arg3 harg3 arg4 harg4 arg5 harg5 arg6 harg6 arg7 harg7 arg8 harg8 arg9 harg9 hc0 hc1 x0 x1 x2 x3 xs0 xs1 xs2).1)

/-! ## What the buffers hold after each point -/

/-- The accumulation. After the body at position `n`: the output window's buffer, then the three accumulators — the
    case the closed forms select at `n`, run at the point's memrefs and input blocks, the accumulators taken (away from
    the first column block) at what position `n - 1` left. No point is both a first and a last column block. -/
def outsAt0 (c : Dev nD) : (n : ℕ) → n < cfg0.N → Vec F S1024 .f32 × Vec F S1024x1 .f32 × Vec F S1024x1 .f32 × Vec F S1024x1 .f32
  | 0, hn => (outIdle0_4, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 16 = 0 then
      if h1 : (n + 1) % 16 = 15 then
        False.elim (by omega)
      else
        (outIdle0_4, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 16 = 15 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2)
      else
        (outIdle0_4, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2)

/-- `outsAt0` at a first column block. -/
theorem outsAt0_A (c : Dev nD) (t : Fin cfg0.N) (h0 : t.val % 16 = 0) (h1 : ¬t.val % 16 = 15) :
    outsAt0 m c t.val t.isLt = (outIdle0_4, sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- `outsAt0` at a middle column block: over what the point before left. -/
theorem outsAt0_B (c : Dev nD) (t : Fin cfg0.N) (h0 : ¬t.val % 16 = 0) (h1 : ¬t.val % 16 = 15) :
    outsAt0 m c t.val t.isLt = (outIdle0_4, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last column block: over what the point before left. -/
theorem outsAt0_C (c : Dev nD) (t : Fin cfg0.N) (h0 : ¬t.val % 16 = 0) (h1 : t.val % 16 = 15) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point whatever the launch hands over (the accumulators
    at anything); afterwards the three accumulators at what the point before left, and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The proof data -/

/-- The region's proof data on core `c`: the arrays as the region finds them; after the body at point `t` each input's
    buffer at its block and the output's at `outsAt0`; the invariant `PhiS`; nothing owed. The array x is read by
    windows 0 and 2: each holds one half of it, the other arrays are held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨2, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem q0_0 (c : Dev nD) : (dats m 0 c).q 0 = fullShare.left := rfl
theorem q0_1 (c : Dev nD) : (dats m 0 c).q 1 = fullShare := rfl
theorem q0_2 (c : Dev nD) : (dats m 0 c).q 2 = fullShare.right := rfl
theorem q0_3 (c : Dev nD) : (dats m 0 c).q 3 = fullShare := rfl

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body's obligation at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the closed forms say which case the point is in; that
    case's run applies, the invariant handing it the accumulators at what the point before left (at anything before the
    first point) and taking them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 16 = 0
  · by_cases h1 : t.val % 16 = 15
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0 sout0_A_1 sout0_A_2; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t)).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t)).2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (by rw [hz])
    by_cases h1 : t.val % 16 = 15
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0 sout0_C_1 sout0_C_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _)
          unfold owns; iexists _; isplitr
          swap; · iexact HS2
          ipureintro; exact View.read_writes_of_cover _ _ _ _ _ (scover0_C_2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0 sout0_B_1 sout0_B_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _)
          unfold owns; iexists _; isplitr
          swap; · iexact HS2
          ipureintro; exact View.read_writes_of_cover _ _ _ _ _ (scover0_B_2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's holdings back: the accumulators' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

end Cert.Kernel.Gen

end
-- ==== Proof.KBShared.lean ====
/-
  The launch of the kernel region when two of its input windows read one array.

  Windows 0 and 2 are blocks of one array, x: window 0 reads row block i of it and window 2 column block j. The
  launch rule does not need the windows' arrays distinct; it asks how the distinct buffers behind them, each held whole
  at the full share, make the windows' arrays at the shares the proof data names. Here x's points-to is split into the
  two halves of the full share: window 0 holds the left half and window 2 the right half, both at the same contents,
  which no window writes. The other three arrays (y, the midpoint matrix, the row losses) are each one window's, whole.

  After the region four operations remain: they read the row losses and write four buffers that bypass the region. For
  them the two halves of x are joined again (both hold the region-entry contents), so that every buffer they may touch
  is held whole; afterwards x is split again.
-/
import proofs.«100745_j80685255622904_1_alg».proof.Proof.KBBase

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the five windows' arrays: x, y, the midpoint matrix and the row losses. -/
theorem arrBufs_eq (c : Dev nD) (Vv : (b : Ref sig .tc) → Buf (Elt F) ((c : Thread nD τ).loc b)) :
    (Pipeline.arrBufs spec0 c Vv : sProp 𝕄)
      = iprop((((c : Thread nD τ).loc main_arg0) ↦{fullShare} Vv main_arg0) ∗ (((c : Thread nD τ).loc main_arg1) ↦{fullShare} Vv main_arg1)
          ∗ (((c : Thread nD τ).loc main_v2) ↦{fullShare} Vv main_v2) ∗ (((c : Thread nD τ).loc main_v3) ↦{fullShare} Vv main_v3)) := by
  unfold Pipeline.arrBufs
  exact bigSep_eq_bigSepL_of_eq [main_arg0, main_arg1, main_v2, main_v3] (by decide) (by decide) _

/-- The share each window holds its array at. -/
theorem share_in {c : Dev nD} (dat : Dat τ (Elt F) Unit ℕ (UR sig nD τ) ℕ cfg0 c) (w : Fin cfg0.W) (hw : (cfg0.win w).isOut = false) :
    dat.share w = dat.q w := by
  unfold Dat.share; rw [hw]; rfl
theorem share_out {c : Dev nD} (dat : Dat τ (Elt F) Unit ℕ (UR sig nD τ) ℕ cfg0 c) : dat.share 4 = fullShare := by
  unfold Dat.share; rfl

/-- The windows' arrays one by one, each a whole buffer at its window's share: x is held twice, by window 0 at
    the left half of the full share and by window 2 at the right half. -/
theorem arrays_eq5 {c : Dev nD} (dat : Dat τ (Elt F) Unit ℕ (UR sig nD τ) ℕ cfg0 c)
    (hq0 : dat.q 0 = fullShare.left) (hq2 : dat.q 2 = fullShare.right) (hq1 : dat.q 1 = fullShare) (hq3 : dat.q 3 = fullShare)
    (Fv : (w : Fin cfg0.W) → Buf (Elt F) ((cfg0.win w).arr.view.loc (c : Thread nD τ))) :
    (dat.arrays Fv : sProp 𝕄)
      = iprop((((c : Thread nD τ).loc main_arg0) ↦{fullShare.left} Fv 0) ∗ (((c : Thread nD τ).loc main_arg1) ↦{fullShare} Fv 1)
          ∗ (((c : Thread nD τ).loc main_arg0) ↦{fullShare.right} Fv 2) ∗ (((c : Thread nD τ).loc main_v2) ↦{fullShare} Fv 3)
          ∗ (((c : Thread nD τ).loc main_v3) ↦{fullShare} Fv 4)) := by
  unfold Dat.arrays
  rw [bigSep_W0, share_in dat 0 rfl, share_in dat 1 rfl, share_in dat 2 rfl, share_in dat 3 rfl, share_out dat, hq0, hq1, hq2, hq3]
  simp only [(arr_whole0 0).set_eq_univ, (arr_whole0 1).set_eq_univ, (arr_whole0 2).set_eq_univ, (arr_whole0 3).set_eq_univ, (arr_whole0 4).set_eq_univ]
  try rfl

/-- The launch's buffers behind the arrays make the proof data's arrays at entry: x's points-to is split into its two
    halves, one for each of the two windows that read it. -/
theorem hsplit_shared (dats : (p : Fin 1) → (c : Dev nD) → Dat τ (Elt F) Unit ℕ (UR sig nD τ) ℕ (cfgs p) c)
    (hq0 : ∀ c, (dats 0 c).q 0 = fullShare.left) (hq2 : ∀ c, (dats 0 c).q 2 = fullShare.right)
    (hq1 : ∀ c, (dats 0 c).q 1 = fullShare) (hq3 : ∀ c, (dats 0 c).q 3 = fullShare)
    (hA : ∀ c w, (dats 0 c).A w = V m c (Pipeline.arrRef spec0 w)) (c : Dev nD) :
    (Pipeline.arrBufs spec0 c (V m c) : sProp 𝕄) ⊢ (dats 0 c).arrays ((dats 0 c).arrAt · 0) := by
  rw [arrBufs_eq, arrays_eq5 (dats 0 c) (hq0 c) (hq2 c) (hq1 c) (hq3 c),
    show (dats 0 c).arrAt 0 0 = V m c (Pipeline.arrRef spec0 0) from hA c 0, show (dats 0 c).arrAt 1 0 = V m c (Pipeline.arrRef spec0 1) from hA c 1,
    show (dats 0 c).arrAt 2 0 = V m c (Pipeline.arrRef spec0 2) from hA c 2, show (dats 0 c).arrAt 3 0 = V m c (Pipeline.arrRef spec0 3) from hA c 3,
    show (dats 0 c).arrAt 4 0 = V m c (Pipeline.arrRef spec0 4) from hA c 4]
  iintro ⟨H0, H1, H2, H3⟩
  ihave H0 := (pointsTo_share (PosShare.mem_left_op_right fullShare)).1 $$ H0
  icases H0 with ⟨H0l, H0r⟩
  isplitl [H0l]; · iexact H0l
  isplitl [H1]; · iexact H1
  isplitl [H0r]; · iexact H0r
  isplitl [H2]; · iexact H2
  iexact H3

/-! ## The four operations after the region -/

/-- The buffers the later operations may touch, held at contents `Wv`: the four buffers behind the windows' arrays,
    and the buffers that bypass the region. The arrays need not be distinct for this. -/
theorem held_tail (c : Dev nD) (Wv : Valuation τ sig (Elt F)) :
    (StableHlo.held (c : Thread nD τ) (Pipeline.tailRefs sig Pipeline.Prefetch.none spec0) Wv : sProp 𝕄)
      = iprop(Pipeline.arrBufs spec0 c (fun b => Wv (Proc.devRef .tc b))
          ∗ Pipeline.unscopedRestP Pipeline.Prefetch.none spec0 c (fun b => Wv (Proc.devRef .tc b))) := by
  classical
  have hdisj : Disjoint (Finset.univ.image (Pipeline.arrRef spec0)) (Pipeline.restRefsP sig Pipeline.Prefetch.none spec0) :=
    Finset.disjoint_left.mpr fun b hb hr => (Finset.mem_sdiff.mp (Finset.mem_sdiff.mp hr).1).2 hb
  unfold StableHlo.held Pipeline.tailRefs Pipeline.arrBufs Pipeline.unscopedRestP
  rw [bigSep_map, bigSep_union hdisj]
  rfl

/-- The contents the region leaves, read at a buffer behind some window's array, when every window on that buffer
    holds the same contents `x`: whichever of them is picked, it is `x`. -/
theorem withArrays_at (c : Dev nD) (Vv : Valuation τ sig (Elt F))
    (A : (w : Fin 5) → Buf (Elt F) ((spec0 w).arr.view.loc (c : Thread nD τ))) (b : Ref sig .tc)
    (x : Buf (Elt F) ((c : Thread nD τ).loc b)) (hex : ∃ w, Pipeline.arrRef spec0 w = b)
    (hall : ∀ w, Pipeline.arrRef spec0 w = b → HEq (A w) x) :
    Pipeline.withArrays spec0 c Vv A (Proc.devRef .tc b) = x := by
  obtain ⟨w, hw⟩ := hex
  have h : ∃ w', Proc.devRef .tc (Pipeline.arrRef spec0 w') = Proc.devRef (τ := τ) .tc b := ⟨w, congrArg _ hw⟩
  unfold Pipeline.withArrays
  rw [dif_pos h]
  exact eq_of_heq ((cast_heq _ _).trans (hall _ (Proc.devRef_injective _ h.choose_spec)))

section Exit

variable (dats : (p : Fin 1) → (c : Dev nD) → Dat τ (Elt F) Unit ℕ (UR sig nD τ) ℕ (cfgs p) c)
  (hA : ∀ c w, (dats 0 c).A w = V m c (Pipeline.arrRef spec0 w))

/-- The core's buffer contents when the region is left: each window's array at what the proof data computes, every
    other buffer as the region found it. -/
abbrev WX (c : Dev nD) : Valuation τ sig (Elt F) := Pipeline.withArrays spec0 c (V0 m c) fun w => (dats 0 c).arrAt w cfg0.N

include hA in
/-- An input window's array is never written: it holds the region-entry contents throughout. -/
theorem arrAt_in0 (c : Dev nD) (n : ℕ) : (dats 0 c).arrAt 0 n = V m c main_arg0 := ((dats 0 c).arrAt_in 0 rfl n).trans (hA c 0)
include hA in
theorem arrAt_in1 (c : Dev nD) (n : ℕ) : (dats 0 c).arrAt 1 n = V m c main_arg1 := ((dats 0 c).arrAt_in 1 rfl n).trans (hA c 1)
include hA in
theorem arrAt_in2 (c : Dev nD) (n : ℕ) : (dats 0 c).arrAt 2 n = V m c main_arg0 := ((dats 0 c).arrAt_in 2 rfl n).trans (hA c 2)
include hA in
theorem arrAt_in3 (c : Dev nD) (n : ℕ) : (dats 0 c).arrAt 3 n = V m c main_v2 := ((dats 0 c).arrAt_in 3 rfl n).trans (hA c 3)

include hA in
/-- x is read by windows 0 and 2, which hold it at equal contents. -/
theorem WX_arg0 (c : Dev nD) : WX m dats c (Proc.devRef .tc main_arg0) = V m c main_arg0 :=
  withArrays_at c _ _ main_arg0 _ ⟨0, rfl⟩ fun w hw => by
    rcases (by decide : ∀ w : Fin 5, Pipeline.arrRef spec0 w = main_arg0 → w = 0 ∨ w = 2) w hw with rfl | rfl
    · exact heq_of_eq (arrAt_in0 m dats hA c _)
    · exact heq_of_eq (arrAt_in2 m dats hA c _)
include hA in
theorem WX_arg1 (c : Dev nD) : WX m dats c (Proc.devRef .tc main_arg1) = V m c main_arg1 :=
  withArrays_at c _ _ main_arg1 _ ⟨1, rfl⟩ fun w hw => by
    obtain rfl := (by decide : ∀ w : Fin 5, Pipeline.arrRef spec0 w = main_arg1 → w = 1) w hw
    exact heq_of_eq (arrAt_in1 m dats hA c _)
include hA in
theorem WX_v2 (c : Dev nD) : WX m dats c (Proc.devRef .tc main_v2) = V m c main_v2 :=
  withArrays_at c _ _ main_v2 _ ⟨3, rfl⟩ fun w hw => by
    obtain rfl := (by decide : ∀ w : Fin 5, Pipeline.arrRef spec0 w = main_v2 → w = 3) w hw
    exact heq_of_eq (arrAt_in3 m dats hA c _)
/-- The row losses are window 4's alone. -/
theorem WX_v3 (c : Dev nD) : WX m dats c (Proc.devRef .tc main_v3) = (dats 0 c).arrAt 4 cfg0.N :=
  withArrays_at c _ _ main_v3 _ ⟨4, rfl⟩ fun w hw => by
    obtain rfl := (by decide : ∀ w : Fin 5, Pipeline.arrRef spec0 w = main_v3 → w = 4) w hw
    exact HEq.rfl

/-- A buffer that bypasses the region is left as the region found it. -/
theorem WX_rest (c : Dev nD) (b : Ref sig .tc) (hb : b ∈ Pipeline.restRefsP sig Pipeline.Prefetch.none spec0) :
    WX m dats c (Proc.devRef .tc b) = V m c b :=
  Pipeline.withArrays_of_ne spec0 c (V0 m c) _ b fun w e =>
    (Finset.mem_sdiff.mp (Finset.mem_sdiff.mp hb).1).2 (Finset.mem_image.mpr ⟨w, Finset.mem_univ _, e⟩)

end Exit

/-- x's two halves with the other three arrays are the four buffers held whole, -/
theorem exit_join (c : Dev nD) (x0 : Buf (Elt F) ((c : Thread nD τ).loc main_arg0)) (x1 : Buf (Elt F) ((c : Thread nD τ).loc main_arg1))
    (x2 : Buf (Elt F) ((c : Thread nD τ).loc main_v2)) (x3 : Buf (Elt F) ((c : Thread nD τ).loc main_v3)) :
    (iprop((((c : Thread nD τ).loc main_arg0) ↦{fullShare.left} x0) ∗ (((c : Thread nD τ).loc main_arg1) ↦{fullShare} x1)
        ∗ (((c : Thread nD τ).loc main_arg0) ↦{fullShare.right} x0) ∗ (((c : Thread nD τ).loc main_v2) ↦{fullShare} x2)
        ∗ (((c : Thread nD τ).loc main_v3) ↦{fullShare} x3)) : sProp 𝕄)
      ⊢ iprop((((c : Thread nD τ).loc main_arg0) ↦{fullShare} x0) ∗ (((c : Thread nD τ).loc main_arg1) ↦{fullShare} x1)
        ∗ (((c : Thread nD τ).loc main_v2) ↦{fullShare} x2) ∗ (((c : Thread nD τ).loc main_v3) ↦{fullShare} x3)) := by
  iintro ⟨H0l, H1, H0r, H2, H3⟩
  isplitl [H0l H0r]
  · iapply (pointsTo_share (PosShare.mem_left_op_right fullShare)).2
    isplitl [H0l]; · iexact H0l
    iexact H0r
  isplitl [H1]; · iexact H1
  isplitl [H2]; · iexact H2
  iexact H3
/-- and back. -/
theorem exit_split (c : Dev nD) (x0 : Buf (Elt F) ((c : Thread nD τ).loc main_arg0)) (x1 : Buf (Elt F) ((c : Thread nD τ).loc main_arg1))
    (x2 : Buf (Elt F) ((c : Thread nD τ).loc main_v2)) (x3 : Buf (Elt F) ((c : Thread nD τ).loc main_v3)) :
    (iprop((((c : Thread nD τ).loc main_arg0) ↦{fullShare} x0) ∗ (((c : Thread nD τ).loc main_arg1) ↦{fullShare} x1)
        ∗ (((c : Thread nD τ).loc main_v2) ↦{fullShare} x2) ∗ (((c : Thread nD τ).loc main_v3) ↦{fullShare} x3)) : sProp 𝕄)
      ⊢ iprop((((c : Thread nD τ).loc main_arg0) ↦{fullShare.left} x0) ∗ (((c : Thread nD τ).loc main_arg1) ↦{fullShare} x1)
        ∗ (((c : Thread nD τ).loc main_arg0) ↦{fullShare.right} x0) ∗ (((c : Thread nD τ).loc main_v2) ↦{fullShare} x2)
        ∗ (((c : Thread nD τ).loc main_v3) ↦{fullShare} x3)) := by
  iintro ⟨H0, H1, H2, H3⟩
  ihave H0 := (pointsTo_share (PosShare.mem_left_op_right fullShare)).1 $$ H0
  icases H0 with ⟨H0l, H0r⟩
  isplitl [H0l]; · iexact H0l
  isplitl [H1]; · iexact H1
  isplitl [H0r]; · iexact H0r
  isplitl [H2]; · iexact H2
  iexact H3

section Tail

variable (dats : (p : Fin 1) → (c : Dev nD) → Dat τ (Elt F) Unit ℕ (UR sig nD τ) ℕ (cfgs p) c)
  (hq0 : ∀ c, (dats 0 c).q 0 = fullShare.left) (hq2 : ∀ c, (dats 0 c).q 2 = fullShare.right)
  (hq1 : ∀ c, (dats 0 c).q 1 = fullShare) (hq3 : ∀ c, (dats 0 c).q 3 = fullShare)
  (hA : ∀ c w, (dats 0 c).A w = V m c (Pipeline.arrRef spec0 w))

include hq0 hq2 hq1 hq3 hA in
/-- When the region is left the windows' arrays are the four buffers behind them held whole at the exit contents: x's
    two halves, both at the region-entry contents, make its full share. -/
theorem arrays_exit (c : Dev nD) :
    ((dats 0 c).arrays ((dats 0 c).arrAt · cfg0.N) : sProp 𝕄)
      = Pipeline.arrBufs spec0 c (fun b => WX m dats c (Proc.devRef .tc b)) := by
  rw [arrays_eq5 (dats 0 c) (hq0 c) (hq2 c) (hq1 c) (hq3 c), arrAt_in0 m dats hA c, arrAt_in1 m dats hA c, arrAt_in2 m dats hA c,
    arrAt_in3 m dats hA c, arrBufs_eq, WX_arg0 m dats hA c, WX_arg1 m dats hA c, WX_v2 m dats hA c, WX_v3 m dats c]
  exact BI.Entails.antisymm (exit_join c _ _ _ _) (exit_split c _ _ _ _)

/-- The buffers that bypass the region, at the exit contents, are as the region found them. -/
theorem rest_exit (c : Dev nD) :
    (Pipeline.unscopedRestP Pipeline.Prefetch.none spec0 c (fun b => WX m dats c (Proc.devRef .tc b)) : sProp 𝕄)
      = Pipeline.unscopedRestP Pipeline.Prefetch.none spec0 c (V m c) := by
  unfold Pipeline.unscopedRestP
  exact bigSep_congr fun b hb => by beta_reduce; rw [WX_rest m dats c b hb]

/-- None of the four later operations writes a buffer behind a window's array. -/
theorem arrBufs_after (c : Dev nD) :
    (Pipeline.arrBufs spec0 c (fun b => StableHlo.after ([hostOps1] : List (List (HloOp τ sig (Elt F)))).flatten (WX m dats c) (Proc.devRef .tc b)) : sProp 𝕄)
      = Pipeline.arrBufs spec0 c (fun b => WX m dats c (Proc.devRef .tc b)) := by
  classical
  unfold Pipeline.arrBufs
  exact bigSep_congr fun b hb => by
    obtain ⟨w, -, rfl⟩ := Finset.mem_image.mp hb
    beta_reduce
    rw [StableHlo.after_of_forall_not_mem _ _ fun op hop => ?_]
    obtain ⟨ops, hops, hop⟩ := List.mem_flatten.mp hop
    exact sfx_keeps ops hops op hop w

include hq0 hq2 hq1 hq3 hA in
/-- The four later operations, from the region's exit: holding the boundary, the windows' arrays at their shares and the
    bypassing buffers as the region found them, they run and hand back the arrays unchanged and the bypassing buffers at
    what the operations compute from the exit contents. -/
theorem htail_shared (c : Dev nD) (Q' : PUnit → sProp 𝕄) :
      iprop((iprop((dats 0 c).arrays ((dats 0 c).arrAt · cfg0.N)
                ∗ Pipeline.unscopedRestP (Ix := Unit) (Name := ℕ) (U := UR sig nD τ) (Lvl := ℕ) Pipeline.Prefetch.none spec0 c (Pipeline.afterTail₀ cfgs dats 0 (V0 m) [hostOps1] c)) -∗ Q' ⟨⟩)
          ∗ boundary (c : Thread nD τ) ∗ (dats 0 c).arrays ((dats 0 c).arrAt · cfg0.N)
          ∗ Pipeline.unscopedRestP (Ix := Unit) (Name := ℕ) (U := UR sig nD τ) (Lvl := ℕ) Pipeline.Prefetch.none spec0 c (V m c))
        ⊢ wp frame (wpE (Pipeline.defs (pcfgs (F := F)) defs₀) (Variants.lift Variants.none) (c : Thread nD τ) none) Set.univ
            (Pipeline.chain ([hostOps1].map StableHlo.seq)) Q' := by
  have hW : (StableHlo.held (c : Thread nD τ) (Pipeline.tailRefs sig Pipeline.Prefetch.none spec0) (WX m dats c) : sProp 𝕄)
      = iprop((dats 0 c).arrays ((dats 0 c).arrAt · cfg0.N)
          ∗ Pipeline.unscopedRestP (Ix := Unit) (Name := ℕ) (U := UR sig nD τ) (Lvl := ℕ) Pipeline.Prefetch.none spec0 c (V m c)) := by
    rw [held_tail, rest_exit, arrays_exit m dats hq0 hq2 hq1 hq3 hA c]
  have hW' : (StableHlo.held (c : Thread nD τ) (Pipeline.tailRefs sig Pipeline.Prefetch.none spec0)
        (StableHlo.after ([hostOps1] : List (List (HloOp τ sig (Elt F)))).flatten (WX m dats c)) : sProp 𝕄)
      = iprop((dats 0 c).arrays ((dats 0 c).arrAt · cfg0.N)
          ∗ Pipeline.unscopedRestP (Ix := Unit) (Name := ℕ) (U := UR sig nD τ) (Lvl := ℕ) Pipeline.Prefetch.none spec0 c (Pipeline.afterTail₀ cfgs dats 0 (V0 m) [hostOps1] c)) := by
    rw [held_tail, arrBufs_after, arrays_exit m dats hq0 hq2 hq1 hq3 hA c]
    rfl
  rw [← List.append_nil (([hostOps1] : List (List (HloOp τ sig (Elt F)))).map StableHlo.seq), ← hW]
  iintro ⟨Hk, Hb⟩
  iapply (Pipeline.wp_seqs_then (pcfgs (F := F)) defs₀ Variants.none c (Pipeline.tailRefs sig Pipeline.Prefetch.none spec0) [] [hostOps1] sfx_sub sfx_fresh (WX m dats c)) $$ Hb
  iintro Hb
  rw [Pipeline.chain_nil, wp_pure, hW']
  imodintro
  iapply Hk
  icases Hb with ⟨-, H⟩
  iexact H

end Tail

set_option backward.isDefEq.respectTransparency.types false in
/-- Every weakly fair execution of @main terminates with each window's array at what the proof data computes and every
    other unscoped buffer as the four later operations leave it: the launch rule at this kernel's windows, two of which
    read one array, x, each at half of the full share. -/
theorem run_shared_of (dats : (p : Fin 1) → (c : Dev nD) → Dat τ (Elt F) Unit ℕ (UR sig nD τ) ℕ (cfgs p) c)
    (hq0 : ∀ c, (dats 0 c).q 0 = fullShare.left) (hq2 : ∀ c, (dats 0 c).q 2 = fullShare.right)
    (hq1 : ∀ c, (dats 0 c).q 1 = fullShare) (hq3 : ∀ c, (dats 0 c).q 3 = fullShare)
    (hbody : ∀ c, Pipeline.BodyObligationLoose (dats 0 c) defs₀ Variants.none () Set.univ)
    (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c)
    (htail : ∀ (c : Dev nD) (Q' : PUnit → sProp 𝕄),
      iprop((iprop((dats 0 c).arrays ((dats 0 c).arrAt · cfg0.N)
                ∗ Pipeline.unscopedRestP (Ix := Unit) (Name := ℕ) (U := UR sig nD τ) (Lvl := ℕ) Pipeline.Prefetch.none spec0 c (Pipeline.afterTail₀ cfgs dats 0 (V0 m) [hostOps1] c)) -∗ Q' ⟨⟩)
          ∗ boundary (c : Thread nD τ) ∗ (dats 0 c).arrays ((dats 0 c).arrAt · cfg0.N)
          ∗ Pipeline.unscopedRestP (Ix := Unit) (Name := ℕ) (U := UR sig nD τ) (Lvl := ℕ) Pipeline.Prefetch.none spec0 c (V m c))
        ⊢ wp frame (wpE (Pipeline.defs (pcfgs (F := F)) defs₀) (Variants.lift Variants.none) (c : Thread nD τ) none) Set.univ
            (Pipeline.chain ([hostOps1].map StableHlo.seq)) Q') :
    θ_run defs (onTc (τ := τ) (main (F := F))) (s₀ m ρ) (Pipeline.FramePost cfgs dats 0 (Pipeline.afterTail₀ cfgs dats 0 (V0 m) [hostOps1])) := by
  classical
  exact Pipeline.θ_run_region_pf_tail (fun q => (cfgs q).toPCfg (Val := Elt F)) (fun q => (cfgs q).toPCfg_adm) dats () cellOf_inj (0 : Fin 1)
    winFacts₀0 (Pipeline.OwnSemFacts.none spec0) (Pipeline.PreFacts.none spec0) emb₁ defs₀ Variants.none m ρ main
    (fun _ => Pipeline.chain ([hostOps1].map StableHlo.seq)) hbody
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit_shared m dats hq0 hq2 hq1 hq3 hA)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Pipeline.afterTail₀ cfgs dats 0 (V0 m) [hostOps1] c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := htail)
    (QY := fun c s => ∀ b ∈ Pipeline.restRefsP sig Pipeline.Prefetch.none spec0, s.mem ((c : Thread nD τ).loc b) = Pipeline.afterTail₀ cfgs dats 0 (V0 m) [hostOps1] c b)
    (hY := fun c s' => by
      iintro ⟨-, HU, HSI⟩
      unfold Pipeline.unscopedRestP
      imodintro
      iapply (pointsTo_read_all (Pipeline.restRefsP sig Pipeline.Prefetch.none spec0) (fun b => (c : Thread nD τ).loc b) (Pipeline.afterTail₀ cfgs dats 0 (V0 m) [hostOps1] c) s')
      isplitl [HU] <;> iassumption)
    (hQ := fun s h c => ⟨(h c).1, Pipeline.rest_of_restP Pipeline.Prefetch.none spec0 Pipeline.Prefetch.Contents.none c (Pipeline.afterTail₀ cfgs dats 0 (V0 m) [hostOps1] c) s (fun k => k.elim0) (h c).2.1 (h c).2.2⟩)

/-- The same with the four later operations run: nothing is assumed of them. -/
theorem run_shared (dats : (p : Fin 1) → (c : Dev nD) → Dat τ (Elt F) Unit ℕ (UR sig nD τ) ℕ (cfgs p) c)
    (hq0 : ∀ c, (dats 0 c).q 0 = fullShare.left) (hq2 : ∀ c, (dats 0 c).q 2 = fullShare.right)
    (hq1 : ∀ c, (dats 0 c).q 1 = fullShare) (hq3 : ∀ c, (dats 0 c).q 3 = fullShare)
    (hbody : ∀ c, Pipeline.BodyObligationLoose (dats 0 c) defs₀ Variants.none () Set.univ)
    (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ) (Pipeline.FramePost cfgs dats 0 (Pipeline.afterTail₀ cfgs dats 0 (V0 m) [hostOps1])) :=
  run_shared_of m ρ dats hq0 hq2 hq1 hq3 hbody howed hA hin hout (htail_shared m dats hq0 hq2 hq1 hq3 hA)

end Cert.Kernel.Gen

end
-- ==== Proof.KBMain.lean ====
/-
  The region's run and the frame: every weakly fair execution of @main terminates without a fault, each window's array
  ends at what the proof data computes (an input array as it was), every other buffer at what the four later host
  operations leave; in particular the two argument matrices end unchanged.
-/
import proofs.«100745_j80685255622904_1_alg».proof.Proof.KBFrame
import proofs.«100745_j80685255622904_1_alg».proof.Proof.KBShared

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run of @main: the frame run for windows 0 and 2 on one array, at this kernel's proof data. -/
theorem run_main : θ_run defs (onTc (τ := τ) (main (F := F))) (s₀ m ρ) (Pipeline.FramePost cfgs (dats m) 0 (Pipeline.afterTail₀ cfgs (dats m) 0 (V0 m) [hostOps1])) :=
  run_shared m ρ (dats m) (q0_0 m) (q0_2 m) (q0_1 m) (q0_3 m) (fun c => (body_obligation m c).loose) (fun _ _ => rfl) (A_eq m) (hin m) (hout m)

/-- The frame: the program runs to the end and both argument matrices end as launched (each is an input window's
    array: window 0 reads x, window 1 reads y). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩) (run_main m ρ)

end Cert.Kernel.Gen

end
-- ==== Proof.KIBase.lean ====
/-
  The program around its one kernel region, and what the region's runs are stated over.

  @main is four host operations (x + y, the constant 2, its broadcast, the quotient: the midpoint matrix), the region,
  and four more (the sum of the 8192 row losses from 0, and its quotient by 8192). The region's grid has 8 × 16 = 128
  points, point t = 16·i + j: row block i of 1024 rows against column block j of 512 rows. Windows 0 and 1 hold row
  block i of x and of y (fetched when j = 0), windows 2 and 3 column block j of x and of the midpoint matrix (fetched
  at every point), window 4 the 1024 row losses of row block i, stored and written back only when j = 15. The three
  accumulators are zeroed when j = 0 and carried from point to point. Windows 0 and 2 are blocks of ONE array, x.
-/
import proofs.«100745_j80685255622904_1_alg».proof.Proof.Gen.KernelIdeal.Launch
import proofs.«100745_j80685255622904_1_alg».proof.Proof.Gen.KernelIdeal.Skeleton
import proofs.«100745_j80685255622904_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The core's buffer contents when the region is entered: after the four host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the four later operations, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later operations touch only unscoped buffers: the windows' arrays and the buffers that bypass the region. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 winFacts₀0.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And they write no array of a window: each writes its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, Finset.mem_singleton] <;> exact StableHlo.devRef_ne_of_ne (by decide)

/-- No operation before the region writes an argument: the region finds x and y as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions, decided over the grid -/

/-- "This is the first column block" (the accumulators are zeroed): the body's first condition from the coordinates. -/
abbrev cond0_0 (i : grid0.Coords) : Prop := (Scalar.cmpi .ne (Scalar.extui (Scalar.cmpi .eq (BitVec.ofNat 32 (i 1).val) 0#32)) 0#32) = 1#1
/-- It holds at the points 16·i. -/
theorem hcond0_0 : ∀ t : Fin cfg0.N, cond0_0 (grid0.coords t) ↔ t.val % 16 = 0 :=
  (by decide +kernel : ∀ t : Fin grid0.N, cond0_0 (grid0.coords t) ↔ t.val % 16 = 0)

/-- "This is the last column block" (the row losses are stored): the body's second condition. -/
abbrev cond0_1 (i : grid0.Coords) : Prop := k0_cond2 i = 1#1
/-- It holds at the points 16·i + 15. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last column block nothing is stored into the output window and it is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last column block the output window is stored into. -/
theorem liveAt0_4 : ∀ t : Fin cfg0.N, cond0_1 (grid0.coords t) → cfg0.idle 4 (grid0.coords t) = false := by decide +kernel

/-! ## The memrefs the body is called with -/

/-- One staging buffer of the output window, through which its contents are stated. -/
abbrev VO0_4 : View sig .tc .vmem S1024 .f32 := (Memref.whole cc0_stg4_0 : Memref sig .tc .vmem S1024 .f32).view
abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024 .f32 := win0_4.stage (cfg0.slots t 4)
abbrev hs0_4 (t : Fin cfg0.N) : (ms0_4 t).IsWhole := hstage0_4 ((cfg0.slots t 4).cast nbuf0_4)
/-- The three accumulators: whole scoped buffers of the kernel's own. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x1 .f32 := Memref.whole cc0_scratch2
abbrev VS0_0 : View sig .tc .vmem S1024x1 .f32 := scM0_0.view
abbrev VS0_1 : View sig .tc .vmem S1024x1 .f32 := scM0_1.view
abbrev VS0_2 : View sig .tc .vmem S1024x1 .f32 := scM0_2.view

/-- What the launch hands the region besides the windows: the three accumulators at some contents, and the generator
    register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.KIRunB.lean ====
/-
  The body at a middle column block (neither the first nor the last): it loads the four input blocks, adds each of the
  three block sums to its accumulator, and stores nothing into the output window.
-/
import proofs.«100745_j80685255622904_1_alg».proof.Proof.KIBase

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the middle-block body leaves in each accumulator, with the body's triple: from the inputs' buffers at their
    blocks, the output's buffer at anything it was handed (given back untouched) and the accumulators at what the point
    before left, the body runs and hands back the inputs and the output as they were and each accumulator with its
    pieces written. -/
noncomputable def kernelRun0_B (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x256 .f32) (x1 : Vec F S1024x256 .f32) (x2 : Vec F S512x256 .f32) (x3 : Vec F S512x256 .f32) (xs0 xs1 xs2 : Vec F S1024x1 .f32) :
    Σ' (LS0 : List (View.Piece (Elt F) S1024x1 .f32)) (LS1 : List (View.Piece (Elt F) S1024x1 .f32)), { LS2 : List (View.Piece (Elt F) S1024x1 .f32) //
      ∀ (xi4 : Vec F S1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__mqjs_row_kernel i arg2 harg2 arg3 harg3 arg4 harg4 arg5 harg5 arg6 harg6 arg7 harg7 arg8 harg8 arg9 harg9) K } := by
  refine ⟨?_, ?_, ?_, fun xi4 E K => ?run⟩
  case run =>
    simp only [cc0__mqjs_row_kernel_eq_skeleton]; unfold cc0__mqjs_row_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hf4
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Gen

end
-- ==== Proof.KIRunA.lean ====
/-
  The body at the first column block: it zeroes the three accumulators, loads the four input blocks, adds each block sum
  to its (zeroed) accumulator, and stores nothing into the output window.
-/
import proofs.«100745_j80685255622904_1_alg».proof.Proof.KIRunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the first-block body leaves in each accumulator, with the body's triple: the accumulators may hold
    anything when the body starts (it overwrites them before it uses them). -/
noncomputable def kernelRun0_A (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x256 .f32) (x1 : Vec F S1024x256 .f32) (x2 : Vec F S512x256 .f32) (x3 : Vec F S512x256 .f32) :
    Σ' (LS0 : List (View.Piece (Elt F) S1024x1 .f32)) (LS1 : List (View.Piece (Elt F) S1024x1 .f32)), { LS2 : List (View.Piece (Elt F) S1024x1 .f32) //
      ∀ (xi4 : Vec F S1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__mqjs_row_kernel i arg2 harg2 arg3 harg3 arg4 harg4 arg5 harg5 arg6 harg6 arg7 harg7 arg8 harg8 arg9 harg9) K } := by
  refine ⟨?_, ?_, ?_, fun xi4 E K => ?run⟩
  case run =>
    simp only [cc0__mqjs_row_kernel_eq_skeleton]; unfold cc0__mqjs_row_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    iexists _; iexact HS2

end Cert.KernelIdeal.Gen

end
-- ==== Proof.KIRunC.lean ====
/-
  The body at the last column block: it loads the four input blocks, adds each block sum to its accumulator, and stores
  the 1024 row losses (first accumulator + second − third · scale) into the output window.
-/
import proofs.«100745_j80685255622904_1_alg».proof.Proof.KIRunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the last-block body leaves in the output window's buffer and in each accumulator, with the body's
    triple: the output's buffer may hold anything when the body starts. -/
noncomputable def kernelRun0_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x256 .f32) (x1 : Vec F S1024x256 .f32) (x2 : Vec F S512x256 .f32) (x3 : Vec F S512x256 .f32) (xs0 xs1 xs2 : Vec F S1024x1 .f32) :
    Σ' (L4 : List (View.Piece (Elt F) S1024 .f32)) (LS0 : List (View.Piece (Elt F) S1024x1 .f32)) (LS1 : List (View.Piece (Elt F) S1024x1 .f32)), { LS2 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__mqjs_row_kernel i arg2 harg2 arg3 harg3 arg4 harg4 arg5 harg5 arg6 harg6 arg7 harg7 arg8 harg8 arg9 harg9) K } := by
  refine ⟨?_, ?_, ?_, ?_, fun E K => ?run⟩
  case run =>
    simp only [cc0__mqjs_row_kernel_eq_skeleton]; unfold cc0__mqjs_row_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    iexists _; iexact HS2

end Cert.KernelIdeal.Gen

end
-- ==== Proof.KIFrame.lean ====
/-
  What the three accumulators and the output window hold after each grid point, the proof data of the region, and the
  body's obligation at every point.

  Point t = 16·i + j. After the body at t each accumulator holds what the case of t leaves: at j = 0 the zeroed
  accumulator plus the block sum, afterwards the previous point's contents plus the block sum; the output window's
  buffer holds the row losses only after a point with j = 15, which is also the only point that writes it back.
-/
import proofs.«100745_j80685255622904_1_alg».proof.Proof.KIRunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window's buffer at a point that stores nothing into it: a placeholder nothing consults (the window is
    neither written back there nor read at the next point). -/
def outIdle0_4 : Vec F S1024 .f32 := VO0_4.read (Elt F) (VO0_4.writes (Elt F) VO0_4.junk [])

/-- The pieces of accumulator 0 in this case tile it, so they cover it. -/
theorem scover0_A_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x256 .f32) (x1 : Vec F S1024x256 .f32) (x2 : Vec F S512x256 .f32) (x3 : Vec F S512x256 .f32) (y : S1024x1.Idx) :
    ∃ pc ∈ (kernelRun0_A c i arg2 harg2 arg3 harg3 arg4 harg4 arg5 harg5 arg6 harg6 arg7 harg7 arg8 harg8 arg9 harg9 hc0 hc1 x0 x1 x2 x3).1, y ∈ pc.1.set :=
  View.cover_of_tiledL (kernelRun0_A c i arg2 harg2 arg3 harg3 arg4 harg4 arg5 harg5 arg6 harg6 arg7 harg7 arg8 harg8 arg9 harg9 hc0 hc1 x0 x1 x2 x3).1 S1024x1.size (by sl_kernel_rfl) y

/-- What this case leaves in accumulator 0: its pieces read back. -/
def sout0_A_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x256 .f32) (x1 : Vec F S1024x256 .f32) (x2 : Vec F S512x256 .f32) (x3 : Vec F S512x256 .f32) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3).1)

/-- The pieces of accumulator 1 in this case tile it, so they cover it. -/
theorem scover0_A_1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x256 .f32) (x1 : Vec F S1024x256 .f32) (x2 : Vec F S512x256 .f32) (x3 : Vec F S512x256 .f32) (y : S1024x1.Idx) :
    ∃ pc ∈ (kernelRun0_A c i arg2 harg2 arg3 harg3 arg4 harg4 arg5 harg5 arg6 harg6 arg7 harg7 arg8 harg8 arg9 harg9 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.1 S1024x1.size (by sl_kernel_rfl) y

/-- What this case leaves in accumulator 1: its pieces read back. -/
def sout0_A_1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x256 .f32) (x1 : Vec F S1024x256 .f32) (x2 : Vec F S512x256 .f32) (x3 : Vec F S512x256 .f32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2 x3).2.1)

/-- The pieces of accumulator 2 in this case tile it, so they cover it. -/
theorem scover0_A_2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x256 .f32) (x1 : Vec F S1024x256 .f32) (x2 : Vec F S512x256 .f32) (x3 : Vec F S512x256 .f32) (y : S1024x1.Idx) :
    ∃ pc ∈ (kernelRun0_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3).2.2.1 S1024x1.size (by sl_kernel_rfl) y

/-- What this case leaves in accumulator 2: its pieces read back. -/
def sout0_A_2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x256 .f32) (x1 : Vec F S1024x256 .f32) (x2 : Vec F S512x256 .f32) (x3 : Vec F S512x256 .f32) : Vec F S1024x1 .f32 :=
  VS0_2.read (Elt F) (VS0_2.writes (Elt F) VS0_2.junk (kernelRun0_A c i arg2 harg2 arg3 harg3 arg4 harg4 arg5 harg5 arg6 harg6 arg7 harg7 arg8 harg8 arg9 harg9 hc0 hc1 x0 x1 x2 x3).2.2.1)

/-- The pieces of accumulator 0 in this case tile it, so they cover it. -/
theorem scover0_B_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x256 .f32) (x1 : Vec F S1024x256 .f32) (x2 : Vec F S512x256 .f32) (x3 : Vec F S512x256 .f32) (xs0 xs1 xs2 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1 xs2).1 S1024x1.size (by sl_kernel_rfl) y

/-- What this case leaves in accumulator 0: its pieces read back. -/
def sout0_B_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x256 .f32) (x1 : Vec F S1024x256 .f32) (x2 : Vec F S512x256 .f32) (x3 : Vec F S512x256 .f32) (xs0 xs1 xs2 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 xs0 xs1 xs2).1)

/-- The pieces of accumulator 1 in this case tile it, so they cover it. -/
theorem scover0_B_1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x256 .f32) (x1 : Vec F S1024x256 .f32) (x2 : Vec F S512x256 .f32) (x3 : Vec F S512x256 .f32) (xs0 xs1 xs2 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What this case leaves in accumulator 1: its pieces read back. -/
def sout0_B_1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x256 .f32) (x1 : Vec F S1024x256 .f32) (x2 : Vec F S512x256 .f32) (x3 : Vec F S512x256 .f32) (xs0 xs1 xs2 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 x3 xs0 xs1 xs2).2.1)

/-- The pieces of accumulator 2 in this case tile it, so they cover it. -/
theorem scover0_B_2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x256 .f32) (x1 : Vec F S1024x256 .f32) (x2 : Vec F S512x256 .f32) (x3 : Vec F S512x256 .f32) (xs0 xs1 xs2 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What this case leaves in accumulator 2: its pieces read back. -/
def sout0_B_2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x256 .f32) (x1 : Vec F S1024x256 .f32) (x2 : Vec F S512x256 .f32) (x3 : Vec F S512x256 .f32) (xs0 xs1 xs2 : Vec F S1024x1 .f32) : Vec F S1024x1 .f32 :=
  VS0_2.read (Elt F) (VS0_2.writes (Elt F) VS0_2.junk (kernelRun0_B c i arg2 harg2 arg3 harg3 arg4 harg4 arg5 harg5 arg6 harg6 arg7 harg7 arg8 harg8 arg9 harg9 hc0 hc1 x0 x1 x2 x3 xs0 xs1 xs2).2.2.1)

/-- The pieces of accumulator 0 in this case tile it, so they cover it. -/
theorem scover0_C_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x256 .f32) (x1 : Vec F S1024x256 .f32) (x2 : Vec F S512x256 .f32) (x3 : Vec F S512x256 .f32) (xs0 xs1 xs2 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1 xs2).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1 xs2).2.1 S1024x1.size (by sl_kernel_rfl) y

/-- What this case leaves in accumulator 0: its pieces read back. -/
def sout0_C_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x256 .f32) (x1 : Vec F S1024x256 .f32) (x2 : Vec F S512x256 .f32) (x3 : Vec F S512x256 .f32) (xs0 xs1 xs2 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 xs0 xs1 xs2).2.1)

/-- The pieces of accumulator 1 in this case tile it, so they cover it. -/
theorem scover0_C_1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x256 .f32) (x1 : Vec F S1024x256 .f32) (x2 : Vec F S512x256 .f32) (x3 : Vec F S512x256 .f32) (xs0 xs1 xs2 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1 xs2).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1 xs2).2.2.1 S1024x1.size (by sl_kernel_rfl) y

/-- What this case leaves in accumulator 1: its pieces read back. -/
def sout0_C_1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x256 .f32) (x1 : Vec F S1024x256 .f32) (x2 : Vec F S512x256 .f32) (x3 : Vec F S512x256 .f32) (xs0 xs1 xs2 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 x3 xs0 xs1 xs2).2.2.1)

/-- The pieces of accumulator 2 in this case tile it, so they cover it. -/
theorem scover0_C_2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x256 .f32) (x1 : Vec F S1024x256 .f32) (x2 : Vec F S512x256 .f32) (x3 : Vec F S512x256 .f32) (xs0 xs1 xs2 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 xs0 xs1 xs2).2.2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1 xs2).2.2.2.1 S1024x1.size (by sl_kernel_rfl) y

/-- What this case leaves in accumulator 2: its pieces read back. -/
def sout0_C_2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x256 .f32) (x1 : Vec F S1024x256 .f32) (x2 : Vec F S512x256 .f32) (x3 : Vec F S512x256 .f32) (xs0 xs1 xs2 : Vec F S1024x1 .f32) : Vec F S1024x1 .f32 :=
  VS0_2.read (Elt F) (VS0_2.writes (Elt F) VS0_2.junk (kernelRun0_C c i arg2 harg2 arg3 harg3 arg4 harg4 arg5 harg5 arg6 harg6 arg7 harg7 arg8 harg8 arg9 harg9 hc0 hc1 x0 x1 x2 x3 xs0 xs1 xs2).2.2.2.1)

/-- The last-block body's one store into the output window tiles its block, so it covers it. -/
theorem cover0_C_4 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x256 .f32) (x1 : Vec F S1024x256 .f32) (x2 : Vec F S512x256 .f32) (x3 : Vec F S512x256 .f32) (xs0 xs1 xs2 : Vec F S1024x1 .f32) (y : S1024.Idx) :
    ∃ pc ∈ (kernelRun0_C c i arg2 harg2 arg3 harg3 arg4 harg4 arg5 harg5 arg6 harg6 arg7 harg7 arg8 harg8 arg9 harg9 hc0 hc1 x0 x1 x2 x3 xs0 xs1 xs2).1, y ∈ pc.1.set :=
  View.cover_of_tiledL (kernelRun0_C c i arg2 harg2 arg3 harg3 arg4 harg4 arg5 harg5 arg6 harg6 arg7 harg7 arg8 harg8 arg9 harg9 hc0 hc1 x0 x1 x2 x3 xs0 xs1 xs2).1 S1024.size (by sl_kernel_rfl) y

/-- What the last-block body leaves in the output window's buffer: its pieces read back. -/
def out0_C_4 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x256 .f32) (x1 : Vec F S1024x256 .f32) (x2 : Vec F S512x256 .f32) (x3 : Vec F S512x256 .f32) (xs0 xs1 xs2 : Vec F S1024x1 .f32) : Vec F S1024 .f32 :=
  VO0_4.read (Elt F) (VO0_4.writes (Elt F) VO0_4.junk (kernelRun0_C c i arg2 harg2 arg3 harg3 arg4 harg4 arg5 harg5 arg6 harg6 arg7 harg7 arg8 harg8 arg9 harg9 hc0 hc1 x0 x1 x2 x3 xs0 xs1 xs2).1)

/-! ## What the buffers hold after each point -/

/-- The accumulation. After the body at position `n`: the output window's buffer, then the three accumulators — the
    case the closed forms select at `n`, run at the point's memrefs and input blocks, the accumulators taken (away from
    the first column block) at what position `n - 1` left. No point is both a first and a last column block. -/
def outsAt0 (c : Dev nD) : (n : ℕ) → n < cfg0.N → Vec F S1024 .f32 × Vec F S1024x1 .f32 × Vec F S1024x1 .f32 × Vec F S1024x1 .f32
  | 0, hn => (outIdle0_4, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 16 = 0 then
      if h1 : (n + 1) % 16 = 15 then
        False.elim (by omega)
      else
        (outIdle0_4, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 16 = 15 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2)
      else
        (outIdle0_4, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.1 (outsAt0 c n (Nat.lt_of_succ_lt hn)).2.2.1 (outsAt0 c n (Nat.lt_of_succ_lt hn)).2.2.2)

/-- `outsAt0` at a first column block. -/
theorem outsAt0_A (c : Dev nD) (t : Fin cfg0.N) (h0 : t.val % 16 = 0) (h1 : ¬t.val % 16 = 15) :
    outsAt0 m c t.val t.isLt = (outIdle0_4, sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t), sout0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- `outsAt0` at a middle column block: over what the point before left. -/
theorem outsAt0_B (c : Dev nD) (t : Fin cfg0.N) (h0 : ¬t.val % 16 = 0) (h1 : ¬t.val % 16 = 15) :
    outsAt0 m c t.val t.isLt = (outIdle0_4, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last column block: over what the point before left. -/
theorem outsAt0_C (c : Dev nD) (t : Fin cfg0.N) (h0 : ¬t.val % 16 = 0) (h1 : t.val % 16 = 15) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point whatever the launch hands over (the accumulators
    at anything); afterwards the three accumulators at what the point before left, and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The proof data -/

/-- The region's proof data on core `c`: the arrays as the region finds them; after the body at point `t` each input's
    buffer at its block and the output's at `outsAt0`; the invariant `PhiS`; nothing owed. The array x is read by
    windows 0 and 2: each holds one half of it, the other arrays are held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨2, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem q0_0 (c : Dev nD) : (dats m 0 c).q 0 = fullShare.left := rfl
theorem q0_1 (c : Dev nD) : (dats m 0 c).q 1 = fullShare := rfl
theorem q0_2 (c : Dev nD) : (dats m 0 c).q 2 = fullShare.right := rfl
theorem q0_3 (c : Dev nD) : (dats m 0 c).q 3 = fullShare := rfl

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body's obligation at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the closed forms say which case the point is in; that
    case's run applies, the invariant handing it the accumulators at what the point before left (at anything before the
    first point) and taking them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  by_cases h0 : t.val % 16 = 0
  · by_cases h1 : t.val % 16 = 15
    · exfalso; omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0 sout0_A_1 sout0_A_2; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t)).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        isplitl [HS2]; · iexact HS2
        iintro ⟨H0, H1, H2, H3, H4, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨⟨⟨HS0, HS1, HS2⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t)).2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        isplitl [HS2]; · iexists _; iexact HS2
        iintro ⟨H0, H1, H2, H3, H4, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · have hz : t.val ≠ 0 := fun hz => h0 (by rw [hz])
    by_cases h1 : t.val % 16 = 15
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0 sout0_C_1 sout0_C_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) _ _ _).2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      iintro ⟨H0, H1, H2, H3, ⟨%e4, H4⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _)
          unfold owns; iexists _; isplitr
          swap; · iexact HS2
          ipureintro; exact View.read_writes_of_cover _ _ _ _ _ (scover0_C_2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0 sout0_B_1 sout0_B_2; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) _ _ _).2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      iintro ⟨H0, H1, H2, H3, H4, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _)
          unfold owns; iexists _; isplitr
          swap; · iexact HS2
          ipureintro; exact View.read_writes_of_cover _ _ _ _ _ (scover0_B_2 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's holdings back: the accumulators' contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

end Cert.KernelIdeal.Gen

end
-- ==== Proof.KIShared.lean ====
/-
  The launch of the kernel region when two of its input windows read one array.

  Windows 0 and 2 are blocks of one array, x: window 0 reads row block i of it and window 2 column block j. The
  launch rule does not need the windows' arrays distinct; it asks how the distinct buffers behind them, each held whole
  at the full share, make the windows' arrays at the shares the proof data names. Here x's points-to is split into the
  two halves of the full share: window 0 holds the left half and window 2 the right half, both at the same contents,
  which no window writes. The other three arrays (y, the midpoint matrix, the row losses) are each one window's, whole.

  After the region four operations remain: they read the row losses and write four buffers that bypass the region. For
  them the two halves of x are joined again (both hold the region-entry contents), so that every buffer they may touch
  is held whole; afterwards x is split again.
-/
import proofs.«100745_j80685255622904_1_alg».proof.Proof.KIBase

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the five windows' arrays: x, y, the midpoint matrix and the row losses. -/
theorem arrBufs_eq (c : Dev nD) (Vv : (b : Ref sig .tc) → Buf (Elt F) ((c : Thread nD τ).loc b)) :
    (Pipeline.arrBufs spec0 c Vv : sProp 𝕄)
      = iprop((((c : Thread nD τ).loc main_arg0) ↦{fullShare} Vv main_arg0) ∗ (((c : Thread nD τ).loc main_arg1) ↦{fullShare} Vv main_arg1)
          ∗ (((c : Thread nD τ).loc main_v2) ↦{fullShare} Vv main_v2) ∗ (((c : Thread nD τ).loc main_v3) ↦{fullShare} Vv main_v3)) := by
  unfold Pipeline.arrBufs
  exact bigSep_eq_bigSepL_of_eq [main_arg0, main_arg1, main_v2, main_v3] (by decide) (by decide) _

/-- The share each window holds its array at. -/
theorem share_in {c : Dev nD} (dat : Dat τ (Elt F) Unit ℕ (UR sig nD τ) ℕ cfg0 c) (w : Fin cfg0.W) (hw : (cfg0.win w).isOut = false) :
    dat.share w = dat.q w := by
  unfold Dat.share; rw [hw]; rfl
theorem share_out {c : Dev nD} (dat : Dat τ (Elt F) Unit ℕ (UR sig nD τ) ℕ cfg0 c) : dat.share 4 = fullShare := by
  unfold Dat.share; rfl

/-- The windows' arrays one by one, each a whole buffer at its window's share: x is held twice, by window 0 at
    the left half of the full share and by window 2 at the right half. -/
theorem arrays_eq5 {c : Dev nD} (dat : Dat τ (Elt F) Unit ℕ (UR sig nD τ) ℕ cfg0 c)
    (hq0 : dat.q 0 = fullShare.left) (hq2 : dat.q 2 = fullShare.right) (hq1 : dat.q 1 = fullShare) (hq3 : dat.q 3 = fullShare)
    (Fv : (w : Fin cfg0.W) → Buf (Elt F) ((cfg0.win w).arr.view.loc (c : Thread nD τ))) :
    (dat.arrays Fv : sProp 𝕄)
      = iprop((((c : Thread nD τ).loc main_arg0) ↦{fullShare.left} Fv 0) ∗ (((c : Thread nD τ).loc main_arg1) ↦{fullShare} Fv 1)
          ∗ (((c : Thread nD τ).loc main_arg0) ↦{fullShare.right} Fv 2) ∗ (((c : Thread nD τ).loc main_v2) ↦{fullShare} Fv 3)
          ∗ (((c : Thread nD τ).loc main_v3) ↦{fullShare} Fv 4)) := by
  unfold Dat.arrays
  rw [bigSep_W0, share_in dat 0 rfl, share_in dat 1 rfl, share_in dat 2 rfl, share_in dat 3 rfl, share_out dat, hq0, hq1, hq2, hq3]
  simp only [(arr_whole0 0).set_eq_univ, (arr_whole0 1).set_eq_univ, (arr_whole0 2).set_eq_univ, (arr_whole0 3).set_eq_univ, (arr_whole0 4).set_eq_univ]
  try rfl

/-- The launch's buffers behind the arrays make the proof data's arrays at entry: x's points-to is split into its two
    halves, one for each of the two windows that read it. -/
theorem hsplit_shared (dats : (p : Fin 1) → (c : Dev nD) → Dat τ (Elt F) Unit ℕ (UR sig nD τ) ℕ (cfgs p) c)
    (hq0 : ∀ c, (dats 0 c).q 0 = fullShare.left) (hq2 : ∀ c, (dats 0 c).q 2 = fullShare.right)
    (hq1 : ∀ c, (dats 0 c).q 1 = fullShare) (hq3 : ∀ c, (dats 0 c).q 3 = fullShare)
    (hA : ∀ c w, (dats 0 c).A w = V m c (Pipeline.arrRef spec0 w)) (c : Dev nD) :
    (Pipeline.arrBufs spec0 c (V m c) : sProp 𝕄) ⊢ (dats 0 c).arrays ((dats 0 c).arrAt · 0) := by
  rw [arrBufs_eq, arrays_eq5 (dats 0 c) (hq0 c) (hq2 c) (hq1 c) (hq3 c),
    show (dats 0 c).arrAt 0 0 = V m c (Pipeline.arrRef spec0 0) from hA c 0, show (dats 0 c).arrAt 1 0 = V m c (Pipeline.arrRef spec0 1) from hA c 1,
    show (dats 0 c).arrAt 2 0 = V m c (Pipeline.arrRef spec0 2) from hA c 2, show (dats 0 c).arrAt 3 0 = V m c (Pipeline.arrRef spec0 3) from hA c 3,
    show (dats 0 c).arrAt 4 0 = V m c (Pipeline.arrRef spec0 4) from hA c 4]
  iintro ⟨H0, H1, H2, H3⟩
  ihave H0 := (pointsTo_share (PosShare.mem_left_op_right fullShare)).1 $$ H0
  icases H0 with ⟨H0l, H0r⟩
  isplitl [H0l]; · iexact H0l
  isplitl [H1]; · iexact H1
  isplitl [H0r]; · iexact H0r
  isplitl [H2]; · iexact H2
  iexact H3

/-! ## The four operations after the region -/

/-- The buffers the later operations may touch, held at contents `Wv`: the four buffers behind the windows' arrays,
    and the buffers that bypass the region. The arrays need not be distinct for this. -/
theorem held_tail (c : Dev nD) (Wv : Valuation τ sig (Elt F)) :
    (StableHlo.held (c : Thread nD τ) (Pipeline.tailRefs sig Pipeline.Prefetch.none spec0) Wv : sProp 𝕄)
      = iprop(Pipeline.arrBufs spec0 c (fun b => Wv (Proc.devRef .tc b))
          ∗ Pipeline.unscopedRestP Pipeline.Prefetch.none spec0 c (fun b => Wv (Proc.devRef .tc b))) := by
  classical
  have hdisj : Disjoint (Finset.univ.image (Pipeline.arrRef spec0)) (Pipeline.restRefsP sig Pipeline.Prefetch.none spec0) :=
    Finset.disjoint_left.mpr fun b hb hr => (Finset.mem_sdiff.mp (Finset.mem_sdiff.mp hr).1).2 hb
  unfold StableHlo.held Pipeline.tailRefs Pipeline.arrBufs Pipeline.unscopedRestP
  rw [bigSep_map, bigSep_union hdisj]
  rfl

/-- The contents the region leaves, read at a buffer behind some window's array, when every window on that buffer
    holds the same contents `x`: whichever of them is picked, it is `x`. -/
theorem withArrays_at (c : Dev nD) (Vv : Valuation τ sig (Elt F))
    (A : (w : Fin 5) → Buf (Elt F) ((spec0 w).arr.view.loc (c : Thread nD τ))) (b : Ref sig .tc)
    (x : Buf (Elt F) ((c : Thread nD τ).loc b)) (hex : ∃ w, Pipeline.arrRef spec0 w = b)
    (hall : ∀ w, Pipeline.arrRef spec0 w = b → HEq (A w) x) :
    Pipeline.withArrays spec0 c Vv A (Proc.devRef .tc b) = x := by
  obtain ⟨w, hw⟩ := hex
  have h : ∃ w', Proc.devRef .tc (Pipeline.arrRef spec0 w') = Proc.devRef (τ := τ) .tc b := ⟨w, congrArg _ hw⟩
  unfold Pipeline.withArrays
  rw [dif_pos h]
  exact eq_of_heq ((cast_heq _ _).trans (hall _ (Proc.devRef_injective _ h.choose_spec)))

section Exit

variable (dats : (p : Fin 1) → (c : Dev nD) → Dat τ (Elt F) Unit ℕ (UR sig nD τ) ℕ (cfgs p) c)
  (hA : ∀ c w, (dats 0 c).A w = V m c (Pipeline.arrRef spec0 w))

/-- The core's buffer contents when the region is left: each window's array at what the proof data computes, every
    other buffer as the region found it. -/
abbrev WX (c : Dev nD) : Valuation τ sig (Elt F) := Pipeline.withArrays spec0 c (V0 m c) fun w => (dats 0 c).arrAt w cfg0.N

include hA in
/-- An input window's array is never written: it holds the region-entry contents throughout. -/
theorem arrAt_in0 (c : Dev nD) (n : ℕ) : (dats 0 c).arrAt 0 n = V m c main_arg0 := ((dats 0 c).arrAt_in 0 rfl n).trans (hA c 0)
include hA in
theorem arrAt_in1 (c : Dev nD) (n : ℕ) : (dats 0 c).arrAt 1 n = V m c main_arg1 := ((dats 0 c).arrAt_in 1 rfl n).trans (hA c 1)
include hA in
theorem arrAt_in2 (c : Dev nD) (n : ℕ) : (dats 0 c).arrAt 2 n = V m c main_arg0 := ((dats 0 c).arrAt_in 2 rfl n).trans (hA c 2)
include hA in
theorem arrAt_in3 (c : Dev nD) (n : ℕ) : (dats 0 c).arrAt 3 n = V m c main_v2 := ((dats 0 c).arrAt_in 3 rfl n).trans (hA c 3)

include hA in
/-- x is read by windows 0 and 2, which hold it at equal contents. -/
theorem WX_arg0 (c : Dev nD) : WX m dats c (Proc.devRef .tc main_arg0) = V m c main_arg0 :=
  withArrays_at c _ _ main_arg0 _ ⟨0, rfl⟩ fun w hw => by
    rcases (by decide : ∀ w : Fin 5, Pipeline.arrRef spec0 w = main_arg0 → w = 0 ∨ w = 2) w hw with rfl | rfl
    · exact heq_of_eq (arrAt_in0 m dats hA c _)
    · exact heq_of_eq (arrAt_in2 m dats hA c _)
include hA in
theorem WX_arg1 (c : Dev nD) : WX m dats c (Proc.devRef .tc main_arg1) = V m c main_arg1 :=
  withArrays_at c _ _ main_arg1 _ ⟨1, rfl⟩ fun w hw => by
    obtain rfl := (by decide : ∀ w : Fin 5, Pipeline.arrRef spec0 w = main_arg1 → w = 1) w hw
    exact heq_of_eq (arrAt_in1 m dats hA c _)
include hA in
theorem WX_v2 (c : Dev nD) : WX m dats c (Proc.devRef .tc main_v2) = V m c main_v2 :=
  withArrays_at c _ _ main_v2 _ ⟨3, rfl⟩ fun w hw => by
    obtain rfl := (by decide : ∀ w : Fin 5, Pipeline.arrRef spec0 w = main_v2 → w = 3) w hw
    exact heq_of_eq (arrAt_in3 m dats hA c _)
/-- The row losses are window 4's alone. -/
theorem WX_v3 (c : Dev nD) : WX m dats c (Proc.devRef .tc main_v3) = (dats 0 c).arrAt 4 cfg0.N :=
  withArrays_at c _ _ main_v3 _ ⟨4, rfl⟩ fun w hw => by
    obtain rfl := (by decide : ∀ w : Fin 5, Pipeline.arrRef spec0 w = main_v3 → w = 4) w hw
    exact HEq.rfl

/-- A buffer that bypasses the region is left as the region found it. -/
theorem WX_rest (c : Dev nD) (b : Ref sig .tc) (hb : b ∈ Pipeline.restRefsP sig Pipeline.Prefetch.none spec0) :
    WX m dats c (Proc.devRef .tc b) = V m c b :=
  Pipeline.withArrays_of_ne spec0 c (V0 m c) _ b fun w e =>
    (Finset.mem_sdiff.mp (Finset.mem_sdiff.mp hb).1).2 (Finset.mem_image.mpr ⟨w, Finset.mem_univ _, e⟩)

end Exit

/-- x's two halves with the other three arrays are the four buffers held whole, -/
theorem exit_join (c : Dev nD) (x0 : Buf (Elt F) ((c : Thread nD τ).loc main_arg0)) (x1 : Buf (Elt F) ((c : Thread nD τ).loc main_arg1))
    (x2 : Buf (Elt F) ((c : Thread nD τ).loc main_v2)) (x3 : Buf (Elt F) ((c : Thread nD τ).loc main_v3)) :
    (iprop((((c : Thread nD τ).loc main_arg0) ↦{fullShare.left} x0) ∗ (((c : Thread nD τ).loc main_arg1) ↦{fullShare} x1)
        ∗ (((c : Thread nD τ).loc main_arg0) ↦{fullShare.right} x0) ∗ (((c : Thread nD τ).loc main_v2) ↦{fullShare} x2)
        ∗ (((c : Thread nD τ).loc main_v3) ↦{fullShare} x3)) : sProp 𝕄)
      ⊢ iprop((((c : Thread nD τ).loc main_arg0) ↦{fullShare} x0) ∗ (((c : Thread nD τ).loc main_arg1) ↦{fullShare} x1)
        ∗ (((c : Thread nD τ).loc main_v2) ↦{fullShare} x2) ∗ (((c : Thread nD τ).loc main_v3) ↦{fullShare} x3)) := by
  iintro ⟨H0l, H1, H0r, H2, H3⟩
  isplitl [H0l H0r]
  · iapply (pointsTo_share (PosShare.mem_left_op_right fullShare)).2
    isplitl [H0l]; · iexact H0l
    iexact H0r
  isplitl [H1]; · iexact H1
  isplitl [H2]; · iexact H2
  iexact H3
/-- and back. -/
theorem exit_split (c : Dev nD) (x0 : Buf (Elt F) ((c : Thread nD τ).loc main_arg0)) (x1 : Buf (Elt F) ((c : Thread nD τ).loc main_arg1))
    (x2 : Buf (Elt F) ((c : Thread nD τ).loc main_v2)) (x3 : Buf (Elt F) ((c : Thread nD τ).loc main_v3)) :
    (iprop((((c : Thread nD τ).loc main_arg0) ↦{fullShare} x0) ∗ (((c : Thread nD τ).loc main_arg1) ↦{fullShare} x1)
        ∗ (((c : Thread nD τ).loc main_v2) ↦{fullShare} x2) ∗ (((c : Thread nD τ).loc main_v3) ↦{fullShare} x3)) : sProp 𝕄)
      ⊢ iprop((((c : Thread nD τ).loc main_arg0) ↦{fullShare.left} x0) ∗ (((c : Thread nD τ).loc main_arg1) ↦{fullShare} x1)
        ∗ (((c : Thread nD τ).loc main_arg0) ↦{fullShare.right} x0) ∗ (((c : Thread nD τ).loc main_v2) ↦{fullShare} x2)
        ∗ (((c : Thread nD τ).loc main_v3) ↦{fullShare} x3)) := by
  iintro ⟨H0, H1, H2, H3⟩
  ihave H0 := (pointsTo_share (PosShare.mem_left_op_right fullShare)).1 $$ H0
  icases H0 with ⟨H0l, H0r⟩
  isplitl [H0l]; · iexact H0l
  isplitl [H1]; · iexact H1
  isplitl [H0r]; · iexact H0r
  isplitl [H2]; · iexact H2
  iexact H3

section Tail

variable (dats : (p : Fin 1) → (c : Dev nD) → Dat τ (Elt F) Unit ℕ (UR sig nD τ) ℕ (cfgs p) c)
  (hq0 : ∀ c, (dats 0 c).q 0 = fullShare.left) (hq2 : ∀ c, (dats 0 c).q 2 = fullShare.right)
  (hq1 : ∀ c, (dats 0 c).q 1 = fullShare) (hq3 : ∀ c, (dats 0 c).q 3 = fullShare)
  (hA : ∀ c w, (dats 0 c).A w = V m c (Pipeline.arrRef spec0 w))

include hq0 hq2 hq1 hq3 hA in
/-- When the region is left the windows' arrays are the four buffers behind them held whole at the exit contents: x's
    two halves, both at the region-entry contents, make its full share. -/
theorem arrays_exit (c : Dev nD) :
    ((dats 0 c).arrays ((dats 0 c).arrAt · cfg0.N) : sProp 𝕄)
      = Pipeline.arrBufs spec0 c (fun b => WX m dats c (Proc.devRef .tc b)) := by
  rw [arrays_eq5 (dats 0 c) (hq0 c) (hq2 c) (hq1 c) (hq3 c), arrAt_in0 m dats hA c, arrAt_in1 m dats hA c, arrAt_in2 m dats hA c,
    arrAt_in3 m dats hA c, arrBufs_eq, WX_arg0 m dats hA c, WX_arg1 m dats hA c, WX_v2 m dats hA c, WX_v3 m dats c]
  exact BI.Entails.antisymm (exit_join c _ _ _ _) (exit_split c _ _ _ _)

/-- The buffers that bypass the region, at the exit contents, are as the region found them. -/
theorem rest_exit (c : Dev nD) :
    (Pipeline.unscopedRestP Pipeline.Prefetch.none spec0 c (fun b => WX m dats c (Proc.devRef .tc b)) : sProp 𝕄)
      = Pipeline.unscopedRestP Pipeline.Prefetch.none spec0 c (V m c) := by
  unfold Pipeline.unscopedRestP
  exact bigSep_congr fun b hb => by beta_reduce; rw [WX_rest m dats c b hb]

/-- None of the four later operations writes a buffer behind a window's array. -/
theorem arrBufs_after (c : Dev nD) :
    (Pipeline.arrBufs spec0 c (fun b => StableHlo.after ([hostOps1] : List (List (HloOp τ sig (Elt F)))).flatten (WX m dats c) (Proc.devRef .tc b)) : sProp 𝕄)
      = Pipeline.arrBufs spec0 c (fun b => WX m dats c (Proc.devRef .tc b)) := by
  classical
  unfold Pipeline.arrBufs
  exact bigSep_congr fun b hb => by
    obtain ⟨w, -, rfl⟩ := Finset.mem_image.mp hb
    beta_reduce
    rw [StableHlo.after_of_forall_not_mem _ _ fun op hop => ?_]
    obtain ⟨ops, hops, hop⟩ := List.mem_flatten.mp hop
    exact sfx_keeps ops hops op hop w

include hq0 hq2 hq1 hq3 hA in
/-- The four later operations, from the region's exit: holding the boundary, the windows' arrays at their shares and the
    bypassing buffers as the region found them, they run and hand back the arrays unchanged and the bypassing buffers at
    what the operations compute from the exit contents. -/
theorem htail_shared (c : Dev nD) (Q' : PUnit → sProp 𝕄) :
      iprop((iprop((dats 0 c).arrays ((dats 0 c).arrAt · cfg0.N)
                ∗ Pipeline.unscopedRestP (Ix := Unit) (Name := ℕ) (U := UR sig nD τ) (Lvl := ℕ) Pipeline.Prefetch.none spec0 c (Pipeline.afterTail₀ cfgs dats 0 (V0 m) [hostOps1] c)) -∗ Q' ⟨⟩)
          ∗ boundary (c : Thread nD τ) ∗ (dats 0 c).arrays ((dats 0 c).arrAt · cfg0.N)
          ∗ Pipeline.unscopedRestP (Ix := Unit) (Name := ℕ) (U := UR sig nD τ) (Lvl := ℕ) Pipeline.Prefetch.none spec0 c (V m c))
        ⊢ wp frame (wpE (Pipeline.defs (pcfgs (F := F)) defs₀) (Variants.lift Variants.none) (c : Thread nD τ) none) Set.univ
            (Pipeline.chain ([hostOps1].map StableHlo.seq)) Q' := by
  have hW : (StableHlo.held (c : Thread nD τ) (Pipeline.tailRefs sig Pipeline.Prefetch.none spec0) (WX m dats c) : sProp 𝕄)
      = iprop((dats 0 c).arrays ((dats 0 c).arrAt · cfg0.N)
          ∗ Pipeline.unscopedRestP (Ix := Unit) (Name := ℕ) (U := UR sig nD τ) (Lvl := ℕ) Pipeline.Prefetch.none spec0 c (V m c)) := by
    rw [held_tail, rest_exit, arrays_exit m dats hq0 hq2 hq1 hq3 hA c]
  have hW' : (StableHlo.held (c : Thread nD τ) (Pipeline.tailRefs sig Pipeline.Prefetch.none spec0)
        (StableHlo.after ([hostOps1] : List (List (HloOp τ sig (Elt F)))).flatten (WX m dats c)) : sProp 𝕄)
      = iprop((dats 0 c).arrays ((dats 0 c).arrAt · cfg0.N)
          ∗ Pipeline.unscopedRestP (Ix := Unit) (Name := ℕ) (U := UR sig nD τ) (Lvl := ℕ) Pipeline.Prefetch.none spec0 c (Pipeline.afterTail₀ cfgs dats 0 (V0 m) [hostOps1] c)) := by
    rw [held_tail, arrBufs_after, arrays_exit m dats hq0 hq2 hq1 hq3 hA c]
    rfl
  rw [← List.append_nil (([hostOps1] : List (List (HloOp τ sig (Elt F)))).map StableHlo.seq), ← hW]
  iintro ⟨Hk, Hb⟩
  iapply (Pipeline.wp_seqs_then (pcfgs (F := F)) defs₀ Variants.none c (Pipeline.tailRefs sig Pipeline.Prefetch.none spec0) [] [hostOps1] sfx_sub sfx_fresh (WX m dats c)) $$ Hb
  iintro Hb
  rw [Pipeline.chain_nil, wp_pure, hW']
  imodintro
  iapply Hk
  icases Hb with ⟨-, H⟩
  iexact H

end Tail

set_option backward.isDefEq.respectTransparency.types false in
/-- Every weakly fair execution of @main terminates with each window's array at what the proof data computes and every
    other unscoped buffer as the four later operations leave it: the launch rule at this kernel's windows, two of which
    read one array, x, each at half of the full share. -/
theorem run_shared_of (dats : (p : Fin 1) → (c : Dev nD) → Dat τ (Elt F) Unit ℕ (UR sig nD τ) ℕ (cfgs p) c)
    (hq0 : ∀ c, (dats 0 c).q 0 = fullShare.left) (hq2 : ∀ c, (dats 0 c).q 2 = fullShare.right)
    (hq1 : ∀ c, (dats 0 c).q 1 = fullShare) (hq3 : ∀ c, (dats 0 c).q 3 = fullShare)
    (hbody : ∀ c, Pipeline.BodyObligationLoose (dats 0 c) defs₀ Variants.none () Set.univ)
    (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c)
    (htail : ∀ (c : Dev nD) (Q' : PUnit → sProp 𝕄),
      iprop((iprop((dats 0 c).arrays ((dats 0 c).arrAt · cfg0.N)
                ∗ Pipeline.unscopedRestP (Ix := Unit) (Name := ℕ) (U := UR sig nD τ) (Lvl := ℕ) Pipeline.Prefetch.none spec0 c (Pipeline.afterTail₀ cfgs dats 0 (V0 m) [hostOps1] c)) -∗ Q' ⟨⟩)
          ∗ boundary (c : Thread nD τ) ∗ (dats 0 c).arrays ((dats 0 c).arrAt · cfg0.N)
          ∗ Pipeline.unscopedRestP (Ix := Unit) (Name := ℕ) (U := UR sig nD τ) (Lvl := ℕ) Pipeline.Prefetch.none spec0 c (V m c))
        ⊢ wp frame (wpE (Pipeline.defs (pcfgs (F := F)) defs₀) (Variants.lift Variants.none) (c : Thread nD τ) none) Set.univ
            (Pipeline.chain ([hostOps1].map StableHlo.seq)) Q') :
    θ_run defs (onTc (τ := τ) (main (F := F))) (s₀ m ρ) (Pipeline.FramePost cfgs dats 0 (Pipeline.afterTail₀ cfgs dats 0 (V0 m) [hostOps1])) := by
  classical
  exact Pipeline.θ_run_region_pf_tail (fun q => (cfgs q).toPCfg (Val := Elt F)) (fun q => (cfgs q).toPCfg_adm) dats () cellOf_inj (0 : Fin 1)
    winFacts₀0 (Pipeline.OwnSemFacts.none spec0) (Pipeline.PreFacts.none spec0) emb₁ defs₀ Variants.none m ρ main
    (fun _ => Pipeline.chain ([hostOps1].map StableHlo.seq)) hbody
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit_shared m dats hq0 hq2 hq1 hq3 hA)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Pipeline.afterTail₀ cfgs dats 0 (V0 m) [hostOps1] c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := htail)
    (QY := fun c s => ∀ b ∈ Pipeline.restRefsP sig Pipeline.Prefetch.none spec0, s.mem ((c : Thread nD τ).loc b) = Pipeline.afterTail₀ cfgs dats 0 (V0 m) [hostOps1] c b)
    (hY := fun c s' => by
      iintro ⟨-, HU, HSI⟩
      unfold Pipeline.unscopedRestP
      imodintro
      iapply (pointsTo_read_all (Pipeline.restRefsP sig Pipeline.Prefetch.none spec0) (fun b => (c : Thread nD τ).loc b) (Pipeline.afterTail₀ cfgs dats 0 (V0 m) [hostOps1] c) s')
      isplitl [HU] <;> iassumption)
    (hQ := fun s h c => ⟨(h c).1, Pipeline.rest_of_restP Pipeline.Prefetch.none spec0 Pipeline.Prefetch.Contents.none c (Pipeline.afterTail₀ cfgs dats 0 (V0 m) [hostOps1] c) s (fun k => k.elim0) (h c).2.1 (h c).2.2⟩)

/-- The same with the four later operations run: nothing is assumed of them. -/
theorem run_shared (dats : (p : Fin 1) → (c : Dev nD) → Dat τ (Elt F) Unit ℕ (UR sig nD τ) ℕ (cfgs p) c)
    (hq0 : ∀ c, (dats 0 c).q 0 = fullShare.left) (hq2 : ∀ c, (dats 0 c).q 2 = fullShare.right)
    (hq1 : ∀ c, (dats 0 c).q 1 = fullShare) (hq3 : ∀ c, (dats 0 c).q 3 = fullShare)
    (hbody : ∀ c, Pipeline.BodyObligationLoose (dats 0 c) defs₀ Variants.none () Set.univ)
    (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ) (Pipeline.FramePost cfgs dats 0 (Pipeline.afterTail₀ cfgs dats 0 (V0 m) [hostOps1])) :=
  run_shared_of m ρ dats hq0 hq2 hq1 hq3 hbody howed hA hin hout (htail_shared m dats hq0 hq2 hq1 hq3 hA)

end Cert.KernelIdeal.Gen

end
-- ==== Proof.KIMain.lean ====
/-
  The region's run and the frame: every weakly fair execution of @main terminates without a fault, each window's array
  ends at what the proof data computes (an input array as it was), every other buffer at what the four later host
  operations leave; in particular the two argument matrices end unchanged.
-/
import proofs.«100745_j80685255622904_1_alg».proof.Proof.KIFrame
import proofs.«100745_j80685255622904_1_alg».proof.Proof.KIShared

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run of @main: the frame run for windows 0 and 2 on one array, at this kernel's proof data. -/
theorem run_main : θ_run defs (onTc (τ := τ) (main (F := F))) (s₀ m ρ) (Pipeline.FramePost cfgs (dats m) 0 (Pipeline.afterTail₀ cfgs (dats m) 0 (V0 m) [hostOps1])) :=
  run_shared m ρ (dats m) (q0_0 m) (q0_2 m) (q0_1 m) (q0_3 m) (fun c => (body_obligation m c).loose) (fun _ _ => rfl) (A_eq m) (hin m) (hout m)

/-- The frame: the program runs to the end and both argument matrices end as launched (each is an input window's
    array: window 0 reads x, window 1 reads y). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩) (run_main m ρ)

end Cert.KernelIdeal.Gen

end
-- ==== Proof.Spec.lean ====
/-
  The specification: the loss as ONE function of the two argument matrices, on the extended reals.

  For matrices A, B of 8192 rows and 256 columns, the squared distance of row i of A to row k of B is written the
  expanded way, |A_i|² + |B_k|² − 2·⟨A_i, B_k⟩; an entry contributes half the logarithm of that distance once it is
  clamped (values not above the threshold are replaced by 1, then everything is raised to at least 1); a row's sum
  runs over all 8192 rows k of B. With M the midpoint matrix (x + y)/2, row i's loss is
  (rowSum x M i + rowSum y M i) − rowSum x x i · scale, and the loss is the mean of the 8192 row losses.
  No program is imported here: both sides are proved equal to this function.
-/
import Idealize.ShloMosaic.PureOps.Ideal
import Idealize.ShloMosaic.Lib.ValueIdx

noncomputable section

namespace Cert.PairLoss

open Idealize.ShloMosaic Idealize.ShloMosaic.ValueIdx

/-- A matrix of 8192 rows and 256 columns of extended reals. -/
abbrev Mat : Type := (⟨2, ![8192, 256]⟩ : Shape).Idx → EReal

/-- The float constants of both programs, kept as their words (the same word reads the same on both sides). -/
def two : EReal := Ideal.ofBits .f32 0x40000000#32
def thr : EReal := Ideal.ofBits .f32 0x358637BD#32
def one : EReal := Ideal.ofBits .f32 0x3F800000#32
def half : EReal := Ideal.ofBits .f32 0x3F000000#32
def scale : EReal := Ideal.ofBits .f32 0x3F800400#32
def count : EReal := Ideal.ofBits .f32 0x46000000#32

/-- The midpoint matrix (x + y) / 2. -/
def mid (x y : Mat) : Mat := fun i => Ideal.div (x i + y i) two

/-- The squared norm of row i. -/
def sq (A : Mat) (i : Fin 8192) : EReal := ∑ d : Fin 256, A (ix2 i d) * A (ix2 i d)

/-- The inner product of row i of A with row k of B. -/
def dot (A B : Mat) (i k : Fin 8192) : EReal := ∑ d : Fin 256, A (ix2 i d) * B (ix2 k d)

/-- The expanded squared distance from the two squared norms and the inner product. -/
def dist (sa sb ab : EReal) : EReal := (sa + sb) - two * ab

/-- One entry's contribution: half the logarithm of the clamped distance. -/
def entry (sa sb ab : EReal) : EReal :=
  half * Ideal.log (max (Scalar.select (Ideal.cmp .ogt (dist sa sb ab) thr) (dist sa sb ab) one) one)

/-- Row i of A against every row of B. -/
def rowSum (A B : Mat) (i : Fin 8192) : EReal := ∑ k : Fin 8192, entry (sq A i) (sq B k) (dot A B i k)

/-- Row i's loss. -/
def rowLoss (x y : Mat) (i : Fin 8192) : EReal :=
  (rowSum x (mid x y) i + rowSum y (mid x y) i) - rowSum x x i * scale

/-- The loss: the mean of the row losses. -/
def loss (x y : Mat) : EReal := Ideal.div (∑ i : Fin 8192, rowLoss x y i) count

end Cert.PairLoss

end
-- ==== Proof.LibSumIdx1.lean ====
/-
  A sum over a rank-one index set is the sum over its one coordinate.

  An index of a one-axis shape of extent n is a function from the one axis to its coordinate; it is determined by that
  coordinate, so summing over all indices is summing over the coordinate's range.
-/
import Idealize.ShloMosaic.Lib.ValueIdx

namespace Cert.PairLoss

open Idealize.ShloMosaic Idealize.ShloMosaic.ValueIdx

/-- A rank-one index set is its one coordinate's range, so a sum over it is the sum over the coordinate. -/
theorem sum_idx1 {M : Type*} [AddCommMonoid M] {n : Nat} (f : (⟨1, ![n]⟩ : Shape).Idx → M) :
    ∑ j, f j = ∑ a : Fin n, f (ix1 a) := by
  let e : (⟨1, ![n]⟩ : Shape).Idx ≃ Fin n :=
    { toFun := fun j => j 0, invFun := ix1, left_inv := fun j => (eq_ix1 j).symm, right_inv := fun _ => rfl }
  rw [← Equiv.sum_comp e.symm f]
  rfl

end Cert.PairLoss
-- ==== Proof.KHTail.lean ====
/-
  The kernel program after its region: the mean of the row losses.

  The region writes its fifth window's blocks back into a vector of 8192 entries. Two host operations follow: the sum
  of that vector started at the zero word, and its quotient by the count word. The program's result buffer therefore
  holds, at its one index, (0 + the sum of the 8192 entries) / 8192: when the entries are the specification's row
  losses of two matrices, the specification's loss.

  Two of the region's windows are blocks of one array, so its exit contents are read at the output window's array by
  hand: of the five windows only the fifth has that array.
-/
import proofs.«100745_j80685255622904_1_alg».proof.Proof.KIFrame
import proofs.«100745_j80685255622904_1_alg».proof.Proof.Spec
import proofs.«100745_j80685255622904_1_alg».proof.Proof.LibSumIdx1
import Idealize.ShloMosaic.Lib.Pipeline.Value
import Idealize.ShloMosaic.PureOps.Ideal.Laws

noncomputable section

namespace Cert.PairLoss.KernelHost

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The region's exit contents, read at the output window's array, are that window's array: among the five windows
    only the fifth is on it. -/
theorem withArrays_main_v3 (c : Dev nD) (V : Valuation τ sig (Elt Ideal))
    (A : (w : Fin 5) → Buf (Elt Ideal) ((spec0 w).arr.view.loc (c.tc : Thread nD τ))) :
    Pipeline.withArrays spec0 c V A (Proc.devRef .tc main_v3) = A 4 := by
  unfold Pipeline.withArrays
  have h : ∃ w', Proc.devRef .tc (Pipeline.arrRef spec0 w') = Proc.devRef (τ := τ) .tc main_v3 := ⟨4, rfl⟩
  rw [dif_pos h]
  suffices ∀ (w' : Fin 5) (e : Proc.devRef .tc (Pipeline.arrRef spec0 w') = Proc.devRef (τ := τ) .tc main_v3),
      cast (congrArg (fun b' : DevRef τ sig => b'.ty.Contents (Elt Ideal)) e) (A w') = A 4 from this _ h.choose_spec
  intro w' e
  have hw : w' = 4 :=
    (by decide : ∀ w' : Fin 5, Pipeline.arrRef spec0 w' = main_v3 → w' = 4) w' (Proc.devRef_injective _ e)
  subst hw
  rfl

/-- The result buffer after the two later operations: their composed term of the output window's final array. -/
theorem tail_term (c : Dev nD) :
    Pipeline.afterTail₀ cfgs (dats m) 0 (V0 m) [hostOps1] c main_v5
      = Host.divf
          (Host.reduceAdd ((dats m 0 c).arrAt 4 cfg0.N) (constant (F := Ideal) S_ .f32 0x00000000#32)
            reducesTo_S8192_S_d0 h_S_)
          (constant (F := Ideal) S_ .f32 0x46000000#32) := by
  unfold Pipeline.afterTail₀
  show StableHlo.after hostOps1 _ (Proc.devRef .tc main_v5) = _
  after_results
  rw [withArrays_main_v3]

/-- The host's sum of a vector of 8192 entries into a scalar, at the scalar's one index: the start value plus the sum
    of all the entries. -/
theorem reduce_total (y : (⟨S8192, .f32⟩ : BufTy).Contents (Elt Ideal)) (v : (⟨S_, .f32⟩ : BufTy).Contents (Elt Ideal))
    (j : S_.Idx) :
    Host.reduceAdd (F := Ideal) (φ := .f32) y v reducesTo_S8192_S_d0 h_S_ j
      = v (Shape.Idx.first h_S_) + ∑ i : S8192.Idx, y i := by
  simp only [Host.reduceAdd, Ideal.hostReduceAdd_def]
  exact Ideal.hostReduceAdd_total reducesTo_S8192_S_d0 (fun b => b.elim0) y _ j

/-- The two later operations on a vector that holds the row losses of X and Y: the sum from the zero word, divided by
    the count word, is the specification's loss. -/
theorem tail_loss (X Y : Mat) (A : (⟨S8192, .f32⟩ : BufTy).Contents (Elt Ideal))
    (hA : A = fun idx => rowLoss X Y (idx 0)) :
    Host.divf (Host.reduceAdd A (constant (F := Ideal) S_ .f32 0x00000000#32) reducesTo_S8192_S_d0 h_S_)
        (constant (F := Ideal) S_ .f32 0x46000000#32)
      = fun _ => loss X Y := by
  subst hA
  funext j
  show Ideal.div (Host.reduceAdd (F := Ideal) _ _ reducesTo_S8192_S_d0 h_S_ j) (Ideal.ofBits .f32 0x46000000#32) = _
  rw [reduce_total, sum_idx1]
  show Ideal.div (Ideal.ofBits .f32 0x00000000#32 + ∑ a : Fin 8192, rowLoss X Y a) _ = _
  rw [Ideal.ofBits_zero_f32, zero_add]
  rfl

/-- When the output window's final array holds the row losses of X and Y, the program's result is their loss. -/
theorem tail_eq (c : Dev nD) (X Y : Mat)
    (hfin : ((dats m 0 c).arrAt 4 cfg0.N : S8192.Idx → EReal) = fun idx => rowLoss X Y (idx 0)) :
    Pipeline.afterTail₀ cfgs (dats m) 0 (V0 m) [hostOps1] c main_v5 = fun _ => loss X Y :=
  (tail_term m c).trans (tail_loss X Y _ hfin)

end Cert.PairLoss.KernelHost

end
-- ==== Proof.KHBlocks.lean ====
/-
  From the output window's blocks to its array.

  The region's fifth window writes a vector of 8192 entries in blocks of 1024: at grid point t = 16·i + j its block is
  number i, rows 1024·i … 1024·i + 1023, and it is written back only at the last column block, j = 15. So if at every
  such point the staging buffer holds, at position r, the value G (1024·i + r) of one function G of the row, then after
  the run the array holds G at every row: row ρ lies in the block of the point 16·(ρ / 1024) + 15, which is written back.
-/
import proofs.«100745_j80685255622904_1_alg».proof.Proof.KIFrame
import proofs.«100745_j80685255622904_1_alg».proof.Proof.Spec
import Idealize.ShloMosaic.Lib.Pipeline.Value

noncomputable section

namespace Cert.PairLoss.KernelHost

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The output window's block number at point t is the row block t / 16, decided over the grid. -/
theorem idx_fact4 : ∀ t : Fin cfg0.N, win0_4.index t (0 : Fin 1) = t.val / 16 :=
  (by decide +kernel : ∀ t : Fin grid0.N, win0_4.index t (0 : Fin 1) = t.val / 16)

/-- Position r of the block of point t is a row of the array. -/
theorem row_lt (t : Fin cfg0.N) (r : Fin 1024) : 1024 * (t.val / 16) + r.val < 8192 := by
  have hN : cfg0.N = 128 := N_0
  have := t.isLt
  have := r.isLt
  omega

/-- The row of the array that position r of the block of point t is. -/
abbrev rowOf (t : Fin cfg0.N) (r : Fin 1024) : Fin 8192 := ⟨1024 * (t.val / 16) + r.val, row_lt t r⟩

/-- What a point that writes back writes: its block of the function G of the row. -/
theorem flushed4_eq (c : Dev nD) (G : Fin 8192 → EReal)
    (hpt : ∀ (t : Fin cfg0.N), t.val % 16 = 15 → ∀ r : Fin 1024,
      (outsAt0 m c t.val t.isLt).1 (ix1 r) = G (rowOf t r))
    (t : Fin cfg0.N) (hf : (cfg0.win 4).flush t = true) :
    (dats m 0 c).flushed 4 t
      = ((cfg0.win 4).blk t).view.read (Elt Ideal) (fun idx : S8192.Idx => G (idx 0)) := by
  have h15 : t.val % 16 = 15 := (flush0_4 t).mp hf
  show (cfg0.win 4).cut (grid0.coords t) ((dats m 0 c).after 4 t) = _
  rw [after0_4]
  funext j
  have hj : (j 0).val < 1024 := (j 0).isLt
  have e1 : (cfg0.win 4).xinj (grid0.coords t) j = ix1 (⟨(j 0).val, hj⟩ : Fin 1024) :=
    funext fun a => Fin.ext (by match a with | ⟨0, _⟩ => rfl)
  show (outsAt0 m c t.val t.isLt).1 ((cfg0.win 4).xinj (grid0.coords t) j)
      = G ((((cfg0.win 4).blk t).view.emb j) 0)
  rw [e1, hpt t h15 ⟨(j 0).val, hj⟩]
  refine congrArg G (Fin.ext ?_)
  show 1024 * (t.val / 16) + (j 0).val = win0_4.index t (0 : Fin 1) * 1024 + 1 * (j 0).val
  rw [idx_fact4 t]
  omega

/-- A row of the array is in point t's block iff it is in the block's range. -/
theorem mem_blk4 (t : Fin cfg0.N) (i : S8192.Idx) :
    i ∈ ((cfg0.win 4).blk t).view.set
      ↔ ∀ a : Fin 1, win0_4.index t a * S1024.size a ≤ (i a).val
          ∧ (i a).val < win0_4.index t a * S1024.size a + S1024.size a := by
  show i ∈ ((View.whole main_v3).slice (win0_4.rect t)).set ↔ _
  rw [View.set_slice_whole, Rect.mem_set_unit]
  exact Iff.rfl

/-- Every row of the array is in the block of a point that writes back: row ρ in that of 16·(ρ / 1024) + 15. -/
theorem cover4 (i : S8192.Idx) :
    ∃ t : Fin cfg0.N, (cfg0.win 4).flush t = true ∧ i ∈ ((cfg0.win 4).blk t).view.set := by
  have hN : cfg0.N = 128 := N_0
  have hi : (i 0).val < 8192 := (i 0).isLt
  refine ⟨⟨16 * ((i 0).val / 1024) + 15, by omega⟩, (flush0_4 _).mpr (by dsimp only; omega), ?_⟩
  rw [mem_blk4]
  intro a
  match a with
  | ⟨0, _⟩ =>
    show win0_4.index _ (0 : Fin 1) * 1024 ≤ (i 0).val ∧ (i 0).val < win0_4.index _ (0 : Fin 1) * 1024 + 1024
    rw [idx_fact4]
    dsimp only
    omega

/-- The array after the run: the function G of the row, at every row. -/
theorem final4 (c : Dev nD) (G : Fin 8192 → EReal)
    (hpt : ∀ (t : Fin cfg0.N), t.val % 16 = 15 → ∀ r : Fin 1024,
      (outsAt0 m c t.val t.isLt).1 (ix1 r) = G (rowOf t r)) :
    ((dats m 0 c).arrAt 4 cfg0.N : S8192.Idx → EReal) = fun idx => G (idx 0) :=
  (dats m 0 c).arrAt_eq_of_cover 4 (fun idx : S8192.Idx => G (idx 0)) (fun t hf => flushed4_eq m c G hpt t hf) cover4

end Cert.PairLoss.KernelHost

end
-- ==== Proof.KHResult.lean ====
/-
  The kernel program's result from its region's per-point values.

  If at every grid point that writes the output window back, position r of its staging buffer holds the row loss of X
  and Y at the row that position is, then the window's array ends holding the row losses, and the two host operations
  after the region turn it into their mean: the program's result is the specification's loss of X and Y.
-/
import proofs.«100745_j80685255622904_1_alg».proof.Proof.KHTail
import proofs.«100745_j80685255622904_1_alg».proof.Proof.KHBlocks

noncomputable section

namespace Cert.PairLoss.KernelHost

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ)

/-- From the row losses at the points that write back to the program's result. -/
theorem result_eq (c : Dev nD) (X Y : Mat)
    (hpt : ∀ (t : Fin cfg0.N), t.val % 16 = 15 → ∀ r : Fin 1024,
      (outsAt0 m c t.val t.isLt).1 (ix1 r) = rowLoss X Y (rowOf t r)) :
    Pipeline.afterTail₀ cfgs (dats m) 0 (V0 m) [hostOps1] c main_v5 = fun _ => loss X Y :=
  tail_eq m c X Y (final4 m c (rowLoss X Y) hpt)

end Cert.PairLoss.KernelHost

end
-- ==== Proof.KIPieces.lean ====
/-
  What each case of the body leaves in each accumulator and in the output window, as the body's stored values.

  The first-block case zeroes an accumulator, reads the zero back, and stores the zero plus the block sum; the other
  cases store the previous contents plus the block sum; the last-block case also stores, into the output window, the
  combination of the three accumulators as they are AFTER their updates. Each statement holds for any float values.
-/
import proofs.«100745_j80685255622904_1_alg».proof.Proof.KIFrame
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-buffer access of a matrix, and of a vector. -/
theorem hz2 : (![0, 0] : Fin 2 → Nat) = fun _ => 0 := funext fun a => by fin_cases a <;> rfl
theorem hz1 : (![0] : Fin 1 → Nat) = fun _ => 0 := funext fun a => by fin_cases a <;> rfl

/-! ## The first column block -/

/-- The first accumulator: the zero it was reset to plus the block sum of the first pair of blocks. -/
theorem sout0_A_0_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x256 .f32) (x1 : Vec F S1024x256 .f32) (x2 : Vec F S512x256 .f32) (x3 : Vec F S512x256 .f32) :
    sout0_A_0 c i arg2 harg2 arg3 harg3 arg4 harg4 arg5 harg5 arg6 harg6 arg7 harg7 arg8 harg8 arg9 harg9 hc0 hc1 x0 x1 x2 x3
      = k0_pay8 (k0_pay3 (F := F)) (k0_pay7 x0 x3) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) hz2, View.readCov_unit_zero (S := S1024x1) _ hz2]
  simp only [View.readAt_eq_ld, harg2.read_unread, harg5.read_unread, View.ld_unit_zero (S := S1024x256) hz2, View.ld_unit_zero (S := S512x256) hz2]

/-- The second accumulator: the zero plus the block sum of the second pair. -/
theorem sout0_A_1_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x256 .f32) (x1 : Vec F S1024x256 .f32) (x2 : Vec F S512x256 .f32) (x3 : Vec F S512x256 .f32) :
    sout0_A_1 c i arg2 harg2 arg3 harg3 arg4 harg4 arg5 harg5 arg6 harg6 arg7 harg7 arg8 harg8 arg9 harg9 hc0 hc1 x0 x1 x2 x3
      = k0_pay9 x1 (k0_pay6 x3) (k0_pay4 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) hz2, View.readCov_unit_zero (S := S1024x1) _ hz2]
  simp only [View.readAt_eq_ld, harg3.read_unread, harg5.read_unread, View.ld_unit_zero (S := S1024x256) hz2, View.ld_unit_zero (S := S512x256) hz2]

/-- The third accumulator: the zero plus the block sum of the third pair. -/
theorem sout0_A_2_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : cond0_0 i) (hc1 : ¬cond0_1 i)
    (x0 : Vec F S1024x256 .f32) (x1 : Vec F S1024x256 .f32) (x2 : Vec F S512x256 .f32) (x3 : Vec F S512x256 .f32) :
    sout0_A_2 c i arg2 harg2 arg3 harg3 arg4 harg4 arg5 harg5 arg6 harg6 arg7 harg7 arg8 harg8 arg9 harg9 hc0 hc1 x0 x1 x2 x3
      = k0_pay1 x0 x2 (k0_pay5 (F := F)) (k0_pay10 x0) (k0_pay11 x2) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) hz2, View.readCov_unit_zero (S := S1024x1) _ hz2]
  simp only [View.readAt_eq_ld, harg2.read_unread, harg4.read_unread, View.ld_unit_zero (S := S1024x256) hz2, View.ld_unit_zero (S := S512x256) hz2]

/-! ## A middle column block -/

/-- The first accumulator: what it held plus the block sum. -/
theorem sout0_B_0_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x256 .f32) (x1 : Vec F S1024x256 .f32) (x2 : Vec F S512x256 .f32) (x3 : Vec F S512x256 .f32) (xs0 xs1 xs2 : Vec F S1024x1 .f32) :
    sout0_B_0 c i arg2 harg2 arg3 harg3 arg4 harg4 arg5 harg5 arg6 harg6 arg7 harg7 arg8 harg8 arg9 harg9 hc0 hc1 x0 x1 x2 x3 xs0 xs1 xs2
      = k0_pay8 xs0 (k0_pay7 x0 x3) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg5.read_unread, harg7.read_unread, View.ld_unit_zero (S := S1024x256) hz2, View.ld_unit_zero (S := S512x256) hz2, View.ld_unit_zero (S := S1024x1) hz2]

/-- The second accumulator. -/
theorem sout0_B_1_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x256 .f32) (x1 : Vec F S1024x256 .f32) (x2 : Vec F S512x256 .f32) (x3 : Vec F S512x256 .f32) (xs0 xs1 xs2 : Vec F S1024x1 .f32) :
    sout0_B_1 c i arg2 harg2 arg3 harg3 arg4 harg4 arg5 harg5 arg6 harg6 arg7 harg7 arg8 harg8 arg9 harg9 hc0 hc1 x0 x1 x2 x3 xs0 xs1 xs2
      = k0_pay9 x1 (k0_pay6 x3) xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg3.read_unread, harg5.read_unread, harg8.read_unread, View.ld_unit_zero (S := S1024x256) hz2, View.ld_unit_zero (S := S512x256) hz2, View.ld_unit_zero (S := S1024x1) hz2]

/-- The third accumulator. -/
theorem sout0_B_2_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : ¬cond0_1 i)
    (x0 : Vec F S1024x256 .f32) (x1 : Vec F S1024x256 .f32) (x2 : Vec F S512x256 .f32) (x3 : Vec F S512x256 .f32) (xs0 xs1 xs2 : Vec F S1024x1 .f32) :
    sout0_B_2 c i arg2 harg2 arg3 harg3 arg4 harg4 arg5 harg5 arg6 harg6 arg7 harg7 arg8 harg8 arg9 harg9 hc0 hc1 x0 x1 x2 x3 xs0 xs1 xs2
      = k0_pay1 x0 x2 xs2 (k0_pay10 x0) (k0_pay11 x2) := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg4.read_unread, harg9.read_unread, View.ld_unit_zero (S := S1024x256) hz2, View.ld_unit_zero (S := S512x256) hz2, View.ld_unit_zero (S := S1024x1) hz2]

/-! ## The last column block -/

/-- The first accumulator: what it held plus the block sum. -/
theorem sout0_C_0_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x256 .f32) (x1 : Vec F S1024x256 .f32) (x2 : Vec F S512x256 .f32) (x3 : Vec F S512x256 .f32) (xs0 xs1 xs2 : Vec F S1024x1 .f32) :
    sout0_C_0 c i arg2 harg2 arg3 harg3 arg4 harg4 arg5 harg5 arg6 harg6 arg7 harg7 arg8 harg8 arg9 harg9 hc0 hc1 x0 x1 x2 x3 xs0 xs1 xs2
      = k0_pay8 xs0 (k0_pay7 x0 x3) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg2.read_unread, harg5.read_unread, harg7.read_unread, View.ld_unit_zero (S := S1024x256) hz2, View.ld_unit_zero (S := S512x256) hz2, View.ld_unit_zero (S := S1024x1) hz2]

/-- The second accumulator. -/
theorem sout0_C_1_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x256 .f32) (x1 : Vec F S1024x256 .f32) (x2 : Vec F S512x256 .f32) (x3 : Vec F S512x256 .f32) (xs0 xs1 xs2 : Vec F S1024x1 .f32) :
    sout0_C_1 c i arg2 harg2 arg3 harg3 arg4 harg4 arg5 harg5 arg6 harg6 arg7 harg7 arg8 harg8 arg9 harg9 hc0 hc1 x0 x1 x2 x3 xs0 xs1 xs2
      = k0_pay9 x1 (k0_pay6 x3) xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg3.read_unread, harg5.read_unread, harg8.read_unread, View.ld_unit_zero (S := S1024x256) hz2, View.ld_unit_zero (S := S512x256) hz2, View.ld_unit_zero (S := S1024x1) hz2]

/-- The third accumulator. -/
theorem sout0_C_2_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x256 .f32) (x1 : Vec F S1024x256 .f32) (x2 : Vec F S512x256 .f32) (x3 : Vec F S512x256 .f32) (xs0 xs1 xs2 : Vec F S1024x1 .f32) :
    sout0_C_2 c i arg2 harg2 arg3 harg3 arg4 harg4 arg5 harg5 arg6 harg6 arg7 harg7 arg8 harg8 arg9 harg9 hc0 hc1 x0 x1 x2 x3 xs0 xs1 xs2
      = k0_pay1 x0 x2 xs2 (k0_pay10 x0) (k0_pay11 x2) := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg2.read_unread, harg4.read_unread, harg9.read_unread, View.ld_unit_zero (S := S1024x256) hz2, View.ld_unit_zero (S := S512x256) hz2, View.ld_unit_zero (S := S1024x1) hz2]

/-- The output window: the combination of the three accumulators as their updates left them. -/
theorem out0_C_4_eq (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S512x256 .f32) (harg4 : arg4.IsWhole) (arg5 : Memref sig .tc .vmem S512x256 .f32) (harg5 : arg5.IsWhole) (arg6 : Memref sig .tc .vmem S1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (hc0 : ¬cond0_0 i) (hc1 : cond0_1 i)
    (x0 : Vec F S1024x256 .f32) (x1 : Vec F S1024x256 .f32) (x2 : Vec F S512x256 .f32) (x3 : Vec F S512x256 .f32) (xs0 xs1 xs2 : Vec F S1024x1 .f32) :
    out0_C_4 c i arg2 harg2 arg3 harg3 arg4 harg4 arg5 harg5 arg6 harg6 arg7 harg7 arg8 harg8 arg9 harg9 hc0 hc1 x0 x1 x2 x3 xs0 xs1 xs2
      = k0_pay2 (k0_pay8 xs0 (k0_pay7 x0 x3)) (k0_pay9 x1 (k0_pay6 x3) xs1) (k0_pay1 x0 x2 xs2 (k0_pay10 x0) (k0_pay11 x2)) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz1, View.readCov_unit_zero (S := S1024x1) arg7.view hz2, View.readCov_unit_zero (S := S1024x1) arg8.view hz2,
    View.readCov_unit_zero (S := S1024x1) arg9.view hz2]
  simp only [View.readAt_eq_ld, harg2.read_unread, harg3.read_unread, harg4.read_unread, harg5.read_unread, harg7.read_unread, harg8.read_unread, harg9.read_unread, View.ld_unit_zero (S := S1024x256) hz2, View.ld_unit_zero (S := S512x256) hz2, View.ld_unit_zero (S := S1024x1) hz2]

end Cert.KernelIdeal.Gen

end
-- ==== Proof.KIOuts.lean ====
/-
  The accumulators' recurrence over the grid points, and the output window at a last column block.

  After the body at a first column block each accumulator holds the zero it was reset to plus the block sum; after any
  other point, what the point before left plus the block sum; at a last column block the output window holds the
  combination of the three accumulators as that point leaves them. For any float values.
-/
import proofs.«100745_j80685255622904_1_alg».proof.Proof.KIPieces
import Idealize.ShloMosaic.Lib.ValueIdx

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- At a first column block. -/
theorem accs_first (c : Dev nD) (t : Fin cfg0.N) (h0 : t.val % 16 = 0) :
    (outsAt0 m c t.val t.isLt).2.1 = k0_pay8 (k0_pay3 (F := F)) (k0_pay7 (iblk m c 0 t) (iblk m c 3 t))
    ∧ (outsAt0 m c t.val t.isLt).2.2.1 = k0_pay9 (iblk m c 1 t) (k0_pay6 (iblk m c 3 t)) (k0_pay4 (F := F))
    ∧ (outsAt0 m c t.val t.isLt).2.2.2 = k0_pay1 (iblk m c 0 t) (iblk m c 2 t) (k0_pay5 (F := F)) (k0_pay10 (iblk m c 0 t)) (k0_pay11 (iblk m c 2 t)) := by
  have h1 : ¬t.val % 16 = 15 := by omega
  rw [outsAt0_A m c t h0 h1]
  dsimp only
  exact ⟨sout0_A_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
    sout0_A_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
    sout0_A_2_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)⟩

/-- At any other point: over what the point before left. -/
theorem accs_next (c : Dev nD) (t : Fin cfg0.N) (h0 : ¬t.val % 16 = 0) :
    (outsAt0 m c t.val t.isLt).2.1 = k0_pay8 (outsAt0 m c (t.val - 1) (Nat.lt_of_le_of_lt (Nat.sub_le _ _) t.isLt)).2.1 (k0_pay7 (iblk m c 0 t) (iblk m c 3 t))
    ∧ (outsAt0 m c t.val t.isLt).2.2.1 = k0_pay9 (iblk m c 1 t) (k0_pay6 (iblk m c 3 t)) (outsAt0 m c (t.val - 1) (Nat.lt_of_le_of_lt (Nat.sub_le _ _) t.isLt)).2.2.1
    ∧ (outsAt0 m c t.val t.isLt).2.2.2 = k0_pay1 (iblk m c 0 t) (iblk m c 2 t) (outsAt0 m c (t.val - 1) (Nat.lt_of_le_of_lt (Nat.sub_le _ _) t.isLt)).2.2.2 (k0_pay10 (iblk m c 0 t)) (k0_pay11 (iblk m c 2 t)) := by
  by_cases h1 : t.val % 16 = 15
  · rw [outsAt0_C m c t h0 h1]
    dsimp only
    exact ⟨sout0_C_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      sout0_C_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      sout0_C_2_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩
  · rw [outsAt0_B m c t h0 h1]
    dsimp only
    exact ⟨sout0_B_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      sout0_B_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      sout0_B_2_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

/-- At a last column block the output window holds the combination of the accumulators as this point leaves them. -/
theorem out_last (c : Dev nD) (t : Fin cfg0.N) (h1 : t.val % 16 = 15) :
    (outsAt0 m c t.val t.isLt).1
      = k0_pay2 (outsAt0 m c t.val t.isLt).2.1 (outsAt0 m c t.val t.isLt).2.2.1 (outsAt0 m c t.val t.isLt).2.2.2 := by
  have h0 : ¬t.val % 16 = 0 := by omega
  obtain ⟨e0, e1, e2⟩ := accs_next m c t h0
  rw [e0, e1, e2, outsAt0_C m c t h0 h1]
  dsimp only
  exact out0_C_4_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

end Cert.KernelIdeal.Gen

end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.LibRowReduce.lean ====
/-
  Reductions along the rows of a matrix, read at one row.

  For an [n, d] matrix reduced over its second axis into an [n] vector, the entry at row p is the reduction of the
  entries (p, 0), …, (p, d-1): a sum for an add-reduction, the fold of `max` from the start value for a
  maximum-reduction.  Stated for the kernel's vector reductions and for the host's one-operand reduce, at the
  extended reals, for any extents and float format.
-/
import Idealize.ShloMosaic.PureOps.Ideal.Laws
import Idealize.ShloMosaic.Lib.ValueIdx

noncomputable section
namespace Cert.LibRowReduce
open Idealize.ShloMosaic Idealize.ShloMosaic.ValueIdx

variable {φ : FTy}

/-- Row p with the coordinate o put back on the reduced axis is the entry (p, o). -/
theorem lift_row {n d : ℕ} (h : (⟨2, ![n, d]⟩ : Shape).Reduces [1] ⟨1, ![n]⟩) (p : Fin n) (o : Fin d) :
    h.lift (ix1 p) o = ix2 p o :=
  funext fun a => Fin.ext (by
    match a with
    | ⟨0, _⟩ => rfl
    | ⟨1, _⟩ => rfl)

/-- A vector add-reduction along the rows: the row's sum. -/
theorem multiReduction_add_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.add.neutral φ hφ) (p : Fin n) :
    multiReduction .add [1] ⟨1, ![n]⟩ src acc h hφ hacc (ix1 p) = ∑ o : Fin d, src (ix2 p o) :=
  (Ideal.multiReduction_add_single src acc h hφ hacc (ix1 p)).trans
    (Finset.sum_congr rfl fun o _ => congrArg src (lift_row h p o))

/-- A vector maximum-reduction along the rows: the fold of `max` over the row from the accumulator's value. -/
theorem multiReduction_max_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.maximumf.neutral φ hφ) (p : Fin n) :
    multiReduction .maximumf [1] ⟨1, ![n]⟩ src acc h hφ hacc (ix1 p)
      = (Finset.univ : Finset (Fin d)).fold max (Ideal.ofBits φ acc) (fun o => src (ix2 p o)) :=
  (Ideal.multiReduction_maximumf_single src acc h hφ hacc (ix1 p)).trans
    (congrArg (Finset.fold max (Ideal.ofBits φ acc) · Finset.univ) (funext fun o => congrArg src (lift_row h p o)))

/-- The host's add-reduce along the rows: the start value plus the row's sum. -/
theorem hostReduceAdd_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduceAdd x init h' hu (ix1 p) = init (Shape.Idx.first hu) + ∑ o : Fin d, x (ix2 p o) :=
  (Ideal.hostReduceAdd_single h' h x (init (Shape.Idx.first hu)) (ix1 p)).trans
    (congrArg (init (Shape.Idx.first hu) + ·) (Finset.sum_congr rfl fun o _ => congrArg x (lift_row h p o)))

/-- The host's maximum-reduce along the rows: the fold of `max` over the row from the start value. -/
theorem hostReduce_max_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduce (FloatOps.maximumf (F := Ideal) (φ := φ)) x init h' hu (ix1 p)
      = (Finset.univ : Finset (Fin d)).fold max (init (Shape.Idx.first hu)) (fun o => x (ix2 p o)) :=
  (Host.reduce_eq_fold_single (FloatOps.maximumf (F := Ideal) (φ := φ)) x init h' h hu (ix1 p)).trans
    (congrArg (Finset.fold max (init (Shape.Idx.first hu)) · Finset.univ) (funext fun o => congrArg x (lift_row h p o)))

end Cert.LibRowReduce
end
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.LibRowColumn.lean ====
/-
  A one-column matrix read as a vector or as a one-row matrix, at an index.

  A column [a, 1] cast to the vector [a] keeps the row-major position, so entry i of the result is the column's entry
  (i, 0); the same column transposed to the row [1, a] reads, at (u, k), the column's entry (k, 0), whatever the unit
  coordinate u. General in the extent a and in the element type.
-/
import Idealize.ShloMosaic.Lib.Pipeline.Value
import Idealize.ShloMosaic.Lib.ValueIdx
import Idealize.ShloMosaic.Lib.ValueLayout

noncomputable section

namespace Cert.LibRowColumn

open Idealize.ShloMosaic Idealize.ShloMosaic.ValueIdx

variable {α : Type}

/-- A column `[a, 1]` cast to the vector `[a]` reads, at `i`, the column's entry `(i, 0)`: both sit at row-major
    position `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` transposed to the row `[1, a]` reads, at `(u, k)`, the column's entry `(k, 0)`. -/
theorem transpose_a1_1a_apply {a : ℕ} (x : (⟨2, ![a, 1]⟩ : Shape).Idx → α)
    (h : (⟨2, ![a, 1]⟩ : Shape).Transposes [1, 0] ⟨2, ![1, a]⟩) (u : Fin 1) (k : Fin a) :
    transpose ⟨2, ![1, a]⟩ [1, 0] x h (ix2 u k) = x (ix2 k (0 : Fin 1)) :=
  (transpose_ix2_apply x h u k).trans (congrArg (fun w => x (ix2 k w)) (Subsingleton.elim u 0))

end Cert.LibRowColumn

end
-- ==== Proof.BodyMath.lean ====
/-
  The kernel body's arithmetic, read at an index on the extended reals.

  At one grid point the body holds a block `a` of 1024 rows and a block `b` of 512 rows, each row of 256 entries, and
  adds to a column accumulator, row by row, the block's part of the row sum of the specification: for row r the sum over
  the 512 rows k of `b` of the entry built from the squared norm of row r of `a`, the squared norm of row k of `b`, and
  their inner product. The three accumulator updates of the body are this one function of different loaded blocks; the
  three resets store zero; the final store combines the three accumulators as the specification's row loss does.
-/
import proofs.«100745_j80685255622904_1_alg».proof.Proof.Gen.KernelIdeal.Skeleton
import proofs.«100745_j80685255622904_1_alg».proof.Proof.Spec
import proofs.«100745_j80685255622904_1_alg».proof.Proof.LibPlainDot
import proofs.«100745_j80685255622904_1_alg».proof.Proof.LibRowReduce
import proofs.«100745_j80685255622904_1_alg».proof.Proof.LibKeepdims
import proofs.«100745_j80685255622904_1_alg».proof.Proof.LibRowColumn
import Idealize.ShloMosaic.Lib.Pipeline.Value
import Idealize.ShloMosaic.Lib.ValueLayout

noncomputable section

namespace Cert.PairLoss.Body

open Idealize.ShloMosaic Idealize.ShloMosaic.ValueIdx Cert.KernelIdeal Cert.KernelIdeal.Gen

/-- The inner products of the rows of `a` with the rows of `b`: the matrix product of `a` with `b` transposed, both
    first rounded to the narrower format (the identity on the extended reals). -/
def gram (a : FVec Ideal S1024x256 .f32) (b : FVec Ideal S512x256 .f32) : FVec Ideal S1024x512 .f32 :=
  matmul dot_S1024x256_S256x512_S1024x512_1_0_0_1_n_n none
    (truncf .bf16 a bitsLt_bf16_f32 : FVec Ideal S1024x256 .bf16)
    (transpose S256x512 [1, 0] (truncf .bf16 b bitsLt_bf16_f32 : FVec Ideal S512x256 .bf16) transposes_S512x256_p1_0_S256x512)
    (constant (F := Ideal) S1024x512 .f32 0x00000000#32)

/-- The squared norms of the rows of `a`, as a column. -/
def sqCol (a : FVec Ideal S1024x256 .f32) : FVec Ideal S1024x1 .f32 :=
  shapeCast S1024x1
    (multiReduction (F := Ideal) .add [1] S1024 (mulf a a) 0x00000000#32 reduces_S1024x256_S1024 (.inl rfl) rfl)
    shapeCasts_S1024_S1024x1

/-- The squared norms of the rows of `b`, as a row. -/
def sqRow (b : FVec Ideal S512x256 .f32) : FVec Ideal S1x512 .f32 :=
  transpose S1x512 [1, 0]
    (shapeCast S512x1
      (multiReduction (F := Ideal) .add [1] S512 (mulf b b) 0x00000000#32 reduces_S512x256_S512 (.inl rfl) rfl)
      shapeCasts_S512_S512x1)
    transposes_S512x1_p1_0_S1x512

/-- The expanded squared distances of the rows of `a` to the rows of `b`. -/
def distMat (a : FVec Ideal S1024x256 .f32) (b : FVec Ideal S512x256 .f32) : FVec Ideal S1024x512 .f32 :=
  subf
    (addf (broadcastTo S1024x512 (sqCol a) broadcasts_S1024x1_S1024x512)
      (broadcastTo S1024x512 (sqRow b) broadcasts_S1x512_S1024x512))
    (mulf (broadcast S1024x512 (Scalar.ofBits (F := Ideal) .f32 0x40000000#32)) (gram a b))

/-- Each distance clamped, its logarithm halved. -/
def entryMat (a : FVec Ideal S1024x256 .f32) (b : FVec Ideal S512x256 .f32) : FVec Ideal S1024x512 .f32 :=
  mulf (broadcast S1024x512 (Scalar.ofBits (F := Ideal) .f32 0x3F000000#32))
    (log
      (maximumf
        (select (cmpf .ogt (distMat a b) (broadcast S1024x512 (Scalar.ofBits (F := Ideal) .f32 0x358637BD#32)))
          (distMat a b) (broadcast S1024x512 (Scalar.ofBits (F := Ideal) .f32 0x3F800000#32)))
        (broadcast S1024x512 (Scalar.ofBits (F := Ideal) .f32 0x3F800000#32))))

/-- The block's part of each row sum. -/
def blockSum (a : FVec Ideal S1024x256 .f32) (b : FVec Ideal S512x256 .f32) : FVec Ideal S1024 .f32 :=
  multiReduction (F := Ideal) .add [1] S1024 (entryMat a b) 0x00000000#32 reduces_S1024x512_S1024 (.inl rfl) rfl

/-- One accumulator update: the accumulator plus the block's part of each row sum. -/
def blockUpdate (a : FVec Ideal S1024x256 .f32) (b : FVec Ideal S512x256 .f32) (acc : FVec Ideal S1024x1 .f32) :
    FVec Ideal S1024x1 .f32 :=
  shapeCast S1024x1 (addf acc (shapeCast S1024x1 (blockSum a b) shapeCasts_S1024_S1024x1)) shapeCasts_S1024x1_S1024x1

/-! ## The body's stored values are these functions -/

/-- The column block after its identity cast. -/
theorem pay6_eq (v6 : Vec Ideal S512x256 .f32) : k0_pay6 (F := Ideal) v6 = v6 :=
  shapeCast_self v6 _

/-- The first block sum, of the first row block against the second window's column block. -/
theorem pay7_eq (v3 : Vec Ideal S1024x256 .f32) (v6 : Vec Ideal S512x256 .f32) :
    k0_pay7 (F := Ideal) v3 v6 = blockSum v3 (k0_pay6 (F := Ideal) v6) := rfl

/-- The first accumulator's update. -/
theorem pay8_eq (v3 : Vec Ideal S1024x256 .f32) (v6 : Vec Ideal S512x256 .f32) (v8 : Vec Ideal S1024x1 .f32) :
    k0_pay8 (F := Ideal) v8 (k0_pay7 (F := Ideal) v3 v6) = blockUpdate v3 (k0_pay6 (F := Ideal) v6) v8 := rfl

/-- The second accumulator's update. -/
theorem pay9_eq (v4 : Vec Ideal S1024x256 .f32) (v7 : FVec Ideal S512x256 .f32) (v41 : Vec Ideal S1024x1 .f32) :
    k0_pay9 (F := Ideal) v4 v7 v41 = blockUpdate v4 v7 v41 := rfl

/-- The third accumulator's update, with the two rounded blocks as the body passes them. -/
theorem pay1_eq (v3 : Vec Ideal S1024x256 .f32) (v5 : Vec Ideal S512x256 .f32) (v74 : Vec Ideal S1024x1 .f32) :
    k0_pay1 (F := Ideal) v3 v5 v74 (k0_pay10 (F := Ideal) v3) (k0_pay11 (F := Ideal) v5) = blockUpdate v3 v5 v74 := rfl

/-! ## The functions read at an index -/

/-- The vector logarithm at an index. -/
theorem log_apply {s : Shape} {φ : FTy} (x : FVec Ideal s φ) (i : s.Idx) : log x i = Ideal.log (x i) := rfl

/-- An inner product of a row of `a` with a row of `b`. -/
theorem gram_apply (a : FVec Ideal S1024x256 .f32) (b : FVec Ideal S512x256 .f32) (r : Fin 1024) (k : Fin 512) :
    gram a b (ix2 r k) = ∑ d : Fin 256, a (ix2 r d) * b (ix2 k d) := by
  unfold gram
  refine (Cert.LibPlainDot.matmul_zero_apply dot_S1024x256_S256x512_S1024x512_1_0_0_1_n_n rfl rfl rfl rfl rfl rfl none _ _ r k).trans ?_
  refine Finset.sum_congr rfl fun d _ => ?_
  rw [truncf_apply, transpose_ix2_apply, truncf_apply]

/-- The squared norm of a row of `a`. -/
theorem sqCol_apply (a : FVec Ideal S1024x256 .f32) (r : Fin 1024) (u : Fin 1) :
    sqCol a (ix2 r u) = ∑ d : Fin 256, a (ix2 r d) * a (ix2 r d) :=
  (Cert.LibKeepdims.shapeCast_a_a1_apply _ _ r u).trans
    (Cert.LibRowReduce.multiReduction_add_row (mulf a a) _ _ _ _ r)

/-- The squared norm of a row of `b`. -/
theorem sqRow_apply (b : FVec Ideal S512x256 .f32) (u : Fin 1) (k : Fin 512) :
    sqRow b (ix2 u k) = ∑ d : Fin 256, b (ix2 k d) * b (ix2 k d) :=
  (Cert.LibRowColumn.transpose_a1_1a_apply _ _ u k).trans
    ((Cert.LibKeepdims.shapeCast_a_a1_apply _ _ k 0).trans
      (Cert.LibRowReduce.multiReduction_add_row (mulf b b) _ _ _ _ k))

/-- The expanded squared distance of row r of `a` to row k of `b`. -/
theorem distMat_apply (a : FVec Ideal S1024x256 .f32) (b : FVec Ideal S512x256 .f32) (r : Fin 1024) (k : Fin 512) :
    distMat a b (ix2 r k)
      = Cert.PairLoss.dist (∑ d : Fin 256, a (ix2 r d) * a (ix2 r d)) (∑ d : Fin 256, b (ix2 k d) * b (ix2 k d))
          (∑ d : Fin 256, a (ix2 r d) * b (ix2 k d)) := by
  unfold distMat Cert.PairLoss.dist Cert.PairLoss.two
  rw [subf_apply, addf_apply, mulf_apply, broadcast_apply, Cert.LibKeepdims.broadcastTo_a1_ab_apply,
    broadcastTo_1b_ab_apply, sqCol_apply, sqRow_apply, gram_apply]
  rfl

/-- The entry of row r of `a` against row k of `b`. -/
theorem entryMat_apply (a : FVec Ideal S1024x256 .f32) (b : FVec Ideal S512x256 .f32) (r : Fin 1024) (k : Fin 512) :
    entryMat a b (ix2 r k)
      = Cert.PairLoss.entry (∑ d : Fin 256, a (ix2 r d) * a (ix2 r d)) (∑ d : Fin 256, b (ix2 k d) * b (ix2 k d))
          (∑ d : Fin 256, a (ix2 r d) * b (ix2 k d)) := by
  unfold entryMat Cert.PairLoss.entry Cert.PairLoss.half Cert.PairLoss.thr Cert.PairLoss.one
  rw [mulf_apply, log_apply, maximumf_apply, select_apply, cmpf_apply, distMat_apply]
  rfl

/-- The block's part of row r's sum. -/
theorem blockSum_apply (a : FVec Ideal S1024x256 .f32) (b : FVec Ideal S512x256 .f32) (r : Fin 1024) :
    blockSum a b (ix1 r)
      = ∑ k : Fin 512, Cert.PairLoss.entry (∑ d : Fin 256, a (ix2 r d) * a (ix2 r d))
          (∑ d : Fin 256, b (ix2 k d) * b (ix2 k d)) (∑ d : Fin 256, a (ix2 r d) * b (ix2 k d)) :=
  (Cert.LibRowReduce.multiReduction_add_row (entryMat a b) _ _ _ _ r).trans
    (Finset.sum_congr rfl fun k _ => entryMat_apply a b r k)

/-- One accumulator update at row r: the accumulator's entry plus the block's part of the row sum. -/
theorem blockUpdate_apply (a : FVec Ideal S1024x256 .f32) (b : FVec Ideal S512x256 .f32) (acc : FVec Ideal S1024x1 .f32)
    (r : Fin 1024) (u : Fin 1) :
    blockUpdate a b acc (ix2 r u)
      = acc (ix2 r u) + ∑ k : Fin 512, Cert.PairLoss.entry (∑ d : Fin 256, a (ix2 r d) * a (ix2 r d))
          (∑ d : Fin 256, b (ix2 k d) * b (ix2 k d)) (∑ d : Fin 256, a (ix2 r d) * b (ix2 k d)) := by
  unfold blockUpdate
  rw [shapeCast_self, addf_apply, Cert.LibKeepdims.shapeCast_a_a1_apply, blockSum_apply]

/-! ## The resets and the final store -/

/-- The first accumulator's reset stores zero. -/
theorem pay3_apply (i : S1024x1.Idx) : k0_pay3 (F := Ideal) i = 0 := by
  show shapeCast S1024x1 (broadcast S1024x1 (Scalar.ofBits (F := Ideal) .f32 0x00000000#32)) shapeCasts_S1024x1_S1024x1 i = 0
  rw [shapeCast_self, broadcast_apply]
  exact Ideal.ofBits_zero_f32

/-- The second accumulator's reset stores zero. -/
theorem pay4_apply (i : S1024x1.Idx) : k0_pay4 (F := Ideal) i = 0 := by
  show shapeCast S1024x1 (broadcast S1024x1 (Scalar.ofBits (F := Ideal) .f32 0x00000000#32)) shapeCasts_S1024x1_S1024x1 i = 0
  rw [shapeCast_self, broadcast_apply]
  exact Ideal.ofBits_zero_f32

/-- The third accumulator's reset stores zero. -/
theorem pay5_apply (i : S1024x1.Idx) : k0_pay5 (F := Ideal) i = 0 := by
  show shapeCast S1024x1 (broadcast S1024x1 (Scalar.ofBits (F := Ideal) .f32 0x00000000#32)) shapeCasts_S1024x1_S1024x1 i = 0
  rw [shapeCast_self, broadcast_apply]
  exact Ideal.ofBits_zero_f32

/-- The final store at row r: the first two accumulators' sum less the third's entry times the scale. -/
theorem pay2_apply (v110 v111 v113 : FVec Ideal S1024x1 .f32) (r : Fin 1024) :
    k0_pay2 (F := Ideal) v110 v111 v113 (ix1 r)
      = (v110 (ix2 r (0 : Fin 1)) + v111 (ix2 r (0 : Fin 1))) - v113 (ix2 r (0 : Fin 1)) * Cert.PairLoss.scale := by
  show shapeCast S1024
      (subf (addf v110 v111) (mulf v113 (broadcast S1024x1 (Scalar.ofBits (F := Ideal) .f32 0x3F800400#32))))
      shapeCasts_S1024x1_S1024 (ix1 r) = _
  rw [Cert.LibRowColumn.shapeCast_a1_a_apply]
  rfl

end Cert.PairLoss.Body

end
-- ==== Proof.LibBlockSum.lean ====
/-
  Regrouping a finite sum into consecutive blocks.

  A sum over the `N = m * n` indices `0, …, N - 1` is the sum, over the `m` blocks `j = 0, …, m - 1`, of the sums
  over the `n` consecutive indices `n * j, …, n * j + n - 1` of block `j`.  It holds in every additive commutative
  monoid — in particular over the extended reals, where a sum may be regrouped and reordered freely although
  cancellation and distributivity fail at the infinities.  The block index ranges over `Finset.range m` so that a
  running partial sum over the first `k + 1` blocks is `Finset.sum_range_succ` away from the one over the first `k`;
  the position inside `Fin N` is written modulo `N` so that the summand is a total function of the natural number `j`.
-/
import Mathlib

open scoped BigOperators

namespace Cert.LibBlockSum

/-- The sum over `Fin N`, `N = m * n`, block by block: block `j` holds the indices `n * j + k`, `k < n`. -/
theorem sum_range_blocks {M : Type*} [AddCommMonoid M] (m n N : ℕ) (hN : N = m * n) (hpos : 0 < N) (f : Fin N → M) :
    ∑ j ∈ Finset.range m, ∑ k : Fin n, f ⟨(n * j + k.val) % N, Nat.mod_lt _ hpos⟩ = ∑ i : Fin N, f i := by
  subst hN
  rw [Finset.sum_range, ← Fintype.sum_prod_type']
  refine Fintype.sum_equiv finProdFinEquiv _ _ (fun p => ?_)
  have hlt : p.2.val + n * p.1.val < m * n := by
    have := (finProdFinEquiv p).isLt
    rwa [finProdFinEquiv_apply_val] at this
  refine congrArg f (Fin.ext ?_)
  show (n * p.1.val + p.2.val) % (m * n) = (finProdFinEquiv p).val
  rw [finProdFinEquiv_apply_val, Nat.mod_eq_of_lt (by omega)]
  omega

end Cert.LibBlockSum
-- ==== Proof.RowBlocks.lean ====
/-
  From the body's block updates to the specification's row sums.

  Grid point 16·i + j pairs row block i (rows 1024·i, …, 1024·i + 1023 of the left matrix) with column block j (rows
  512·j, …, 512·j + 511 of the right matrix). One accumulator update adds, to row r's entry, block j's part of the row
  sum of row 1024·i + r; after the sixteen column blocks the entry is the whole row sum over the 8192 rows of the right
  matrix. Everything here is arithmetic over the extended reals: no program is mentioned.
-/
import proofs.«100745_j80685255622904_1_alg».proof.Proof.BodyMath
import proofs.«100745_j80685255622904_1_alg».proof.Proof.LibBlockSum

noncomputable section

namespace Cert.PairLoss.KernelValue

open Idealize.ShloMosaic Idealize.ShloMosaic.ValueIdx Cert.KernelIdeal Cert.PairLoss Cert.PairLoss.Body

/-- Row r of row block i, as a row of the whole matrix. -/
def rowOf (i : ℕ) (r : Fin 1024) : Fin 8192 := ⟨(1024 * i + r.val) % 8192, Nat.mod_lt _ (by decide)⟩

/-- Row k of column block j, as a row of the whole matrix. -/
def colOf (j : ℕ) (k : Fin 512) : Fin 8192 := ⟨(512 * j + k.val) % 8192, Nat.mod_lt _ (by decide)⟩

theorem rowOf_val (i : ℕ) (hi : i < 8) (r : Fin 1024) : (rowOf i r).val = 1024 * i + r.val :=
  Nat.mod_eq_of_lt (by have := r.isLt; omega)

theorem colOf_val (j : ℕ) (hj : j < 16) (k : Fin 512) : (colOf j k).val = 512 * j + k.val :=
  Nat.mod_eq_of_lt (by have := k.isLt; omega)

/-- Column block j's part of the row sum of `row`. -/
def blockPart (A B : Mat) (row : Fin 8192) (j : ℕ) : EReal :=
  ∑ k : Fin 512, entry (sq A row) (sq B (colOf j k)) (dot A B row (colOf j k))

/-- The first n column blocks' part of the row sum of `row`. -/
def partRowSum (A B : Mat) (row : Fin 8192) (n : ℕ) : EReal := ∑ j ∈ Finset.range n, blockPart A B row j

theorem partRowSum_zero (A B : Mat) (row : Fin 8192) : partRowSum A B row 0 = 0 := Finset.sum_range_zero _

theorem partRowSum_succ (A B : Mat) (row : Fin 8192) (n : ℕ) :
    partRowSum A B row (n + 1) = partRowSum A B row n + blockPart A B row n := Finset.sum_range_succ _ _

theorem partRowSum_one (A B : Mat) (row : Fin 8192) : partRowSum A B row 1 = 0 + blockPart A B row 0 := by
  rw [partRowSum_succ, partRowSum_zero]

/-- All sixteen column blocks: the whole row sum. -/
theorem partRowSum_sixteen (A B : Mat) (row : Fin 8192) : partRowSum A B row 16 = rowSum A B row :=
  Cert.LibBlockSum.sum_range_blocks 16 512 8192 rfl (by decide) (fun k => entry (sq A row) (sq B k) (dot A B row k))

/-- One accumulator update whose row block reads rows 1024·i + r of A and whose column block reads rows 512·j + k of
    B adds column block j's part of the row sum. -/
theorem blockUpdate_rows (a : FVec Ideal S1024x256 .f32) (b : FVec Ideal S512x256 .f32) (acc : FVec Ideal S1024x1 .f32)
    (A B : Mat) (i j : ℕ) (ha : ∀ (r : Fin 1024) (d : Fin 256), a (ix2 r d) = A (ix2 (rowOf i r) d))
    (hb : ∀ (k : Fin 512) (d : Fin 256), b (ix2 k d) = B (ix2 (colOf j k) d)) (r : Fin 1024) (u : Fin 1) :
    blockUpdate a b acc (ix2 r u) = acc (ix2 r u) + blockPart A B (rowOf i r) j := by
  rw [blockUpdate_apply]
  unfold blockPart sq dot
  simp only [ha, hb]

end Cert.PairLoss.KernelValue

end
-- ==== Proof.BlockRead.lean ====
/-
  The input windows' blocks read at an entry.

  At grid point t = 16·i + j windows 0 and 1 hold row block i of the two arguments and windows 2 and 3 hold column
  block j of the first argument and of the midpoint matrix: entry (r, d) of a row block is entry (1024·i + r, d) of its
  array, entry (k, d) of a column block is entry (512·j + k, d). The block indices are decided once over the 128 points.
-/
import proofs.«100745_j80685255622904_1_alg».proof.Proof.KIBase
import proofs.«100745_j80685255622904_1_alg».proof.Proof.RowBlocks
import Idealize.ShloMosaic.Lib.Pipeline.Value
import Idealize.ShloMosaic.Lib.ValueIdx

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.PairLoss.KernelValue (rowOf colOf)

variable {F : FTy → Type} [FloatOps F]

variable (m : (ℓ : Loc nD τ sig) → Buf (Elt F) ℓ)

/-- The row-block windows' block index is (t / 16, 0); the column-block windows' is (t % 16, 0). -/
theorem idx0_0 : ∀ t : Fin cfg0.N, win0_0.index t (0 : Fin 2) = t.val / 16 ∧ win0_0.index t (1 : Fin 2) = 0 :=
  (by decide +kernel : ∀ t : Fin grid0.N, win0_0.index t (0 : Fin 2) = t.val / 16 ∧ win0_0.index t (1 : Fin 2) = 0)
theorem idx0_1 : ∀ t : Fin cfg0.N, win0_1.index t (0 : Fin 2) = t.val / 16 ∧ win0_1.index t (1 : Fin 2) = 0 :=
  (by decide +kernel : ∀ t : Fin grid0.N, win0_1.index t (0 : Fin 2) = t.val / 16 ∧ win0_1.index t (1 : Fin 2) = 0)
theorem idx0_2 : ∀ t : Fin cfg0.N, win0_2.index t (0 : Fin 2) = t.val % 16 ∧ win0_2.index t (1 : Fin 2) = 0 :=
  (by decide +kernel : ∀ t : Fin grid0.N, win0_2.index t (0 : Fin 2) = t.val % 16 ∧ win0_2.index t (1 : Fin 2) = 0)
theorem idx0_3 : ∀ t : Fin cfg0.N, win0_3.index t (0 : Fin 2) = t.val % 16 ∧ win0_3.index t (1 : Fin 2) = 0 :=
  (by decide +kernel : ∀ t : Fin grid0.N, win0_3.index t (0 : Fin 2) = t.val % 16 ∧ win0_3.index t (1 : Fin 2) = 0)

/-- Window 0's block at point t, read at an entry: row 1024·(t / 16) + r of its array. -/
theorem iblk0_apply (c : Dev nD) (t : Fin cfg0.N) (r : Fin 1024) (d : Fin 256) :
    (iblk m c 0 t : Vec F S1024x256 .f32) (ix2 r d)
      = (V m c main_arg0 : Vec F S8192x256 .f32) (ix2 (rowOf (t.val / 16) r) d) := by
  have hN : t.val < 128 := lt_of_lt_of_eq t.isLt N_0
  unfold iblk
  rw [View.read_apply]
  show V m c main_arg0 _ = V m c main_arg0 _
  refine congrArg (V m c main_arg0) (funext fun a => Fin.ext ?_)
  match a with
  | ⟨0, _⟩ =>
    show win0_0.index t 0 * 1024 + 1 * r.val = (1024 * (t.val / 16) + r.val) % 8192
    rw [(idx0_0 t).1]; have := r.isLt; omega
  | ⟨1, _⟩ =>
    show win0_0.index t 1 * 256 + 1 * d.val = d.val
    rw [(idx0_0 t).2]; omega

/-- Window 1's block at point t, read at an entry: row 1024·(t / 16) + r of its array. -/
theorem iblk1_apply (c : Dev nD) (t : Fin cfg0.N) (r : Fin 1024) (d : Fin 256) :
    (iblk m c 1 t : Vec F S1024x256 .f32) (ix2 r d)
      = (V m c main_arg1 : Vec F S8192x256 .f32) (ix2 (rowOf (t.val / 16) r) d) := by
  have hN : t.val < 128 := lt_of_lt_of_eq t.isLt N_0
  unfold iblk
  rw [View.read_apply]
  show V m c main_arg1 _ = V m c main_arg1 _
  refine congrArg (V m c main_arg1) (funext fun a => Fin.ext ?_)
  match a with
  | ⟨0, _⟩ =>
    show win0_1.index t 0 * 1024 + 1 * r.val = (1024 * (t.val / 16) + r.val) % 8192
    rw [(idx0_1 t).1]; have := r.isLt; omega
  | ⟨1, _⟩ =>
    show win0_1.index t 1 * 256 + 1 * d.val = d.val
    rw [(idx0_1 t).2]; omega

/-- Window 2's block at point t, read at an entry: row 512·(t % 16) + r of its array. -/
theorem iblk2_apply (c : Dev nD) (t : Fin cfg0.N) (r : Fin 512) (d : Fin 256) :
    (iblk m c 2 t : Vec F S512x256 .f32) (ix2 r d)
      = (V m c main_arg0 : Vec F S8192x256 .f32) (ix2 (colOf (t.val % 16) r) d) := by
  have hN : t.val < 128 := lt_of_lt_of_eq t.isLt N_0
  unfold iblk
  rw [View.read_apply]
  show V m c main_arg0 _ = V m c main_arg0 _
  refine congrArg (V m c main_arg0) (funext fun a => Fin.ext ?_)
  match a with
  | ⟨0, _⟩ =>
    show win0_2.index t 0 * 512 + 1 * r.val = (512 * (t.val % 16) + r.val) % 8192
    rw [(idx0_2 t).1]; have := r.isLt; omega
  | ⟨1, _⟩ =>
    show win0_2.index t 1 * 256 + 1 * d.val = d.val
    rw [(idx0_2 t).2]; omega

/-- Window 3's block at point t, read at an entry: row 512·(t % 16) + r of its array. -/
theorem iblk3_apply (c : Dev nD) (t : Fin cfg0.N) (r : Fin 512) (d : Fin 256) :
    (iblk m c 3 t : Vec F S512x256 .f32) (ix2 r d)
      = (V m c main_v2 : Vec F S8192x256 .f32) (ix2 (colOf (t.val % 16) r) d) := by
  have hN : t.val < 128 := lt_of_lt_of_eq t.isLt N_0
  unfold iblk
  rw [View.read_apply]
  show V m c main_v2 _ = V m c main_v2 _
  refine congrArg (V m c main_v2) (funext fun a => Fin.ext ?_)
  match a with
  | ⟨0, _⟩ =>
    show win0_3.index t 0 * 512 + 1 * r.val = (512 * (t.val % 16) + r.val) % 8192
    rw [(idx0_3 t).1]; have := r.isLt; omega
  | ⟨1, _⟩ =>
    show win0_3.index t 1 * 256 + 1 * d.val = d.val
    rw [(idx0_3 t).2]; omega

end Cert.KernelIdeal.Gen

end
-- ==== Proof.KernelValue.lean ====
/-
  The kernel region's accumulators and output, as the specification's row sums.

  Write X, Y for the two arguments and M for the midpoint matrix as the region finds them. After the body at grid
  point t = 16·i + j the three accumulators hold, at row r, the first j + 1 column blocks' part of the row sums of row
  1024·i + r for the pairs (X, M), (Y, M), (X, X); so at j = 15 they hold the whole row sums, and the output window
  holds the row loss (rowSum X M + rowSum Y M) − rowSum X X · scale of row 1024·i + r.
-/
import proofs.«100745_j80685255622904_1_alg».proof.Proof.KIOuts
import proofs.«100745_j80685255622904_1_alg».proof.Proof.BlockRead

set_option maxRecDepth 16384

noncomputable section

namespace Cert.PairLoss.KernelValue

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.PairLoss Cert.PairLoss.Body

variable (m : (ℓ : Loc nD τ sig) → Buf (Elt Ideal) ℓ)

/-- The first argument, the second argument and the midpoint matrix, as the region finds them. -/
abbrev matX (c : Dev nD) : Mat := V m c main_arg0
abbrev matY (c : Dev nD) : Mat := V m c main_arg1
abbrev matM (c : Dev nD) : Mat := V m c main_v2

/-- One update of an accumulator that holds the first j column blocks' part adds block j's. -/
theorem update_part (a : FVec Ideal S1024x256 .f32) (b : FVec Ideal S512x256 .f32) (acc : FVec Ideal S1024x1 .f32)
    (A B : Mat) (i j : ℕ) (ha : ∀ (r : Fin 1024) (d : Fin 256), a (ix2 r d) = A (ix2 (rowOf i r) d))
    (hb : ∀ (k : Fin 512) (d : Fin 256), b (ix2 k d) = B (ix2 (colOf j k) d)) (r : Fin 1024) (u : Fin 1)
    (hacc : acc (ix2 r u) = partRowSum A B (rowOf i r) j) :
    blockUpdate a b acc (ix2 r u) = partRowSum A B (rowOf i r) (j + 1) := by
  rw [blockUpdate_rows a b acc A B i j ha hb, hacc, partRowSum_succ]

/-- The accumulators after the body at position n. -/
def AccInv (c : Dev nD) (n : ℕ) (hn : n < cfg0.N) : Prop :=
  ∀ (r : Fin 1024) (u : Fin 1),
    (outsAt0 m c n hn).2.1 (ix2 r u) = partRowSum (matX m c) (matM m c) (rowOf (n / 16) r) (n % 16 + 1)
    ∧ (outsAt0 m c n hn).2.2.1 (ix2 r u) = partRowSum (matY m c) (matM m c) (rowOf (n / 16) r) (n % 16 + 1)
    ∧ (outsAt0 m c n hn).2.2.2 (ix2 r u) = partRowSum (matX m c) (matX m c) (rowOf (n / 16) r) (n % 16 + 1)

/-- The midpoint window's block after its identity cast, read at an entry. -/
theorem colM_apply (c : Dev nD) (t : Fin cfg0.N) (k : Fin 512) (d : Fin 256) :
    k0_pay6 (F := Ideal) (iblk m c 3 t) (ix2 k d) = matM m c (ix2 (colOf (t.val % 16) k) d) :=
  (congrFun (pay6_eq (iblk m c 3 t)) (ix2 k d)).trans (iblk3_apply m c t k d)

/-- At a first column block the accumulators hold the first block's part. -/
theorem accInv_first (c : Dev nD) (t : Fin cfg0.N) (h0 : t.val % 16 = 0) : AccInv m c t.val t.isLt := by
  intro r u
  obtain ⟨e0, e1, e2⟩ := accs_first m c t h0
  have z3 : k0_pay3 (F := Ideal) (ix2 r u) = partRowSum (matX m c) (matM m c) (rowOf (t.val / 16) r) (t.val % 16) := by
    rw [h0]; exact (pay3_apply _).trans (partRowSum_zero _ _ _).symm
  have z4 : k0_pay4 (F := Ideal) (ix2 r u) = partRowSum (matY m c) (matM m c) (rowOf (t.val / 16) r) (t.val % 16) := by
    rw [h0]; exact (pay4_apply _).trans (partRowSum_zero _ _ _).symm
  have z5 : k0_pay5 (F := Ideal) (ix2 r u) = partRowSum (matX m c) (matX m c) (rowOf (t.val / 16) r) (t.val % 16) := by
    rw [h0]; exact (pay5_apply _).trans (partRowSum_zero _ _ _).symm
  refine ⟨?_, ?_, ?_⟩
  · exact (congrFun e0 (ix2 r u)).trans ((congrFun (pay8_eq (iblk m c 0 t) (iblk m c 3 t) (k0_pay3 (F := Ideal))) (ix2 r u)).trans
      (update_part (iblk m c 0 t) (k0_pay6 (iblk m c 3 t)) (k0_pay3 (F := Ideal)) (matX m c) (matM m c) (t.val / 16) (t.val % 16)
        (iblk0_apply m c t) (colM_apply m c t) r u z3))
  · exact (congrFun e1 (ix2 r u)).trans ((congrFun (pay9_eq (iblk m c 1 t) (k0_pay6 (iblk m c 3 t)) (k0_pay4 (F := Ideal))) (ix2 r u)).trans
      (update_part (iblk m c 1 t) (k0_pay6 (iblk m c 3 t)) (k0_pay4 (F := Ideal)) (matY m c) (matM m c) (t.val / 16) (t.val % 16)
        (iblk1_apply m c t) (colM_apply m c t) r u z4))
  · exact (congrFun e2 (ix2 r u)).trans ((congrFun (pay1_eq (iblk m c 0 t) (iblk m c 2 t) (k0_pay5 (F := Ideal))) (ix2 r u)).trans
      (update_part (iblk m c 0 t) (iblk m c 2 t) (k0_pay5 (F := Ideal)) (matX m c) (matX m c) (t.val / 16) (t.val % 16)
        (iblk0_apply m c t) (iblk2_apply m c t) r u z5))

/-- At any other point the accumulators hold one more block's part than at the point before. -/
theorem accInv_next (c : Dev nD) (t : Fin cfg0.N) (h0 : ¬t.val % 16 = 0)
    (ih : AccInv m c (t.val - 1) (Nat.lt_of_le_of_lt (Nat.sub_le _ _) t.isLt)) : AccInv m c t.val t.isLt := by
  intro r u
  obtain ⟨e0, e1, e2⟩ := accs_next m c t h0
  obtain ⟨p0, p1, p2⟩ := ih r u
  have d1 : (t.val - 1) / 16 = t.val / 16 := by omega
  have d2 : (t.val - 1) % 16 + 1 = t.val % 16 := by omega
  rw [d1, d2] at p0 p1 p2
  refine ⟨?_, ?_, ?_⟩
  · exact (congrFun e0 (ix2 r u)).trans ((congrFun (pay8_eq (iblk m c 0 t) (iblk m c 3 t) _) (ix2 r u)).trans
      (update_part (iblk m c 0 t) (k0_pay6 (iblk m c 3 t)) _ (matX m c) (matM m c) (t.val / 16) (t.val % 16)
        (iblk0_apply m c t) (colM_apply m c t) r u p0))
  · exact (congrFun e1 (ix2 r u)).trans ((congrFun (pay9_eq (iblk m c 1 t) (k0_pay6 (iblk m c 3 t)) _) (ix2 r u)).trans
      (update_part (iblk m c 1 t) (k0_pay6 (iblk m c 3 t)) _ (matY m c) (matM m c) (t.val / 16) (t.val % 16)
        (iblk1_apply m c t) (colM_apply m c t) r u p1))
  · exact (congrFun e2 (ix2 r u)).trans ((congrFun (pay1_eq (iblk m c 0 t) (iblk m c 2 t) _) (ix2 r u)).trans
      (update_part (iblk m c 0 t) (iblk m c 2 t) _ (matX m c) (matX m c) (t.val / 16) (t.val % 16)
        (iblk0_apply m c t) (iblk2_apply m c t) r u p2))

/-- The accumulators after every point, by induction on the point. -/
theorem accInv (c : Dev nD) : ∀ (n : ℕ) (hn : n < cfg0.N), AccInv m c n hn
  | 0, hn => accInv_first m c ⟨0, hn⟩ (Nat.zero_mod 16)
  | n + 1, hn => by
    by_cases h0 : (n + 1) % 16 = 0
    · exact accInv_first m c ⟨n + 1, hn⟩ h0
    · exact accInv_next m c ⟨n + 1, hn⟩ h0 (accInv c n (Nat.lt_of_succ_lt hn))

/-- At a last column block the accumulators hold the whole row sums. -/
theorem accs_last (c : Dev nD) (t : Fin cfg0.N) (h1 : t.val % 16 = 15) (r : Fin 1024) (u : Fin 1) :
    (outsAt0 m c t.val t.isLt).2.1 (ix2 r u) = rowSum (matX m c) (matM m c) (rowOf (t.val / 16) r)
    ∧ (outsAt0 m c t.val t.isLt).2.2.1 (ix2 r u) = rowSum (matY m c) (matM m c) (rowOf (t.val / 16) r)
    ∧ (outsAt0 m c t.val t.isLt).2.2.2 (ix2 r u) = rowSum (matX m c) (matX m c) (rowOf (t.val / 16) r) := by
  obtain ⟨a0, a1, a2⟩ := accInv m c t.val t.isLt r u
  have h16 : t.val % 16 + 1 = 16 := by omega
  rw [h16, partRowSum_sixteen] at a0 a1 a2
  exact ⟨a0, a1, a2⟩

/-- At a last column block the output window holds the row losses of its row block. -/
theorem out_rowLoss (c : Dev nD) (t : Fin cfg0.N) (h1 : t.val % 16 = 15) (r : Fin 1024) :
    (outsAt0 m c t.val t.isLt).1 (ix1 r)
      = (rowSum (matX m c) (matM m c) (rowOf (t.val / 16) r) + rowSum (matY m c) (matM m c) (rowOf (t.val / 16) r))
          - rowSum (matX m c) (matX m c) (rowOf (t.val / 16) r) * scale := by
  obtain ⟨a0, a1, a2⟩ := accs_last m c t h1 r 0
  refine (congrFun (out_last m c t h1) (ix1 r)).trans ((pay2_apply _ _ _ r).trans ?_)
  rw [a0, a1, a2]

end Cert.PairLoss.KernelValue

end
-- ==== Proof.KHMid.lean ====
/-
  The kernel program before its region: the midpoint matrix.

  Four host operations precede the region: the sum x + y, the constant two, its broadcast over the matrix shape, and
  the quotient. The buffer the region's fourth window reads therefore holds, entry by entry, (x + y) / 2: the
  specification's midpoint matrix of the two arguments as the memory holds them at launch.
-/
import proofs.«100745_j80685255622904_1_alg».proof.Proof.KIBase
import proofs.«100745_j80685255622904_1_alg».proof.Proof.Spec
import Idealize.ShloMosaic.Lib.Pipeline.Value

noncomputable section

namespace Cert.PairLoss.KernelHost

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The quotient's buffer at the region's entry is the four operations' composed term of the two arguments. -/
theorem V_main_v2_term (c : Dev nD) :
    V m c main_v2
      = Host.divf (addf (m ((c : Thread nD τ).loc main_arg0)) (m ((c : Thread nD τ).loc main_arg1)))
          (broadcastInDim S8192x256 ![] bcast_S_S8192x256 (constant (F := Ideal) S_ .f32 0x40000000#32)) := by
  show StableHlo.after hostOps0 (fun b => m (c, b)) (Proc.devRef .tc main_v2) = _
  after_results

/-- Entry by entry the composed term of two matrices is (x + y) / 2: the specification's midpoint matrix. -/
theorem mid_term (x y : (⟨S8192x256, .f32⟩ : BufTy).Contents (Elt Ideal)) :
    Host.divf (addf x y) (broadcastInDim S8192x256 ![] bcast_S_S8192x256 (constant (F := Ideal) S_ .f32 0x40000000#32))
      = mid x y := by
  funext j
  show Ideal.div (x j + y j)
      (broadcastInDim S8192x256 ![] bcast_S_S8192x256 (constant (F := Ideal) S_ .f32 0x40000000#32) j) = _
  rw [broadcastInDim_apply _ bcast_S_S8192x256 _ j (fun a => a.elim0) (fun a => a.elim0)]
  rfl

/-- The region finds the midpoint matrix of the two arguments in the quotient's buffer. -/
theorem V_main_v2 (c : Dev nD) :
    (V m c main_v2 : S8192x256.Idx → EReal)
      = mid (m ((c : Thread nD τ).loc main_arg0)) (m ((c : Thread nD τ).loc main_arg1)) :=
  (V_main_v2_term m c).trans (mid_term _ _)

end Cert.PairLoss.KernelHost

end
-- ==== Proof.KernelRowLoss.lean ====
/-
  The output window at a last column block holds the specification's row losses.

  The region finds the two arguments as launched and the midpoint matrix in the quotient's buffer, so at a point
  16·i + 15 the output window holds, at position r, the row loss of row 1024·i + r of the two arguments.
-/
import proofs.«100745_j80685255622904_1_alg».proof.Proof.KernelValue
import proofs.«100745_j80685255622904_1_alg».proof.Proof.KHMid
import proofs.«100745_j80685255622904_1_alg».proof.Proof.KHBlocks

set_option maxRecDepth 16384

noncomputable section

namespace Cert.PairLoss.KernelValue

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.PairLoss Cert.PairLoss.Body

variable (m : (ℓ : Loc nD τ sig) → Buf (Elt Ideal) ℓ)

/-- Row r of row block t / 16, written with and without the reduction modulo 8192, is the same row. -/
theorem rowOf_eq (t : Fin cfg0.N) (r : Fin 1024) : rowOf (t.val / 16) r = Cert.PairLoss.KernelHost.rowOf t r :=
  Fin.ext (rowOf_val (t.val / 16) (by have := t.isLt; have hN : cfg0.N = 128 := N_0; omega) r)

/-- At a last column block the output window holds the row losses of its row block. -/
theorem out_at_last (c : Dev nD) (t : Fin cfg0.N) (h : t.val % 16 = 15) (r : Fin 1024) :
    (outsAt0 m c t.val t.isLt).1 (ix1 r)
      = Cert.PairLoss.rowLoss (m ((c : Thread nD τ).loc main_arg0)) (m ((c : Thread nD τ).loc main_arg1))
          (Cert.PairLoss.KernelHost.rowOf t r) := by
  have eX : matX m c = m ((c : Thread nD τ).loc main_arg0) := V_main_arg0 m c
  have eY : matY m c = m ((c : Thread nD τ).loc main_arg1) := V_main_arg1 m c
  have eM : matM m c = mid (m ((c : Thread nD τ).loc main_arg0)) (m ((c : Thread nD τ).loc main_arg1)) :=
    Cert.PairLoss.KernelHost.V_main_v2 m c
  rw [out_rowLoss m c t h r, eX, eY, eM, rowOf_eq]
  rfl

end Cert.PairLoss.KernelValue

end
-- ==== Proof.KernelLoss.lean ====
/-
  The kernel program's run with its result named: every weakly fair execution ends with the loss of the two argument
  matrices in the result buffer, and the matrices unchanged.

  The result buffer is written by the two host operations after the region (the sum of the 8192 row losses and its
  quotient by 8192); the row losses are the output window's array, whose block i is written back once, at the last
  column block of row block i, holding (first accumulator + second − third · scale); each accumulator is by then the sum of
  sixteen block sums, which is the row's whole sum.
-/
import proofs.«100745_j80685255622904_1_alg».proof.Proof.KIMain
import proofs.«100745_j80685255622904_1_alg».proof.Proof.KHResult
import proofs.«100745_j80685255622904_1_alg».proof.Proof.KernelRowLoss

noncomputable section

namespace Cert.PairLoss.KernelValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The kernel program's run: the result is the loss of the argument matrices; both matrices end unchanged. -/
theorem run_loss : θ_run (Cert.KernelIdeal.defs (F := Ideal)) (onTc (τ := τ) (main (F := Ideal))) ⟨m, fun _ => 0, ρ⟩ (fun r => ∀ c : Dev nD,
      r.2.mem ((c.tc : Thread nD τ).loc main_v5)
        = (fun _ => Cert.PairLoss.loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v5 (Pipeline.mem_restRefs_of main_v5 (by decide) (by decide))).trans
        (Cert.PairLoss.KernelHost.result_eq m c _ _ (fun t ht r => out_at_last m c t ht r)),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩) (run_main m ρ)

end Cert.PairLoss.KernelValue

end
-- ==== Proof.RefPair1.lean ====
/-
  The reference program's first pair chain, read at an index.

  The program first forms the midpoint matrix M = (x + y) / 2. Its first chain works on the pair (x, M): the squared
  norms of the rows of x and of M (each a row sum of products, started at zero), their inner products (a contraction
  against the transposed M), the expanded squared distance |x_i|² + |M_k|² − 2·⟨x_i, M_k⟩ as an 8192 × 8192 matrix, the
  clamp, half the logarithm, and the sum along each row. Stage by stage these are the specification's
  `mid`, `sq`, `dot`, `dist`, `entry` and `rowSum`; every sum stays a symbolic sum over the column or row range.
-/
import proofs.«100745_j80685255622904_1_alg».proof.Proof.Gen.ReferenceIdeal.Read
import proofs.«100745_j80685255622904_1_alg».proof.Proof.Spec

noncomputable section

namespace Cert.PairLoss.Ref

open Cert.ReferenceIdeal Cert.ReferenceIdeal.Read Idealize.ShloMosaic Idealize.ShloMosaic.ValueIdx

/-- An argument matrix of the reference program: 8192 rows, 256 columns, extended reals. -/
abbrev Arg : Type := (⟨S8192x256, .f32⟩ : BufTy).Contents (Elt Ideal)

/-! ## The midpoint -/

/-- The program's midpoint stage is the specification's midpoint matrix. -/
theorem v2_eq (x0 x1 : Arg) : val_main_v2 (F := Ideal) x0 x1 = mid x0 x1 := by
  funext j
  rw [val_main_v2_apply, val_main_v0_apply, val_main_v1_apply, val_main_cst_apply]
  simp only [Ideal.hostDivf_def, Ideal.addf_def, Ideal.ofBits_def]
  rfl

/-! ## Index equations: the composed index maps of the stages, as coordinates -/

theorem idx6_eq (i : Fin 8192) (d : Fin 256) : idx_main_v6 (ix1 i) d = ix2 i d :=
  funext fun a => Fin.ext (by match a with | ⟨0, _⟩ => rfl | ⟨1, _⟩ => rfl)
theorem idx9_eq (k : Fin 8192) (d : Fin 256) : idx_main_v9 (ix1 k) d = ix2 k d :=
  funext fun a => Fin.ext (by match a with | ⟨0, _⟩ => rfl | ⟨1, _⟩ => rfl)
theorem idx7_11_eq (i k : Fin 8192) : idx_main_v7 (idx_main_v11 (ix2 i k)) = ix1 i :=
  funext fun a => Fin.ext (by match a with | ⟨0, _⟩ => rfl)
theorem idx10_12_eq (i k : Fin 8192) : idx_main_v10 (idx_main_v12 (ix2 i k)) = ix1 k :=
  funext fun a => Fin.ext (by match a with | ⟨0, _⟩ => rfl)
theorem lidx4_eq (i k : Fin 8192) (d : Fin 256) : lidx_main_v4 (ix2 i k) d = ix2 i d :=
  funext fun a => Fin.ext (by match a with | ⟨0, _⟩ => rfl | ⟨1, _⟩ => rfl)
theorem ridx4_3_eq (i k : Fin 8192) (d : Fin 256) : idx_main_v3 (ridx_main_v4 (ix2 i k) d) = ix2 k d :=
  funext fun a => Fin.ext (by match a with | ⟨0, _⟩ => rfl | ⟨1, _⟩ => rfl)
theorem idx25_eq (i k : Fin 8192) : idx_main_v25 (ix1 i) k = ix2 i k :=
  funext fun a => Fin.ext (by match a with | ⟨0, _⟩ => rfl | ⟨1, _⟩ => rfl)

/-! ## The stages -/

/-- The squared norm of row i of x: the row sum of the products, started at the zero word. -/
theorem v6_eq (x0 : Arg) (i : Fin 8192) : val_main_v6 (F := Ideal) x0 (ix1 i) = sq x0 i := by
  rw [val_main_v6_apply, val_main_cst_0_apply]
  simp only [val_main_v5_apply, idx6_eq, Ideal.ofBits_def, Ideal.ofBits_zero_f32, zero_add, Ideal.mulf_def]
  rfl

/-- The squared norm of row k of the midpoint matrix. -/
theorem v9_eq (x0 x1 : Arg) (k : Fin 8192) : val_main_v9 (F := Ideal) x0 x1 (ix1 k) = sq (mid x0 x1) k := by
  rw [val_main_v9_apply, val_main_cst_1_apply]
  simp only [val_main_v8_apply, v2_eq, idx9_eq, Ideal.ofBits_def, Ideal.ofBits_zero_f32, zero_add, Ideal.mulf_def]
  rfl

/-- The inner product of row i of x with row k of the midpoint matrix: the contraction against the transpose. -/
theorem v4_eq (x0 x1 : Arg) (i k : Fin 8192) :
    val_main_v4 (F := Ideal) x0 x1 (ix2 i k) = dot x0 (mid x0 x1) i k := by
  rw [val_main_v4_apply]
  simp only [val_main_v3_apply, v2_eq, lidx4_eq, ridx4_3_eq]
  rfl

/-- The expanded squared distance of row i of x to row k of the midpoint matrix. -/
theorem v16_eq (x0 x1 : Arg) (i k : Fin 8192) :
    val_main_v16 (F := Ideal) x0 x1 (ix2 i k)
      = dist (sq x0 i) (sq (mid x0 x1) k) (dot x0 (mid x0 x1) i k) := by
  rw [val_main_v16_apply, val_main_v13_apply, val_main_v15_apply, val_main_v11_apply, val_main_v7_apply,
    val_main_v12_apply, val_main_v10_apply, val_main_v14_apply, val_main_cst_2_apply, idx7_11_eq, idx10_12_eq,
    v6_eq, v9_eq, v4_eq]
  simp only [Ideal.subf_def, Ideal.addf_def, Ideal.mulf_def, Ideal.ofBits_def]
  rfl

/-- One entry of the chain's last matrix: half the logarithm of the clamped distance. -/
theorem v24_eq (x0 x1 : Arg) (i k : Fin 8192) :
    val_main_v24 (F := Ideal) x0 x1 (ix2 i k)
      = entry (sq x0 i) (sq (mid x0 x1) k) (dot x0 (mid x0 x1) i k) := by
  rw [val_main_v24_apply, val_main_v23_apply, val_main_cst_6_apply, val_main_v22_apply, val_main_v21_apply,
    val_main_v20_apply, val_main_cst_5_apply, val_main_v19_apply, val_main_v18_apply, val_main_v17_apply,
    val_main_cst_3_apply, val_main_call0_v1_apply, val_main_call0_v0_apply, val_main_cst_4_apply, v16_eq]
  simp only [Ideal.mulf_def, Ideal.hostUnary_log_def, Ideal.maximumf_def, Ideal.cmpf_def, Ideal.ofBits_def]
  rfl

/-- The chain's result at row i: the row sum of the entries, started at the zero word. -/
theorem v25_eq (x0 x1 : Arg) (i : Fin 8192) :
    val_main_v25 (F := Ideal) x0 x1 (ix1 i) = rowSum x0 (mid x0 x1) i := by
  rw [val_main_v25_apply, val_main_cst_7_apply]
  simp only [idx25_eq, v24_eq, Ideal.ofBits_def, Ideal.ofBits_zero_f32, zero_add]
  rfl

end Cert.PairLoss.Ref

end
-- ==== Proof.RefPair2.lean ====
/-
  The reference program's second pair chain, read at an index.

  The same stages as the first chain, now on the pair (y, M) with M = (x + y) / 2 the midpoint matrix: the squared norms
  of the rows of y and of M, their inner products, the expanded squared distance, the clamp, half the logarithm, and the
  sum along each row; stage by stage the specification's `sq`, `dot`, `dist`, `entry` and `rowSum`.
-/
import proofs.«100745_j80685255622904_1_alg».proof.Proof.RefPair1

noncomputable section

namespace Cert.PairLoss.Ref

open Cert.ReferenceIdeal Cert.ReferenceIdeal.Read Idealize.ShloMosaic Idealize.ShloMosaic.ValueIdx

/-! ## Index equations: the composed index maps of the stages, as coordinates -/

theorem idx29_eq (i : Fin 8192) (d : Fin 256) : idx_main_v29 (ix1 i) d = ix2 i d :=
  funext fun a => Fin.ext (by match a with | ⟨0, _⟩ => rfl | ⟨1, _⟩ => rfl)
theorem idx32_eq (k : Fin 8192) (d : Fin 256) : idx_main_v32 (ix1 k) d = ix2 k d :=
  funext fun a => Fin.ext (by match a with | ⟨0, _⟩ => rfl | ⟨1, _⟩ => rfl)
theorem idx30_34_eq (i k : Fin 8192) : idx_main_v30 (idx_main_v34 (ix2 i k)) = ix1 i :=
  funext fun a => Fin.ext (by match a with | ⟨0, _⟩ => rfl)
theorem idx33_35_eq (i k : Fin 8192) : idx_main_v33 (idx_main_v35 (ix2 i k)) = ix1 k :=
  funext fun a => Fin.ext (by match a with | ⟨0, _⟩ => rfl)
theorem lidx27_eq (i k : Fin 8192) (d : Fin 256) : lidx_main_v27 (ix2 i k) d = ix2 i d :=
  funext fun a => Fin.ext (by match a with | ⟨0, _⟩ => rfl | ⟨1, _⟩ => rfl)
theorem ridx27_26_eq (i k : Fin 8192) (d : Fin 256) : idx_main_v26 (ridx_main_v27 (ix2 i k) d) = ix2 k d :=
  funext fun a => Fin.ext (by match a with | ⟨0, _⟩ => rfl | ⟨1, _⟩ => rfl)
theorem idx48_eq (i k : Fin 8192) : idx_main_v48 (ix1 i) k = ix2 i k :=
  funext fun a => Fin.ext (by match a with | ⟨0, _⟩ => rfl | ⟨1, _⟩ => rfl)

/-! ## The stages -/

/-- The squared norm of row i of the chain's first matrix: the row sum of the products, started at the zero word. -/
theorem v29_eq (x1 : Arg) (i : Fin 8192) : val_main_v29 (F := Ideal) x1 (ix1 i) = sq x1 i := by
  rw [val_main_v29_apply, val_main_cst_8_apply]
  simp only [val_main_v28_apply, idx29_eq, Ideal.ofBits_def, Ideal.ofBits_zero_f32, zero_add, Ideal.mulf_def]
  rfl

/-- The squared norm of row k of the midpoint matrix. -/
theorem v32_eq (x0 x1 : Arg) (k : Fin 8192) : val_main_v32 (F := Ideal) x0 x1 (ix1 k) = sq (mid x0 x1) k := by
  rw [val_main_v32_apply, val_main_cst_9_apply]
  simp only [val_main_v31_apply, v2_eq, idx32_eq, Ideal.ofBits_def, Ideal.ofBits_zero_f32, zero_add, Ideal.mulf_def]
  rfl

/-- The inner product of row i of the first matrix with row k of the midpoint matrix: the contraction against the transpose. -/
theorem v27_eq (x0 x1 : Arg) (i k : Fin 8192) :
    val_main_v27 (F := Ideal) x0 x1 (ix2 i k) = dot x1 (mid x0 x1) i k := by
  rw [val_main_v27_apply]
  simp only [val_main_v26_apply, v2_eq, lidx27_eq, ridx27_26_eq]
  rfl

/-- The expanded squared distance of row i of the first matrix to row k of the midpoint matrix. -/
theorem v39_eq (x0 x1 : Arg) (i k : Fin 8192) :
    val_main_v39 (F := Ideal) x0 x1 (ix2 i k)
      = dist (sq x1 i) (sq (mid x0 x1) k) (dot x1 (mid x0 x1) i k) := by
  rw [val_main_v39_apply, val_main_v36_apply, val_main_v38_apply, val_main_v34_apply, val_main_v30_apply,
    val_main_v35_apply, val_main_v33_apply, val_main_v37_apply, val_main_cst_10_apply, idx30_34_eq, idx33_35_eq,
    v29_eq, v32_eq, v27_eq]
  simp only [Ideal.subf_def, Ideal.addf_def, Ideal.mulf_def, Ideal.ofBits_def]
  rfl

/-- One entry of the chain's last matrix: half the logarithm of the clamped distance. -/
theorem v47_eq (x0 x1 : Arg) (i k : Fin 8192) :
    val_main_v47 (F := Ideal) x0 x1 (ix2 i k)
      = entry (sq x1 i) (sq (mid x0 x1) k) (dot x1 (mid x0 x1) i k) := by
  rw [val_main_v47_apply, val_main_v46_apply, val_main_cst_14_apply, val_main_v45_apply, val_main_v44_apply,
    val_main_v43_apply, val_main_cst_13_apply, val_main_v42_apply, val_main_v41_apply, val_main_v40_apply,
    val_main_cst_11_apply, val_main_call1_v1_apply, val_main_call1_v0_apply, val_main_cst_12_apply, v39_eq]
  simp only [Ideal.mulf_def, Ideal.hostUnary_log_def, Ideal.maximumf_def, Ideal.cmpf_def, Ideal.ofBits_def]
  rfl

/-- The chain's result at row i: the row sum of the entries, started at the zero word. -/
theorem v48_eq (x0 x1 : Arg) (i : Fin 8192) :
    val_main_v48 (F := Ideal) x0 x1 (ix1 i) = rowSum x1 (mid x0 x1) i := by
  rw [val_main_v48_apply, val_main_cst_15_apply]
  simp only [idx48_eq, v47_eq, Ideal.ofBits_def, Ideal.ofBits_zero_f32, zero_add]
  rfl

end Cert.PairLoss.Ref

end
-- ==== Proof.RefPair3.lean ====
/-
  The reference program's third pair chain, read at an index.

  The same stages as the first chain, now on the pair (x, x): the squared norms of the rows of x (formed twice, once for
  each side), the inner products of its rows with one another, the expanded squared distance, the clamp, half the
  logarithm, and the sum along each row; stage by stage the specification's `sq`, `dot`, `dist`, `entry` and `rowSum`.
-/
import proofs.«100745_j80685255622904_1_alg».proof.Proof.RefPair1

noncomputable section

namespace Cert.PairLoss.Ref

open Cert.ReferenceIdeal Cert.ReferenceIdeal.Read Idealize.ShloMosaic Idealize.ShloMosaic.ValueIdx

/-! ## Index equations: the composed index maps of the stages, as coordinates -/

theorem idx53_eq (i : Fin 8192) (d : Fin 256) : idx_main_v53 (ix1 i) d = ix2 i d :=
  funext fun a => Fin.ext (by match a with | ⟨0, _⟩ => rfl | ⟨1, _⟩ => rfl)
theorem idx56_eq (k : Fin 8192) (d : Fin 256) : idx_main_v56 (ix1 k) d = ix2 k d :=
  funext fun a => Fin.ext (by match a with | ⟨0, _⟩ => rfl | ⟨1, _⟩ => rfl)
theorem idx54_58_eq (i k : Fin 8192) : idx_main_v54 (idx_main_v58 (ix2 i k)) = ix1 i :=
  funext fun a => Fin.ext (by match a with | ⟨0, _⟩ => rfl)
theorem idx57_59_eq (i k : Fin 8192) : idx_main_v57 (idx_main_v59 (ix2 i k)) = ix1 k :=
  funext fun a => Fin.ext (by match a with | ⟨0, _⟩ => rfl)
theorem lidx51_eq (i k : Fin 8192) (d : Fin 256) : lidx_main_v51 (ix2 i k) d = ix2 i d :=
  funext fun a => Fin.ext (by match a with | ⟨0, _⟩ => rfl | ⟨1, _⟩ => rfl)
theorem ridx51_50_eq (i k : Fin 8192) (d : Fin 256) : idx_main_v50 (ridx_main_v51 (ix2 i k) d) = ix2 k d :=
  funext fun a => Fin.ext (by match a with | ⟨0, _⟩ => rfl | ⟨1, _⟩ => rfl)
theorem idx72_eq (i k : Fin 8192) : idx_main_v72 (ix1 i) k = ix2 i k :=
  funext fun a => Fin.ext (by match a with | ⟨0, _⟩ => rfl | ⟨1, _⟩ => rfl)

/-! ## The stages -/

/-- The squared norm of row i of the chain's first matrix: the row sum of the products, started at the zero word. -/
theorem v53_eq (x0 : Arg) (i : Fin 8192) : val_main_v53 (F := Ideal) x0 (ix1 i) = sq x0 i := by
  rw [val_main_v53_apply, val_main_cst_16_apply]
  simp only [val_main_v52_apply, idx53_eq, Ideal.ofBits_def, Ideal.ofBits_zero_f32, zero_add, Ideal.mulf_def]
  rfl

/-- The squared norm of row k of the same matrix. -/
theorem v56_eq (x0 : Arg) (k : Fin 8192) : val_main_v56 (F := Ideal) x0 (ix1 k) = sq x0 k := by
  rw [val_main_v56_apply, val_main_cst_17_apply]
  simp only [val_main_v55_apply, idx56_eq, Ideal.ofBits_def, Ideal.ofBits_zero_f32, zero_add, Ideal.mulf_def]
  rfl

/-- The inner product of row i of the first matrix with row k of the same matrix: the contraction against the transpose. -/
theorem v51_eq (x0 : Arg) (i k : Fin 8192) :
    val_main_v51 (F := Ideal) x0 (ix2 i k) = dot x0 x0 i k := by
  rw [val_main_v51_apply]
  simp only [val_main_v50_apply, lidx51_eq, ridx51_50_eq]
  rfl

/-- The expanded squared distance of row i of the first matrix to row k of the same matrix. -/
theorem v63_eq (x0 : Arg) (i k : Fin 8192) :
    val_main_v63 (F := Ideal) x0 (ix2 i k)
      = dist (sq x0 i) (sq x0 k) (dot x0 x0 i k) := by
  rw [val_main_v63_apply, val_main_v60_apply, val_main_v62_apply, val_main_v58_apply, val_main_v54_apply,
    val_main_v59_apply, val_main_v57_apply, val_main_v61_apply, val_main_cst_18_apply, idx54_58_eq, idx57_59_eq,
    v53_eq, v56_eq, v51_eq]
  simp only [Ideal.subf_def, Ideal.addf_def, Ideal.mulf_def, Ideal.ofBits_def]
  rfl

/-- One entry of the chain's last matrix: half the logarithm of the clamped distance. -/
theorem v71_eq (x0 : Arg) (i k : Fin 8192) :
    val_main_v71 (F := Ideal) x0 (ix2 i k)
      = entry (sq x0 i) (sq x0 k) (dot x0 x0 i k) := by
  rw [val_main_v71_apply, val_main_v70_apply, val_main_cst_22_apply, val_main_v69_apply, val_main_v68_apply,
    val_main_v67_apply, val_main_cst_21_apply, val_main_v66_apply, val_main_v65_apply, val_main_v64_apply,
    val_main_cst_19_apply, val_main_call2_v1_apply, val_main_call2_v0_apply, val_main_cst_20_apply, v63_eq]
  simp only [Ideal.mulf_def, Ideal.hostUnary_log_def, Ideal.maximumf_def, Ideal.cmpf_def, Ideal.ofBits_def]
  rfl

/-- The chain's result at row i: the row sum of the entries, started at the zero word. -/
theorem v72_eq (x0 : Arg) (i : Fin 8192) :
    val_main_v72 (F := Ideal) x0 (ix1 i) = rowSum x0 x0 i := by
  rw [val_main_v72_apply, val_main_cst_23_apply]
  simp only [idx72_eq, v71_eq, Ideal.ofBits_def, Ideal.ofBits_zero_f32, zero_add]
  rfl

end Cert.PairLoss.Ref

end
-- ==== Proof.RefIsLoss.lean ====
/-
  The reference program is the specification.

  After its three pair chains the program adds the first two chains' row sums, subtracts the third's times the scale
  word, sums the 8192 row values (started at the zero word) and divides by the count word. With the three chains read as
  the specification's row sums, row i's value is the specification's row loss and the result is the mean of the row
  losses: the program's one result is the specification's `loss` of its two arguments, whatever the (scalar) index.
-/
import proofs.«100745_j80685255622904_1_alg».proof.Proof.RefPair2
import proofs.«100745_j80685255622904_1_alg».proof.Proof.RefPair3
import proofs.«100745_j80685255622904_1_alg».proof.Proof.LibSumIdx1

noncomputable section

namespace Cert.PairLoss.Ref

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- Row i's value before the last sum: the first two chains' row sums added, less the third's times the scale word. -/
theorem v75_eq (x0 x1 : Arg) (i : Fin 8192) :
    val_main_v75 (F := Ideal) x0 x1 (ix1 i) = rowLoss x0 x1 i := by
  rw [val_main_v75_apply, val_main_v49_apply, val_main_v74_apply, val_main_v73_apply, val_main_cst_24_apply,
    v25_eq, v48_eq, v72_eq]
  simp only [Ideal.subf_def, Ideal.addf_def, Ideal.mulf_def, Ideal.ofBits_def]
  rfl

/-- The program's result, at its one index, is the specification's loss: the sum of the row losses (started at the
    zero word) divided by the count word. -/
theorem ref_eq (x0 x1 : Arg) :
    val_main_v77 (F := Ideal) x0 x1 = fun _ => loss x0 x1 := by
  funext j
  rw [val_main_v77_apply, val_main_v76_apply, val_main_cst_25_apply, val_main_cst_26_apply, sum_idx1]
  simp only [v75_eq, Ideal.hostDivf_def, Ideal.ofBits_def, Ideal.ofBits_zero_f32, zero_add]
  rfl

/-- The same, on the term the program's run names as its result: for any memory `m` and device `c`, that term is
    the specification's loss of the two argument arrays as `m` holds them. -/
theorem res_eq (m : (ℓ : Loc nD τ sig) → Buf (Elt Ideal) ℓ) (c : Dev nD) :
    Cert.ReferenceIdeal.Value.res_main_v77 (F := Ideal) m c
      = fun _ => loss (m ((c.tc : Thread nD τ).loc main_arg0)) (m ((c.tc : Thread nD τ).loc main_arg1)) :=
  (val_main_v77_eq m c).trans (ref_eq _ _)

end Cert.PairLoss.Ref

end
-- ==== Proof.lean ====
/-
  The certificate: the kernel program and the reference compute one function.

  At the extended reals both programs end with the mean, over the 8192 rows i of x, of
  (rowSum x M i + rowSum y M i) − rowSum x x i · scale, M = (x + y)/2 the midpoint matrix (Proof/Spec.lean): the
  reference sums each row of its three 8192 × 8192 matrices at once, the kernel adds sixteen sums of 512 consecutive
  entries into an accumulator carried across the column blocks — the same sum, regrouped, which is free in a
  commutative monoid, so the argument matrices' finiteness is never used. The kernel's change of float format before its
  matrix products is the identity on extended reals, and no operation of the kernel was rewritten when it was idealized
  (the preservation claim is trivial). The three frames: the reference's is its run with the result dropped; the
  kernel's, at either instance, is the region's run — two of its input windows are blocks of the one matrix x, each
  holding half of it — with both argument matrices read off as input windows' arrays.
-/
import proofs.«100745_j80685255622904_1_alg».proof.Defs
import proofs.«100745_j80685255622904_1_alg».proof.Proof.Gen.Kernel
import proofs.«100745_j80685255622904_1_alg».proof.Proof.Gen.KernelIdeal
import proofs.«100745_j80685255622904_1_alg».proof.Proof.Gen.ReferenceIdeal
import proofs.«100745_j80685255622904_1_alg».proof.Proof.Gen.Pre_finite_inputs
import proofs.«100745_j80685255622904_1_alg».proof.Proof.Gen.ReferenceIdeal.Run
import proofs.«100745_j80685255622904_1_alg».proof.Proof.KBMain
import proofs.«100745_j80685255622904_1_alg».proof.Proof.KIMain
import proofs.«100745_j80685255622904_1_alg».proof.Proof.KernelLoss
import proofs.«100745_j80685255622904_1_alg».proof.Proof.RefIsLoss
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the loss of the (agreeing) argument matrices. -/
theorem algebraic : Cert.algebraic_KernelIdeal_ReferenceIdeal := by
  intro m ρ m' ρ' _ hagree
  refine ⟨fun c => fun _ => Cert.PairLoss.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.PairLoss.KernelValue.run_loss m ρ, ?_⟩
  refine (θ_run Cert.ReferenceIdeal.defs _ _).mono (fun _ h c => ⟨(h c).1.trans ?_, (h c).2⟩)
    (Cert.ReferenceIdeal.Value.run (F := Ideal) m' ρ')
  rw [Cert.PairLoss.Ref.res_eq m' c, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
